-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S512x256 : Shape := ⟨2, ![512, 256]⟩
abbrev S256 : Shape := ⟨1, ![256]⟩
abbrev S256x64 : Shape := ⟨2, ![256, 64]⟩
abbrev S64 : Shape := ⟨1, ![64]⟩
abbrev S8192x64 : Shape := ⟨2, ![8192, 64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S8192x64 : S_.BroadcastsInDim S8192x64 (![] : Fin 0 → Fin S8192x64.rank)
  reducesTo_S8192x64_S_d0_1 : S8192x64.ReducesTo [0, 1] S_

variable [Facts]

def fn_part2 {F : FTy → Type} [FloatOps F] (main_arg8 : FVec F S8192x64 .f32) (main_v33 : IVec S_ 1) : IVec S_ 1 :=
  let main_v34 : FVec F S8192x64 .f32 := Host.absf main_arg8
  let main_cst_12 : FVec F S_ .f32 := constant S_ .f32 0x7F800000#32
  let main_v35 : FVec F S8192x64 .f32 := broadcastInDim S8192x64 ![] bcast_S_S8192x64 main_cst_12
  let main_v36 : IVec S8192x64 1 := cmpf .olt main_v34 main_v35
  let main_c_13 : IVec S_ 1 := constantI S_ 1 1#1
  let main_v37 : IVec S_ 1 := (fun x v => Host.reduce IntOp.andi x v reducesTo_S8192x64_S_d0_1 h_S_) main_v36 main_c_13
  let main_v38 : IVec S_ 1 := andi main_v33 main_v37
  main_v38

def fn_part1 {F : FTy → Type} [FloatOps F] (main_arg5 : FVec F S64 .f32) (main_arg6 : FVec F S256x64 .f32) (main_arg7 : FVec F S64 .f32) (main_arg8 : FVec F S8192x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S8192x512 .f32) (main_arg1 : IVec S2x262144 32) (main_arg2 : FVec F S512x256 .f32) (main_arg3 : FVec F S256 .f32) (main_arg4 : FVec F S256x64 .f32) (main_arg5 : FVec F S64 .f32) (main_arg6 : FVec F S256x64 .f32) (main_arg7 : FVec F S64 .f32) (main_arg8 : FVec F S8192x64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_v13 main_v16
-- ==== Kernel.lean ====
abbrev S8192x512 : Shape := ⟨2, ![8192, 512]⟩
abbrev S2x262144 : Shape := ⟨2, ![2, 262144]⟩
abbrev S512x256 : Shape := ⟨2, ![512, 256]⟩
abbrev S256 : Shape := ⟨1, ![256]⟩
abbrev S256x64 : Shape := ⟨2, ![256, 64]⟩
abbrev S64 : Shape := ⟨1, ![64]⟩
abbrev S8192x64 : Shape := ⟨2, ![8192, 64]⟩
abbrev S1x262144 : Shape := ⟨2, ![1, 262144]⟩
abbrev S262144 : Shape := ⟨1, ![262144]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S1x256 : Shape := ⟨2, ![1, 256]⟩
abbrev S8192x256 : Shape := ⟨2, ![8192, 256]⟩
abbrev S1024x512 : Shape := ⟨2, ![1024, 512]⟩
abbrev S1024x1 : Shape := ⟨2, ![1024, 1]⟩
abbrev S1024x256 : Shape := ⟨2, ![1024, 256]⟩
abbrev S262144x256 : Shape := ⟨2, ![262144, 256]⟩
abbrev S1x64 : Shape := ⟨2, ![1, 64]⟩
abbrev S1024x64 : Shape := ⟨2, ![1024, 64]⟩
abbrev S262144x64 : Shape := ⟨2, ![262144, 64]⟩
abbrev S8192x8192 : Shape := ⟨2, ![8192, 8192]⟩
abbrev S1024x1024 : Shape := ⟨2, ![1024, 1024]⟩

abbrev nBuf : Space → Nat
  | .hbm => 111
  | .vmem => 36
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S256x64, .f32⟩
  | .hbm, ⟨7, _⟩ => ⟨S64, .f32⟩
  | .hbm, ⟨8, _⟩ => ⟨S8192x64, .f32⟩
  | .hbm, ⟨9, _⟩ => ⟨S1x262144, .i32⟩
  | .hbm, ⟨10, _⟩ => ⟨S262144, .i32⟩
  | .hbm, ⟨11, _⟩ => ⟨S1x262144, .i32⟩
  | .hbm, ⟨12, _⟩ => ⟨S262144, .i32⟩
  | .hbm, ⟨13, _⟩ => ⟨S_, .f32⟩
  | .hbm, ⟨14, _⟩ => ⟨S262144, .f32⟩
  | .hbm, ⟨15, _⟩ => ⟨S_, .f32⟩
  | .hbm, ⟨16, _⟩ => ⟨S8192, .f32⟩
  | .hbm, ⟨17, _⟩ => ⟨S262144x1, .i32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144, .f32⟩
  | .hbm, ⟨36, _⟩ => ⟨S_, .i32⟩
  | .hbm, ⟨37, _⟩ => ⟨S262144, .i32⟩
  | .hbm, ⟨38, _⟩ => ⟨S262144, .i1⟩
  | .hbm, ⟨39, _⟩ => ⟨S_, .i32⟩
  | .hbm, ⟨40, _⟩ => ⟨S262144, .i32⟩
  | .hbm, ⟨41, _⟩ => ⟨S262144, .i32⟩
  | .hbm, ⟨42, _⟩ => ⟨S262144, .i32⟩
  | .hbm, ⟨43, _⟩ => ⟨S262144x1, .i32⟩
  | .hbm, ⟨44, _⟩ => ⟨S262144, .f32⟩
  | .hbm, ⟨45, _⟩ => ⟨S262144, .f32⟩
  | .hbm, ⟨46, _⟩ => ⟨S262144x1, .f32⟩
  | .hbm, ⟨47, _⟩ => ⟨S1x256, .f32⟩
  | .hbm, ⟨48, _⟩ => ⟨S8192x256, .f32⟩
  | .hbm, ⟨49, _⟩ => ⟨S8192x256, .f32⟩
  | .hbm, ⟨50, _⟩ => ⟨S_, .i32⟩
  | .hbm, ⟨51, _⟩ => ⟨S262144, .i32⟩
  | .hbm, ⟨52, _⟩ => ⟨S262144, .i1⟩
  | .hbm, ⟨53, _⟩ => ⟨S_, .i32⟩
  | .hbm, ⟨54, _⟩ => ⟨S262144, .i32⟩
  | .hbm, ⟨55, _⟩ => ⟨S262144, .i32⟩
  | .hbm, ⟨56, _⟩ => ⟨S262144, .i32⟩
  | .hbm, ⟨57, _⟩ => ⟨S262144x1, .i32⟩
  | .hbm, ⟨58, _⟩ => ⟨S262144x256, .f32⟩
  | .hbm, ⟨59, _⟩ => ⟨S262144x256, .f32⟩
  | .hbm, ⟨60, _⟩ => ⟨S262144x256, .f32⟩
  | .hbm, ⟨61, _⟩ => ⟨S_, .f32⟩
  | .hbm, ⟨62, _⟩ => ⟨S8192x256, .f32⟩
  | .hbm, ⟨63, _⟩ => ⟨S262144x1, .i32⟩
  | .hbm, ⟨64, _⟩ => ⟨S8192x256, .f32⟩
  | .hbm, ⟨65, _⟩ => ⟨S8192x256, .f32⟩
  | .hbm, ⟨66, _⟩ => ⟨S_, .f32⟩
  | .hbm, ⟨67, _⟩ => ⟨S8192x256, .f32⟩
  | .hbm, ⟨68, _⟩ => ⟨S8192x256, .f32⟩
  | .hbm, ⟨69, _⟩ => ⟨S1x64, .f32⟩
  | .hbm, ⟨70, _⟩ => ⟨S8192x64, .f32⟩
  | .hbm, ⟨71, _⟩ => ⟨S8192x64, .f32⟩
  | .hbm, ⟨72, _⟩ => ⟨S_, .i32⟩
  | .hbm, ⟨73, _⟩ => ⟨S262144, .i32⟩
  | .hbm, ⟨74, _⟩ => ⟨S262144, .i1⟩
  | .hbm, ⟨75, _⟩ => ⟨S_, .i32⟩
  | .hbm, ⟨76, _⟩ => ⟨S262144, .i32⟩
  | .hbm, ⟨77, _⟩ => ⟨S262144, .i32⟩
  | .hbm, ⟨78, _⟩ => ⟨S262144, .i32⟩
  | .hbm, ⟨79, _⟩ => ⟨S262144x1, .i32⟩
  | .hbm, ⟨80, _⟩ => ⟨S262144x64, .f32⟩
  | .hbm, ⟨81, _⟩ => ⟨S262144x64, .f32⟩
  | .hbm, ⟨82, _⟩ => ⟨S262144x64, .f32⟩
  | .hbm, ⟨83, _⟩ => ⟨S_, .f32⟩
  | .hbm, ⟨84, _⟩ => ⟨S8192x64, .f32⟩
  | .hbm, ⟨85, _⟩ => ⟨S262144x1, .i32⟩
  | .hbm, ⟨86, _⟩ => ⟨S8192x64, .f32⟩
  | .hbm, ⟨87, _⟩ => ⟨S8192x64, .f32⟩
  | .hbm, ⟨88, _⟩ => ⟨S1x64, .f32⟩
  | .hbm, ⟨89, _⟩ => ⟨S8192x64, .f32⟩
  | .hbm, ⟨90, _⟩ => ⟨S8192x64, .f32⟩
  | .hbm, ⟨91, _⟩ => ⟨S_, .i32⟩
  | .hbm, ⟨92, _⟩ => ⟨S262144, .i32⟩
  | .hbm, ⟨93, _⟩ => ⟨S262144, .i1⟩
  | .hbm, ⟨94, _⟩ => ⟨S_, .i32⟩
  | .hbm, ⟨95, _⟩ => ⟨S262144, .i32⟩
  | .hbm, ⟨96, _⟩ => ⟨S262144, .i32⟩
  | .hbm, ⟨97, _⟩ => ⟨S262144, .i32⟩
  | .hbm, ⟨98, _⟩ => ⟨S262144x1, .i32⟩
  | .hbm, ⟨99, _⟩ => ⟨S262144x64, .f32⟩
  | .hbm, ⟨100, _⟩ => ⟨S262144x64, .f32⟩
  | .hbm, ⟨101, _⟩ => ⟨S262144x64, .f32⟩
  | .hbm, ⟨102, _⟩ => ⟨S_, .f32⟩
  | .hbm, ⟨103, _⟩ => ⟨S8192x64, .f32⟩
  | .hbm, ⟨104, _⟩ => ⟨S262144x1, .i32⟩
  | .hbm, ⟨105, _⟩ => ⟨S8192x64, .f32⟩
  | .hbm, ⟨106, _⟩ => ⟨S8192x64, .f32⟩
  | .hbm, ⟨107, _⟩ => ⟨S8192x64, .f32⟩
  | .hbm, ⟨108, _⟩ => ⟨S8192x64, .f32⟩
  | .hbm, ⟨109, _⟩ => ⟨S8192x64, .f32⟩
  | .hbm, ⟨110, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x1, .f32⟩
  | .local _ .vmem, ⟨4, _⟩ => ⟨S1024x1, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S256x64, .f32⟩
  | .local _ .vmem, ⟨13, _⟩ => ⟨S1024x1, .f32⟩
  | .local _ .vmem, ⟨14, _⟩ => ⟨S1024x1, .f32⟩
  | .local _ .vmem, ⟨15, _⟩ => ⟨S1x64, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | .local _ .vmem, ⟨20, _⟩ => ⟨S1024x256, .f32⟩
  | .local _ .vmem, ⟨21, _⟩ => ⟨S1024x256, .f32⟩
  | .local _ .vmem, ⟨22, _⟩ => ⟨S256x64, .f32⟩
  | .local _ .vmem, ⟨23, _⟩ => ⟨S1024x1, .f32⟩
  | .local _ .vmem, ⟨24, _⟩ => ⟨S1024x1, .f32⟩
  | .local _ .vmem, ⟨25, _⟩ => ⟨S1x64, .f32⟩
  | .local _ .vmem, ⟨26, _⟩ => ⟨S1024x64, .f32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S1024x64, .f32⟩
  | .local _ .vmem, ⟨31, _⟩ => ⟨S1024x64, .f32⟩
  | .local _ .vmem, ⟨32, _⟩ => ⟨S1024x64, .f32⟩
  | .local _ .vmem, ⟨33, _⟩ => ⟨S1024x64, .f32⟩
  | .local _ .vmem, ⟨34, _⟩ => ⟨S1024x1024, .f32⟩
  | .local _ .vmem, ⟨35, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31_0 : Ref sig .tc := ⟨.hbm, 48, rfl⟩
abbrev main_v31_1 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call0_cst : Ref sig .tc := ⟨.hbm, 66, rfl⟩
abbrev main_call0_v0 : Ref sig .tc := ⟨.hbm, 67, rfl⟩
abbrev main_v45 : Ref sig .tc := ⟨.hbm, 68, rfl⟩
abbrev main_v46 : Ref sig .tc := ⟨.hbm, 69, rfl⟩
abbrev main_v47_0 : Ref sig .tc := ⟨.hbm, 70, rfl⟩
abbrev main_v47_1 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62_0 : Ref sig .tc := ⟨.hbm, 89, rfl⟩
abbrev main_v62_1 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  shapeCasts_S8192_S8192x1 : S8192.ShapeCasts S8192x1
  shapeCasts_S262144_S262144x1 : S262144.ShapeCasts S262144x1
  shapeCasts_S256_S1x256 : S256.ShapeCasts S1x256
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  shapeCasts_S64_S1x64 : S64.ShapeCasts S1x64
  shapeCasts_S1024x256_S1024x256 : S1024x256.ShapeCasts S1024x256
  inb_S256x64_S256x64_0_0 : ∀ a, (![0, 0] : Fin 2 → Nat) a + S256x64.size a ≤ S256x64.size a
  h_S256x64 : 0 < S256x64.numel
  inb_S1024x64_S1024x64_0_0 : ∀ a, (![0, 0] : Fin 2 → Nat) a + S1024x64.size a ≤ S1024x64.size a
  h_S1024x64 : 0 < S1024x64.numel
  broadcasts_S1024x1_S1024x64 : S1024x1.Broadcasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  bcast_S262144x1_S262144x64_0_1 : S262144x1.BroadcastsInDim S262144x64 (![0, 1] : Fin 2 → Fin S262144x64.rank)
  bcast_S_S8192x64 : S_.BroadcastsInDim S8192x64 (![] : Fin 0 → Fin S8192x64.rank)
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  scatter_S8192_S262144x1_S262144_n_0_0_1_wf : ScatterDims.WF S8192 S262144x1 S262144 [] [0] [0] 1
  gather_S8192_S262144x1_S262144_n_0_n_n_0_1_1_wf : GatherDims.WF S8192 S262144x1 S262144 [] [0] [] [0] [] 1 ![1]
  dot_S1024x512_S512x256_S1024x256_1_0_0_1_n_n_wf : DotDims.WF S1024x512 S512x256 S1024x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S1024x256_S256x64_S1024x64_1_0_0_1_n_n_wf : DotDims.WF S1024x256 S256x64 S1024x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .f32 = 32 ∨ (Rect.block (s := S8192x256) S1024x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S8192x64.size a
  hwx1_4 : ∀ i : grid1.Coords, EltTy.bits .f32 = 32 ∨ (Rect.block (s := S8192x64) S1024x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S8192x64.size a
  hwx1_5 : ∀ i : grid1.Coords, EltTy.bits .f32 = 32 ∨ (Rect.block (s := S8192x64) S1024x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x64.size a ≤ S8192x64.size a
  hwx2_4 : ∀ i : grid2.Coords, EltTy.bits .f32 = 32 ∨ (Rect.block (s := S8192x64) S1024x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x64.size a ≤ S8192x64.size a
  hwx2_5 : ∀ i : grid2.Coords, EltTy.bits .f32 = 32 ∨ (Rect.block (s := S8192x64) S1024x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S8192x64.size a
  hwx3_0 : ∀ i : grid3.Coords, EltTy.bits .f32 = 32 ∨ (Rect.block (s := S8192x64) S1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S8192x64.size a
  hwx3_1 : ∀ i : grid3.Coords, EltTy.bits .f32 = 32 ∨ (Rect.block (s := S8192x64) S1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S8192x8192.size a
  hwx3_2 : ∀ i : grid3.Coords, EltTy.bits .f32 = 32 ∨ (Rect.block (s := S8192x8192) S1024x1024.size (cc3_transform_2 i) (hinb3_2 i)).WholeWords (EltTy.packing .f32)

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31_1) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47_0) S1024x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v47_1) S1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62_0) S1024x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v62_1) S1024x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v78) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192x512 : Shape := ⟨2, ![8192, 512]⟩
abbrev S2x262144 : Shape := ⟨2, ![2, 262144]⟩
abbrev S512x256 : Shape := ⟨2, ![512, 256]⟩
abbrev S256 : Shape := ⟨1, ![256]⟩
abbrev S256x64 : Shape := ⟨2, ![256, 64]⟩
abbrev S64 : Shape := ⟨1, ![64]⟩
abbrev S8192x64 : Shape := ⟨2, ![8192, 64]⟩
abbrev S1x262144 : Shape := ⟨2, ![1, 262144]⟩
abbrev S262144 : Shape := ⟨1, ![262144]⟩
abbrev S_ : Shape := ⟨0, ![]⟩
abbrev S8192 : Shape := ⟨1, ![8192]⟩
abbrev S262144x1 : Shape := ⟨2, ![262144, 1]⟩
abbrev S8192x256 : Shape := ⟨2, ![8192, 256]⟩
abbrev S262144x256 : Shape := ⟨2, ![262144, 256]⟩
abbrev S8192x1 : Shape := ⟨2, ![8192, 1]⟩
abbrev S1x256 : Shape := ⟨2, ![1, 256]⟩
abbrev S262144x64 : Shape := ⟨2, ![262144, 64]⟩
abbrev S1x64 : Shape := ⟨2, ![1, 64]⟩
abbrev S64x8192 : Shape := ⟨2, ![64, 8192]⟩
abbrev S8192x8192 : Shape := ⟨2, ![8192, 8192]⟩

abbrev nBuf : Space → Nat
  | .hbm => 173
  | .vmem => 0
  | .smem => 0
  | _ => 0

abbrev hbmTy0_0 (i : Nat) : BufTy := match i % 128 with
  | 0 => ⟨S8192x512, .f32⟩
  | 1 => ⟨S2x262144, .i32⟩
  | 2 => ⟨S512x256, .f32⟩
  | 3 => ⟨S256, .f32⟩
  | 4 => ⟨S256x64, .f32⟩
  | 5 => ⟨S64, .f32⟩
  | 6 => ⟨S256x64, .f32⟩
  | 7 => ⟨S64, .f32⟩
  | 8 => ⟨S8192x64, .f32⟩
  | 9 => ⟨S1x262144, .i32⟩
  | 10 => ⟨S262144, .i32⟩
  | 11 => ⟨S1x262144, .i32⟩
  | 12 => ⟨S262144, .i32⟩
  | 13 => ⟨S_, .f32⟩
  | 14 => ⟨S262144, .f32⟩
  | 15 => ⟨S_, .f32⟩
  | 16 => ⟨S8192, .f32⟩
  | 17 => ⟨S262144x1, .i32⟩
  | 18 => ⟨S8192, .f32⟩
  | 19 => ⟨S_, .f32⟩
  | 20 => ⟨S8192, .f32⟩
  | 21 => ⟨S8192, .f32⟩
  | 22 => ⟨S_, .f32⟩
  | 23 => ⟨S8192, .f32⟩
  | 24 => ⟨S8192, .f32⟩
  | 25 => ⟨S8192x256, .f32⟩
  | 26 => ⟨S_, .i32⟩
  | 27 => ⟨S262144, .i32⟩
  | 28 => ⟨S262144, .i1⟩
  | 29 => ⟨S_, .i32⟩
  | 30 => ⟨S262144, .i32⟩
  | 31 => ⟨S262144, .i32⟩
  | 32 => ⟨S262144, .i32⟩
  | 33 => ⟨S262144x1, .i32⟩
  | 34 => ⟨S262144, .f32⟩
  | 35 => ⟨S_, .i32⟩
  | 36 => ⟨S262144, .i32⟩
  | 37 => ⟨S262144, .i1⟩
  | 38 => ⟨S_, .i32⟩
  | 39 => ⟨S262144, .i32⟩
  | 40 => ⟨S262144, .i32⟩
  | 41 => ⟨S262144, .i32⟩
  | 42 => ⟨S262144x1, .i32⟩
  | 43 => ⟨S262144, .f32⟩
  | 44 => ⟨S262144, .f32⟩
  | 45 => ⟨S_, .i32⟩
  | 46 => ⟨S262144, .i32⟩
  | 47 => ⟨S262144, .i1⟩
  | 48 => ⟨S_, .i32⟩
  | 49 => ⟨S262144, .i32⟩
  | 50 => ⟨S262144, .i32⟩
  | 51 => ⟨S262144, .i32⟩
  | 52 => ⟨S262144x1, .i32⟩
  | 53 => ⟨S262144x256, .f32⟩
  | 54 => ⟨S262144x1, .f32⟩
  | 55 => ⟨S262144x256, .f32⟩
  | 56 => ⟨S262144x256, .f32⟩
  | 57 => ⟨S_, .f32⟩
  | 58 => ⟨S8192x256, .f32⟩
  | 59 => ⟨S262144x1, .i32⟩
  | 60 => ⟨S8192x256, .f32⟩
  | 61 => ⟨S8192, .f32⟩
  | 62 => ⟨S8192x1, .f32⟩
  | 63 => ⟨S8192x256, .f32⟩
  | 64 => ⟨S8192x256, .f32⟩
  | 65 => ⟨S8192x256, .f32⟩
  | 66 => ⟨S1x256, .f32⟩
  | 67 => ⟨S8192x256, .f32⟩
  | 68 => ⟨S8192x256, .f32⟩
  | 69 => ⟨S_, .f32⟩
  | 70 => ⟨S8192x256, .f32⟩
  | 71 => ⟨S8192x256, .f32⟩
  | 72 => ⟨S8192x64, .f32⟩
  | 73 => ⟨S_, .i32⟩
  | 74 => ⟨S262144, .i32⟩
  | 75 => ⟨S262144, .i1⟩
  | 76 => ⟨S_, .i32⟩
  | 77 => ⟨S262144, .i32⟩
  | 78 => ⟨S262144, .i32⟩
  | 79 => ⟨S262144, .i32⟩
  | 80 => ⟨S262144x1, .i32⟩
  | 81 => ⟨S262144, .f32⟩
  | 82 => ⟨S_, .i32⟩
  | 83 => ⟨S262144, .i32⟩
  | 84 => ⟨S262144, .i1⟩
  | 85 => ⟨S_, .i32⟩
  | 86 => ⟨S262144, .i32⟩
  | 87 => ⟨S262144, .i32⟩
  | 88 => ⟨S262144, .i32⟩
  | 89 => ⟨S262144x1, .i32⟩
  | 90 => ⟨S262144, .f32⟩
  | 91 => ⟨S262144, .f32⟩
  | 92 => ⟨S_, .i32⟩
  | 93 => ⟨S262144, .i32⟩
  | 94 => ⟨S262144, .i1⟩
  | 95 => ⟨S_, .i32⟩
  | 96 => ⟨S262144, .i32⟩
  | 97 => ⟨S262144, .i32⟩
  | 98 => ⟨S262144, .i32⟩
  | 99 => ⟨S262144x1, .i32⟩
  | 100 => ⟨S262144x64, .f32⟩
  | 101 => ⟨S262144x1, .f32⟩
  | 102 => ⟨S262144x64, .f32⟩
  | 103 => ⟨S262144x64, .f32⟩
  | 104 => ⟨S_, .f32⟩
  | 105 => ⟨S8192x64, .f32⟩
  | 106 => ⟨S262144x1, .i32⟩
  | 107 => ⟨S8192x64, .f32⟩
  | 108 => ⟨S8192, .f32⟩
  | 109 => ⟨S8192x1, .f32⟩
  | 110 => ⟨S8192x64, .f32⟩
  | 111 => ⟨S8192x64, .f32⟩
  | 112 => ⟨S8192x64, .f32⟩
  | 113 => ⟨S1x64, .f32⟩
  | 114 => ⟨S8192x64, .f32⟩
  | 115 => ⟨S8192x64, .f32⟩
  | 116 => ⟨S8192x64, .f32⟩
  | 117 => ⟨S_, .i32⟩
  | 118 => ⟨S262144, .i32⟩
  | 119 => ⟨S262144, .i1⟩
  | 120 => ⟨S_, .i32⟩
  | 121 => ⟨S262144, .i32⟩
  | 122 => ⟨S262144, .i32⟩
  | 123 => ⟨S262144, .i32⟩
  | 124 => ⟨S262144x1, .i32⟩
  | 125 => ⟨S262144, .f32⟩
  | 126 => ⟨S_, .i32⟩
  | 127 => ⟨S262144, .i32⟩
  | _ => ⟨S8192x512, .f32⟩

abbrev hbmTy0_1 (i : Nat) : BufTy := match i % 128 with
  | 0 => ⟨S262144, .i1⟩
  | 1 => ⟨S_, .i32⟩
  | 2 => ⟨S262144, .i32⟩
  | 3 => ⟨S262144, .i32⟩
  | 4 => ⟨S262144, .i32⟩
  | 5 => ⟨S262144x1, .i32⟩
  | 6 => ⟨S262144, .f32⟩
  | 7 => ⟨S262144, .f32⟩
  | 8 => ⟨S_, .i32⟩
  | 9 => ⟨S262144, .i32⟩
  | 10 => ⟨S262144, .i1⟩
  | 11 => ⟨S_, .i32⟩
  | 12 => ⟨S262144, .i32⟩
  | 13 => ⟨S262144, .i32⟩
  | 14 => ⟨S262144, .i32⟩
  | 15 => ⟨S262144x1, .i32⟩
  | 16 => ⟨S262144x64, .f32⟩
  | 17 => ⟨S262144x1, .f32⟩
  | 18 => ⟨S262144x64, .f32⟩
  | 19 => ⟨S262144x64, .f32⟩
  | 20 => ⟨S_, .f32⟩
  | 21 => ⟨S8192x64, .f32⟩
  | 22 => ⟨S262144x1, .i32⟩
  | 23 => ⟨S8192x64, .f32⟩
  | 24 => ⟨S8192, .f32⟩
  | 25 => ⟨S8192x1, .f32⟩
  | 26 => ⟨S8192x64, .f32⟩
  | 27 => ⟨S8192x64, .f32⟩
  | 28 => ⟨S8192x64, .f32⟩
  | 29 => ⟨S1x64, .f32⟩
  | 30 => ⟨S8192x64, .f32⟩
  | 31 => ⟨S8192x64, .f32⟩
  | 32 => ⟨S8192x64, .f32⟩
  | 33 => ⟨S8192x64, .f32⟩
  | 34 => ⟨S8192x64, .f32⟩
  | 35 => ⟨S64x8192, .f32⟩
  | 36 => ⟨S8192x8192, .f32⟩
  | 37 => ⟨S8192x8192, .f32⟩
  | 38 => ⟨S8192x8192, .f32⟩
  | 39 => ⟨S_, .f32⟩
  | 40 => ⟨S8192x8192, .f32⟩
  | 41 => ⟨S8192x8192, .f32⟩
  | 42 => ⟨S_, .f32⟩
  | 43 => ⟨S8192x8192, .f32⟩
  | 44 => ⟨S8192x8192, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_16 : Ref sig .tc := ⟨.hbm, 117, rfl⟩
abbrev main_v88 : Ref sig .tc := ⟨.hbm, 118, rfl⟩
abbrev main_v89 : Ref sig .tc := ⟨.hbm, 119, rfl⟩
abbrev main_c_17 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_18 : Ref sig .tc := ⟨.hbm, 126, rfl⟩
abbrev main_v95 : Ref sig .tc := ⟨.hbm, 127, rfl⟩
abbrev main_v96 : Ref sig .tc := ⟨.hbm, 128, rfl⟩
abbrev main_c_19 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_20 : Ref sig .tc := ⟨.hbm, 136, rfl⟩
abbrev main_v103 : Ref sig .tc := ⟨.hbm, 137, rfl⟩
abbrev main_v104 : Ref sig .tc := ⟨.hbm, 138, rfl⟩
abbrev main_c_21 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_22 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_23 : Ref sig .tc := ⟨.hbm, 167, rfl⟩
abbrev main_v131 : Ref sig .tc := ⟨.hbm, 168, rfl⟩
abbrev main_v132 : Ref sig .tc := ⟨.hbm, 169, rfl⟩
abbrev main_cst_24 : Ref sig .tc := ⟨.hbm, 170, rfl⟩
abbrev main_v133 : Ref sig .tc := ⟨.hbm, 171, rfl⟩
abbrev main_v134 : Ref sig .tc := ⟨.hbm, 172, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S262144x1_S262144x64_0_1 : S262144x1.BroadcastsInDim S262144x64 (![0, 1] : Fin 2 → Fin S262144x64.rank)
  bcast_S_S8192x64 : S_.BroadcastsInDim S8192x64 (![] : Fin 0 → Fin S8192x64.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  scatter_S8192_S262144x1_S262144_n_0_0_1_wf : ScatterDims.WF S8192 S262144x1 S262144 [] [0] [0] 1
  dot_S8192x512_S512x256_S8192x256_1_0_0_1_n_n_wf : DotDims.WF S8192x512 S512x256 S8192x256 [1] [0] [0] [1] [] []
  gather_S8192_S262144x1_S262144_n_0_n_n_0_1_1_wf : GatherDims.WF S8192 S262144x1 S262144 [] [0] [] [0] [] 1 ![1]
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x64_S8192x64_1_0_0_1_n_n_wf : DotDims.WF S8192x256 S256x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x64_S64x8192_S8192x8192_1_0_0_1_n_n_wf : DotDims.WF S8192x64 S64x8192 S8192x8192 [1] [0] [0] [1] [] []

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KReg0.lean ====
/-
  Region 0 of the program, one dense graph-convolution layer on row blocks: at grid point t the body reads a block of
  1024 rows of the left matrix, the whole right matrix, the rows' 1024 self-loop weights and the bias row, and writes
  two blocks of 1024 rows: the product block, and the product block scaled row by row by the weights plus the bias.
  Here, at any contents V the region is entered from: what each output block holds after the body as a function of the
  input blocks, the body's triple, the pipeline's proof data, and the body obligation at every grid point.
-/
import proofs.«117362_j53163105190000_1_alg».proof.Proof.Gen.Kernel.Launch
import proofs.«117362_j53163105190000_1_alg».proof.Proof.Gen.Kernel.Skeleton
import proofs.«117362_j53163105190000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (a block that is
    not fetched again has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (a block that is
    not fetched again has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (a block that is
    not fetched again has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (a block that is
    not fetched again has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rX0 : Rect S1024x512 := Rect.unit (s := S1024x512) ![0, 0] S1024x512.size inb_S1024x512_S1024x512_0_0
abbrev rW0 : Rect S512x256 := Rect.unit (s := S512x256) ![0, 0] S512x256.size inb_S512x256_S512x256_0_0
abbrev rD0 : Rect S1024x1 := Rect.unit (s := S1024x1) ![0, 0] S1024x1.size inb_S1024x1_S1024x1_0_0
abbrev rB0 : Rect S1x256 := Rect.unit (s := S1x256) ![0, 0] S1x256.size inb_S1x256_S1x256_0_0
abbrev rO0 : Rect S1024x256 := Rect.unit (s := S1024x256) ![0, 0] S1024x256.size inb_S1024x256_S1024x256_0_0

/-! ## What the body leaves in each output window's buffer -/

/-- The product block: the one store of the product of the row block with the right matrix. -/
def out0_4 (x0 : Vec F S1024x512 .f32) (x1 : Vec F S512x256 .f32) : Vec F S1024x256 .f32 :=
  View.canon [⟨rO0, k0_pay1 (View.ld x0 rX0) (View.ld x1 rW0)⟩]

/-- The self-loop block: the one store of the product block scaled by the rows' weights, plus the bias row. -/
def out0_5 (x0 : Vec F S1024x512 .f32) (x1 : Vec F S512x256 .f32) (x2 : Vec F S1024x1 .f32) (x3 : Vec F S1x256 .f32) : Vec F S1024x256 .f32 :=
  View.canon [⟨rO0, k0_pay2 (View.ld x0 rX0) (View.ld x1 rW0) (View.ld x2 rD0) (View.ld x3 rB0)⟩]

/-- One whole-buffer store covers the buffer. -/
theorem cover0_O (p0 : Vec F S1024x256 .f32) (y : S1024x256.Idx) :
    ∃ pc ∈ ([⟨rO0, p0⟩] : List (View.Piece (Elt F) S1024x256 .f32)), y ∈ pc.1.set :=
  View.cover_of_tiled [⟨rO0, p0⟩] S1024x256.size (by rfl) y

/-! ## The body's triple -/

set_option maxHeartbeats 4000000 in
/-- The body on whole staging memrefs, the inputs' at contents x0 … x3 and the outputs' at anything, runs to the
    continuation holding the inputs' as they were and the outputs' at the two stored blocks. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1024x1 .f32) (harg3 : arg3.IsWhole) (arg4 : Memref sig .tc .vmem S1x256 .f32) (harg4 : arg4.IsWhole)
    (arg5 : Memref sig .tc .vmem S1024x256 .f32) (harg5 : arg5.IsWhole) (arg6 : Memref sig .tc .vmem S1024x256 .f32) (harg6 : arg6.IsWhole)
    (x0 : Vec F S1024x512 .f32) (x1 : Vec F S512x256 .f32) (x2 : Vec F S1024x1 .f32) (x3 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2 x3)) -∗ K ⟨⟩))
      ⊢ wp frame (wpE (defs₀ (F := F)) Variants.none c none) E (cc0__gcn_dense_kernel i arg1 harg1 arg2 harg2 arg3 harg3 arg4 harg4 arg5 harg5 arg6 harg6) K := by
  simp only [cc0__gcn_dense_kernel_eq_skeleton]; unfold cc0__gcn_dense_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_O _)
  iexists _; isplitr
  swap; · iexact H5
  ipureintro
  exact View.read_writes_eq_canon _ _ _ (cover0_O _)

/-! ## The pipeline's proof data -/

/-- The proof data of this pipeline on core c: the arrays as the region finds them; after the body at point t each
    input's buffer at its block and each output's at its stored block of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KReg1.lean ====
/-
  Region 1 of the program, one dense graph-convolution layer on row blocks: at grid point t the body reads a block of
  1024 rows of the left matrix, the whole right matrix, the rows' 1024 self-loop weights and the bias row, and writes
  two blocks of 1024 rows: the product block, and the product block scaled row by row by the weights plus the bias.
  Here, at any contents V the region is entered from: what each output block holds after the body as a function of the
  input blocks, the body's triple, the pipeline's proof data, and the body obligation at every grid point.
-/
import proofs.«117362_j53163105190000_1_alg».proof.Proof.Gen.Kernel.Launch
import proofs.«117362_j53163105190000_1_alg».proof.Proof.Gen.Kernel.Skeleton
import proofs.«117362_j53163105190000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (a block that is
    not fetched again has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (a block that is
    not fetched again has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (a block that is
    not fetched again has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (a block that is
    not fetched again has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev rX1 : Rect S1024x256 := Rect.unit (s := S1024x256) ![0, 0] S1024x256.size inb_S1024x256_S1024x256_0_0
abbrev rW1 : Rect S256x64 := Rect.unit (s := S256x64) ![0, 0] S256x64.size inb_S256x64_S256x64_0_0
abbrev rD1 : Rect S1024x1 := Rect.unit (s := S1024x1) ![0, 0] S1024x1.size inb_S1024x1_S1024x1_0_0
abbrev rB1 : Rect S1x64 := Rect.unit (s := S1x64) ![0, 0] S1x64.size inb_S1x64_S1x64_0_0
abbrev rO1 : Rect S1024x64 := Rect.unit (s := S1024x64) ![0, 0] S1024x64.size inb_S1024x64_S1024x64_0_0

/-! ## What the body leaves in each output window's buffer -/

/-- The product block: the one store of the product of the row block with the right matrix. -/
def out1_4 (x0 : Vec F S1024x256 .f32) (x1 : Vec F S256x64 .f32) : Vec F S1024x64 .f32 :=
  View.canon [⟨rO1, k1_pay1 (View.ld x0 rX1) (View.ld x1 rW1)⟩]

/-- The self-loop block: the one store of the product block scaled by the rows' weights, plus the bias row. -/
def out1_5 (x0 : Vec F S1024x256 .f32) (x1 : Vec F S256x64 .f32) (x2 : Vec F S1024x1 .f32) (x3 : Vec F S1x64 .f32) : Vec F S1024x64 .f32 :=
  View.canon [⟨rO1, k1_pay2 (View.ld x0 rX1) (View.ld x1 rW1) (View.ld x2 rD1) (View.ld x3 rB1)⟩]

/-- One whole-buffer store covers the buffer. -/
theorem cover1_O (p0 : Vec F S1024x64 .f32) (y : S1024x64.Idx) :
    ∃ pc ∈ ([⟨rO1, p0⟩] : List (View.Piece (Elt F) S1024x64 .f32)), y ∈ pc.1.set :=
  View.cover_of_tiled [⟨rO1, p0⟩] S1024x64.size (by rfl) y

/-! ## The body's triple -/

set_option maxHeartbeats 4000000 in
/-- The body on whole staging memrefs, the inputs' at contents x0 … x3 and the outputs' at anything, runs to the
    continuation holding the inputs' as they were and the outputs' at the two stored blocks. -/
theorem sound_kernel1 (c : Dev nD) (E : Set ℕ) (i : grid1.Coords)
    (arg1 : Memref sig .tc .vmem S1024x256 .f32) (harg1 : arg1.IsWhole) (arg2 : Memref sig .tc .vmem S256x64 .f32) (harg2 : arg2.IsWhole)
    (arg3 : Memref sig .tc .vmem S1024x1 .f32) (harg3 : arg3.IsWhole) (arg4 : Memref sig .tc .vmem S1x64 .f32) (harg4 : arg4.IsWhole)
    (arg5 : Memref sig .tc .vmem S1024x64 .f32) (harg5 : arg5.IsWhole) (arg6 : Memref sig .tc .vmem S1024x64 .f32) (harg6 : arg6.IsWhole)
    (x0 : Vec F S1024x256 .f32) (x1 : Vec F S256x64 .f32) (x2 : Vec F S1024x1 .f32) (x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1) ∗ owns (c : Thread nD τ) arg6 fullShare (out1_5 x0 x1 x2 x3)) -∗ K ⟨⟩))
      ⊢ wp frame (wpE (defs₀ (F := F)) Variants.none c none) E (cc1__gcn_dense_kernel i arg1 harg1 arg2 harg2 arg3 harg3 arg4 harg4 arg5 harg5 arg6 harg6) K := by
  simp only [cc1__gcn_dense_kernel_eq_skeleton]; unfold cc1__gcn_dense_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_O _)
  iexists _; isplitr
  swap; · iexact H5
  ipureintro
  exact View.read_writes_eq_canon _ _ _ (cover1_O _)

/-! ## The pipeline's proof data -/

/-- The proof data of this pipeline on core c: the arrays as the region finds them; after the body at point t each
    input's buffer at its block and each output's at its stored block of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KReg2.lean ====
/-
  Region 2 of the program, one dense graph-convolution layer on row blocks: at grid point t the body reads a block of
  1024 rows of the left matrix, the whole right matrix, the rows' 1024 self-loop weights and the bias row, and writes
  two blocks of 1024 rows: the product block, and the product block scaled row by row by the weights plus the bias.
  Here, at any contents V the region is entered from: what each output block holds after the body as a function of the
  input blocks, the body's triple, the pipeline's proof data, and the body obligation at every grid point.
-/
import proofs.«117362_j53163105190000_1_alg».proof.Proof.Gen.Kernel.Launch
import proofs.«117362_j53163105190000_1_alg».proof.Proof.Gen.Kernel.Skeleton
import proofs.«117362_j53163105190000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (a block that is
    not fetched again has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (a block that is
    not fetched again has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (a block that is
    not fetched again has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (a block that is
    not fetched again has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev rX2 : Rect S1024x256 := Rect.unit (s := S1024x256) ![0, 0] S1024x256.size inb_S1024x256_S1024x256_0_0
abbrev rW2 : Rect S256x64 := Rect.unit (s := S256x64) ![0, 0] S256x64.size inb_S256x64_S256x64_0_0
abbrev rD2 : Rect S1024x1 := Rect.unit (s := S1024x1) ![0, 0] S1024x1.size inb_S1024x1_S1024x1_0_0
abbrev rB2 : Rect S1x64 := Rect.unit (s := S1x64) ![0, 0] S1x64.size inb_S1x64_S1x64_0_0
abbrev rO2 : Rect S1024x64 := Rect.unit (s := S1024x64) ![0, 0] S1024x64.size inb_S1024x64_S1024x64_0_0

/-! ## What the body leaves in each output window's buffer -/

/-- The product block: the one store of the product of the row block with the right matrix. -/
def out2_4 (x0 : Vec F S1024x256 .f32) (x1 : Vec F S256x64 .f32) : Vec F S1024x64 .f32 :=
  View.canon [⟨rO2, k2_pay1 (View.ld x0 rX2) (View.ld x1 rW2)⟩]

/-- The self-loop block: the one store of the product block scaled by the rows' weights, plus the bias row. -/
def out2_5 (x0 : Vec F S1024x256 .f32) (x1 : Vec F S256x64 .f32) (x2 : Vec F S1024x1 .f32) (x3 : Vec F S1x64 .f32) : Vec F S1024x64 .f32 :=
  View.canon [⟨rO2, k2_pay2 (View.ld x0 rX2) (View.ld x1 rW2) (View.ld x2 rD2) (View.ld x3 rB2)⟩]

/-- One whole-buffer store covers the buffer. -/
theorem cover2_O (p0 : Vec F S1024x64 .f32) (y : S1024x64.Idx) :
    ∃ pc ∈ ([⟨rO2, p0⟩] : List (View.Piece (Elt F) S1024x64 .f32)), y ∈ pc.1.set :=
  View.cover_of_tiled [⟨rO2, p0⟩] S1024x64.size (by rfl) y

/-! ## The body's triple -/

set_option maxHeartbeats 4000000 in
/-- The body on whole staging memrefs, the inputs' at contents x0 … x3 and the outputs' at anything, runs to the
    continuation holding the inputs' as they were and the outputs' at the two stored blocks. -/
theorem sound_kernel2 (c : Dev nD) (E : Set ℕ) (i : grid2.Coords)
    (arg1 : Memref sig .tc .vmem S1024x256 .f32) (harg1 : arg1.IsWhole) (arg2 : Memref sig .tc .vmem S256x64 .f32) (harg2 : arg2.IsWhole)
    (arg3 : Memref sig .tc .vmem S1024x1 .f32) (harg3 : arg3.IsWhole) (arg4 : Memref sig .tc .vmem S1x64 .f32) (harg4 : arg4.IsWhole)
    (arg5 : Memref sig .tc .vmem S1024x64 .f32) (harg5 : arg5.IsWhole) (arg6 : Memref sig .tc .vmem S1024x64 .f32) (harg6 : arg6.IsWhole)
    (x0 : Vec F S1024x256 .f32) (x1 : Vec F S256x64 .f32) (x2 : Vec F S1024x1 .f32) (x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1) ∗ owns (c : Thread nD τ) arg6 fullShare (out2_5 x0 x1 x2 x3)) -∗ K ⟨⟩))
      ⊢ wp frame (wpE (defs₀ (F := F)) Variants.none c none) E (cc2__gcn_dense_kernel i arg1 harg1 arg2 harg2 arg3 harg3 arg4 harg4 arg5 harg5 arg6 harg6) K := by
  simp only [cc2__gcn_dense_kernel_eq_skeleton]; unfold cc2__gcn_dense_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_O _)
  iexists _; isplitr
  swap; · iexact H5
  ipureintro
  exact View.read_writes_eq_canon _ _ _ (cover2_O _)

/-! ## The pipeline's proof data -/

/-- The proof data of this pipeline on core c: the arrays as the region finds them; after the body at point t each
    input's buffer at its block and each output's at its stored block of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.KReg3.lean ====
/-
  Region 3 of the program, the decoder: at grid point (i, j) the body reads block i and block j of 1024 rows of ONE
  matrix z (two input windows on the same array) and writes the 1024 × 1024 block of logistic (z zᵀ).
  Here, at any contents V the region is entered from: what the output block holds after the body as a function of the
  two input blocks, the body's triple, the pipeline's proof data — the shared array held by the two input windows at
  the two halves of the full share — and the body obligation at every grid point.
-/
import proofs.«117362_j53163105190000_1_alg».proof.Proof.Gen.Kernel.Launch
import proofs.«117362_j53163105190000_1_alg».proof.Proof.Gen.Kernel.Skeleton
import proofs.«117362_j53163105190000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (a block that is
    not fetched again has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (a block that is
    not fetched again has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read and written whole -/

abbrev rZ3 : Rect S1024x64 := Rect.unit (s := S1024x64) ![0, 0] S1024x64.size inb_S1024x64_S1024x64_0_0
abbrev rO3 : Rect S1024x1024 := Rect.unit (s := S1024x1024) ![0, 0] S1024x1024.size inb_S1024x1024_S1024x1024_0_0

/-! ## What the body leaves in the output window's buffer -/

/-- The output block: the one store of the logistic of the product of the two row blocks, the second transposed. -/
def out3_2 (x0 : Vec F S1024x64 .f32) (x1 : Vec F S1024x64 .f32) : Vec F S1024x1024 .f32 :=
  View.canon [⟨rO3, k3_pay1 (View.ld x0 rZ3) (View.ld x1 rZ3)⟩]

/-- One whole-buffer store covers the buffer. -/
theorem cover3_O (p0 : Vec F S1024x1024 .f32) (y : S1024x1024.Idx) :
    ∃ pc ∈ ([⟨rO3, p0⟩] : List (View.Piece (Elt F) S1024x1024 .f32)), y ∈ pc.1.set :=
  View.cover_of_tiled [⟨rO3, p0⟩] S1024x1024.size (by rfl) y

/-! ## The body's triple -/

set_option maxHeartbeats 4000000 in
/-- The body on whole staging memrefs, the inputs' at contents x0, x1 and the output's at anything, runs to the
    continuation holding the inputs' as they were and the output's at the stored block. -/
theorem sound_kernel3 (c : Dev nD) (E : Set ℕ) (i : grid3.Coords)
    (arg2 : Memref sig .tc .vmem S1024x64 .f32) (harg2 : arg2.IsWhole) (arg3 : Memref sig .tc .vmem S1024x64 .f32) (harg3 : arg3.IsWhole)
    (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__decode_kernel i arg2 harg2 arg3 harg3 arg4 harg4) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_O _)

/-! ## The pipeline's proof data -/

/-- The proof data of this pipeline on core c: the arrays as the region finds them; after the body at point t each
    input's buffer at its block and the output's at its stored block of the input blocks; the invariant the scoped rest
    and the generator register, untouched; nothing owed; the shared input array at the left half of the full share for
    the first window and at the right half for the second. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.KRun.lean ====
/-
  The run of the whole program: the contents of every unscoped buffer at each boundary between two items of @main —
  a host stretch applies its operations; a region leaves its input arrays as it found them and each output array at
  what its write-backs leave — then every pipeline's proof data at its region's entry contents, the four regions as
  segments over the thread state "every unscoped buffer at the boundary's contents, the generator register at some
  state, nothing owed", and the run: every weakly fair execution of @main terminates, faults nowhere, and ends with
  every unscoped buffer at the last boundary's contents. The decoder's two input windows read ONE array: it is held
  whole at region entry, split along the share for the two windows, and joined again at the exit.
-/
import proofs.«117362_j53163105190000_1_alg».proof.Proof.KReg0
import proofs.«117362_j53163105190000_1_alg».proof.Proof.KReg1
import proofs.«117362_j53163105190000_1_alg».proof.Proof.KReg2
import proofs.«117362_j53163105190000_1_alg».proof.Proof.KReg3
import proofs.«117362_j53163105190000_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)

/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- A buffer the stretch does not write keeps its contents. -/
theorem W1_of (c : Dev nD) (r : Ref sig .tc) (h : r ∉ hostOps0_W) : W1 m c r = W0 m c r :=
  StableHlo.after_of_writes_sub hostOps0 _ hostOps0_writes h

/-- At region 0's exit: its arrays at what the pipeline leaves (the inputs as entered, each output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input window's array leaves the region as it entered it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch `hostOps1`. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- A buffer the stretch does not write keeps its contents. -/
theorem W3_of (c : Dev nD) (r : Ref sig .tc) (h : r ∉ hostOps1_W) : W3 m c r = W2 m c r :=
  StableHlo.after_of_writes_sub hostOps1 _ hostOps1_writes h

/-- After the host stretch `hostOps1_1`. -/
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
/-- A buffer the stretch does not write keeps its contents. -/
theorem W4_of (c : Dev nD) (r : Ref sig .tc) (h : r ∉ hostOps1_1_W) : W4 m c r = W3 m c r :=
  StableHlo.after_of_writes_sub hostOps1_1 _ hostOps1_1_writes h

/-- After the host stretch `hostOps1_2`. -/
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
/-- A buffer the stretch does not write keeps its contents. -/
theorem W5_of (c : Dev nD) (r : Ref sig .tc) (h : r ∉ hostOps1_2_W) : W5 m c r = W4 m c r :=
  StableHlo.after_of_writes_sub hostOps1_2 _ hostOps1_2_writes h

/-- At region 1's exit: its arrays at what the pipeline leaves (the inputs as entered, each output's write-backs folded),
    every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- An input window's array leaves the region as it entered it. -/
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hw _).trans (A_eq1 (V5 m) c w))
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the host stretch `hostOps2`. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- A buffer the stretch does not write keeps its contents. -/
theorem W7_of (c : Dev nD) (r : Ref sig .tc) (h : r ∉ hostOps2_W) : W7 m c r = W6 m c r :=
  StableHlo.after_of_writes_sub hostOps2 _ hostOps2_writes h

/-- At region 2's exit: its arrays at what the pipeline leaves (the inputs as entered, each output's write-backs folded),
    every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- An input window's array leaves the region as it entered it. -/
theorem W8_in (c : Dev nD) (w : Fin cfg2.W) (hw : (cfg2.win w).isOut = false) :
    W8 m c (Proc.devRef .tc (Pipeline.arrRef spec2 w)) = W7 m c (Proc.devRef .tc (Pipeline.arrRef spec2 w)) :=
  (W8_arr m c w).trans (((dat2 (V7 m) c).arrAt_in w hw _).trans (A_eq2 (V7 m) c w))
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- After the host stretch `hostOps3`. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b
/-- A buffer the stretch does not write keeps its contents. -/
theorem W9_of (c : Dev nD) (r : Ref sig .tc) (h : r ∉ hostOps3_W) : W9 m c r = W8 m c r :=
  StableHlo.after_of_writes_sub hostOps3 _ hostOps3_writes h

/-- At the decoder's exit: the output array at what its write-backs leave, every other buffer as entered. -/
def W10 (c : Dev nD) : Valuation τ sig (Elt F) :=
  Function.update (W9 m c) (Proc.devRef .tc main_v79) ((dat3 (V9 m) c).arrAt 2 cfg3.N)
theorem W10_out (c : Dev nD) : W10 m c (Proc.devRef .tc main_v79) = (dat3 (V9 m) c).arrAt 2 cfg3.N := by
  unfold W10; exact Function.update_self _ _ _
theorem W10_of_ne (c : Dev nD) (b : Ref sig .tc) (hb : b ≠ main_v79) : W10 m c (Proc.devRef .tc b) = W9 m c (Proc.devRef .tc b) := by
  unfold W10; exact Function.update_of_ne (StableHlo.devRef_ne_of_ne hb) _ _
abbrev V10 : (c : Dev nD) → (b : Ref sig .tc) → Buf (Elt F) ((c : Thread nD τ).loc b) := fun c b => W10 m c b

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
  | ⟨2, _⟩ => fun c => dat2 (V7 m) c
  | ⟨3, _⟩ => fun c => dat3 (V9 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered from every unscoped buffer at `W1`, left at `W2`. Its arrays are
    split out of the unscoped buffers and put back at what the write-backs leave; the generator register goes into the
    pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are
    split out of the unscoped buffers and put back at what the write-backs leave; the generator register goes into the
    pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are
    split out of the unscoped buffers and put back at what the write-backs leave; the generator register goes into the
    pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The decoder's arrays: one input array read by two windows -/

/-- The buffers behind the decoder's three windows are two: the matrix both input windows read, and the output. -/
theorem image3 : Finset.univ.image (Pipeline.arrRef spec3)
    = ({Pipeline.arrRef spec3 0, Pipeline.arrRef spec3 2} : Finset (Ref sig .tc)) := by decide

/-- The windowed arrays as plain holdings of the buffers behind them, each at its window's share. -/
theorem arrays3_eq (c : Dev nD) (dat : Dat τ (Elt F) Unit ℕ (UR sig nD τ) ℕ cfg3 c)
    (G : (w : Fin cfg3.W) → Buf (Elt F) ((cfg3.win w).arr.view.loc (c : Thread nD τ))) :
    dat.arrays G = bigSep Finset.univ fun w => (((c : Thread nD τ).loc (Pipeline.arrRef spec3 w)) ↦{dat.share w} G w : sProp 𝕄) := by
  unfold Dat.arrays
  exact BI.bigSep_congr fun w _ => by rw [(arr_whole3 w).set_eq_univ]

/-- The two buffers behind the decoder's arrays, each whole at the full share at contents V, are its three windowed
    arrays at the same contents: the shared input array is divided along the share, its left half to the first window and
    its right half to the second (and back). -/
theorem arrays3_iff (c : Dev nD) (V : (b : Ref sig .tc) → Buf (Elt F) ((c : Thread nD τ).loc b))
    (dat : Dat τ (Elt F) Unit ℕ (UR sig nD τ) ℕ cfg3 c)
    (hq0 : dat.share 0 = fullShare.left) (hq1 : dat.share 1 = fullShare.right) (hq2 : dat.share 2 = fullShare)
    (G : (w : Fin cfg3.W) → Buf (Elt F) ((cfg3.win w).arr.view.loc (c : Thread nD τ)))
    (hG : ∀ w, G w = V (Pipeline.arrRef spec3 w)) :
    (Pipeline.arrBufs spec3 c V : sProp 𝕄) ⊣⊢ dat.arrays G := by
  obtain rfl : G = fun w => V (Pipeline.arrRef spec3 w) := funext hG
  rw [arrays3_eq]
  unfold Pipeline.arrBufs
  rw [image3, bigSep_W3, BI.bigSep_insert (by decide : Pipeline.arrRef spec3 0 ∉ ({Pipeline.arrRef spec3 2} : Finset (Ref sig .tc))),
    BI.bigSep_singleton, hq0, hq1, hq2]
  show (iprop((((c : Thread nD τ).loc (Pipeline.arrRef spec3 0)) ↦{fullShare} V (Pipeline.arrRef spec3 0))
      ∗ (((c : Thread nD τ).loc (Pipeline.arrRef spec3 2)) ↦{fullShare} V (Pipeline.arrRef spec3 2))) : sProp 𝕄) ⊣⊢ _
  have hs : (((c : Thread nD τ).loc (Pipeline.arrRef spec3 0)) ↦{fullShare} V (Pipeline.arrRef spec3 0) : sProp 𝕄)
      ⊣⊢ iprop((((c : Thread nD τ).loc (Pipeline.arrRef spec3 0)) ↦{fullShare.left} V (Pipeline.arrRef spec3 0))
        ∗ ((c : Thread nD τ).loc (Pipeline.arrRef spec3 0)) ↦{fullShare.right} V (Pipeline.arrRef spec3 0)) :=
    pointsTo_share (PosShare.mem_left_op_right fullShare)
  constructor
  · iintro ⟨Ha, Hb⟩
    ihave H := hs.1 $$ Ha
    icases H with ⟨Hl, Hr⟩
    isplitl [Hl]; · iexact Hl
    isplitl [Hr]; · iexact Hr
    iexact Hb
  · iintro ⟨Hl, Hr, Hb⟩
    isplitl [Hl Hr]
    · iapply hs.2; isplitl [Hl] <;> iassumption
    iexact Hb

section DecoderArrays
variable (V V' : (c : Dev nD) → (b : Ref sig .tc) → Buf (Elt F) ((c : Thread nD τ).loc b))

theorem share3_0 (c : Dev nD) : (dat3 V c).share 0 = fullShare.left := rfl
theorem share3_1 (c : Dev nD) : (dat3 V c).share 1 = fullShare.right := rfl
theorem share3_2 (c : Dev nD) : (dat3 V c).share 2 = fullShare := rfl

/-- A core's unscoped buffers, as the two buffers behind the decoder's arrays and the rest. -/
theorem ubufs3_eq (c : Dev nD) (U : (b : Ref sig .tc) → Buf (Elt F) ((c : Thread nD τ).loc b)) :
    (unscopedBufs c U : sProp 𝕄) = iprop(Pipeline.arrBufs spec3 c U ∗ Pipeline.unscopedRest spec3 c U) :=
  Pipeline.PerCore.unscopedBufs_split₀ (fun _ : Dev nD => cfgs) 3 c winFacts₀3.arr_unscoped U

/-- ENTRY: a core's unscoped buffers at the entry contents are the decoder's arrays at those contents and the rest. -/
theorem hsplit3 (c : Dev nD) :
    (unscopedBufs c (V c) : sProp 𝕄) ⊢ iprop((dat3 V c).arrays (dat3 V c).A ∗ Pipeline.unscopedRest spec3 c (V c)) := by
  rw [ubufs3_eq c (V c)]
  exact sep_mono (arrays3_iff c (V c) (dat3 V c) (share3_0 V c) (share3_1 V c) (share3_2 V c) (dat3 V c).A
    (A_eq3 V c)).1 .rfl

/-- EXIT: the decoder's arrays at what the pipeline leaves, with the rest, are the core's unscoped buffers at contents
    V' that agree with the arrays' final contents and with the entry contents off the arrays. -/
theorem hjoin3 (c : Dev nD) (hF : ∀ w, (dat3 V c).arrAt w cfg3.N = V' c (Pipeline.arrRef spec3 w))
    (hrest : (Pipeline.unscopedRest (Ix := Unit) (Name := ℕ) (U := UR sig nD τ) (Lvl := ℕ) spec3 c (V c) : sProp 𝕄)
      = Pipeline.unscopedRest spec3 c (V' c)) :
    iprop((dat3 V c).arrays ((dat3 V c).arrAt · cfg3.N) ∗ Pipeline.unscopedRest spec3 c (V c)) ⊢ (unscopedBufs c (V' c) : sProp 𝕄) := by
  rw [ubufs3_eq c (V' c), hrest]
  exact sep_mono (arrays3_iff c (V' c) (dat3 V c) (share3_0 V c) (share3_1 V c) (share3_2 V c) ((dat3 V c).arrAt · cfg3.N) hF).2 .rfl

end DecoderArrays

/-- At the decoder's exit each of its arrays holds what the pipeline leaves: the input array what it held at entry (read
    by both windows), the output what its write-backs leave. -/
theorem hF3 (c : Dev nD) (w : Fin cfg3.W) : (dat3 (V9 m) c).arrAt w cfg3.N = V10 m c (Pipeline.arrRef spec3 w) :=
  match w with
  | ⟨0, _⟩ => (((dat3 (V9 m) c).arrAt_in 0 rfl _).trans (A_eq3 (V9 m) c 0)).trans (W10_of_ne m c main_v78 (by decide)).symm
  | ⟨1, _⟩ => (((dat3 (V9 m) c).arrAt_in 1 rfl _).trans (A_eq3 (V9 m) c 1)).trans (W10_of_ne m c main_v78 (by decide)).symm
  | ⟨2, _⟩ => (W10_out m c).symm

/-- Every other unscoped buffer leaves the decoder as it entered it. -/
theorem rest3_eq (c : Dev nD) :
    (Pipeline.unscopedRest (Ix := Unit) (Name := ℕ) (U := UR sig nD τ) (Lvl := ℕ) spec3 c (V9 m c) : sProp 𝕄)
      = Pipeline.unscopedRest spec3 c (V10 m c) := by
  unfold Pipeline.unscopedRest
  refine BI.bigSep_congr fun b hb => ?_
  have hne : b ≠ main_v79 := fun e => (Finset.mem_sdiff.mp hb).2 (e ▸ Finset.mem_image.mpr ⟨2, Finset.mem_univ _, rfl⟩)
  rw [show V10 m c b = V9 m c b from W10_of_ne m c b hne]

set_option backward.isDefEq.respectTransparency.types false in
/-- Region 3, the decoder, over the thread state: entered from every unscoped buffer at `W9`, left at `W10` beside the
    core owing nothing. The two buffers behind its arrays are taken out of the unscoped buffers whole, the input one divided
    along the share between the two windows that read it, and joined and put back at the exit. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit : (unscopedBufs c (V9 m c) : sProp 𝕄) ⊢ iprop((pdats m 3 c).arrays (pdats m 3 c).A ∗ Pipeline.unscopedRest spec3 c (V9 m c)) :=
      hsplit3 (V9 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (V9 m c))
        ⊢ (unscopedBufs c (V10 m c) : sProp 𝕄) := hjoin3 (V9 m) (V10 m) c (hF3 m c) (rest3_eq m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's ten segments in order: a host segment per stretch from its boundary's contents, a region per kernel call. -/
abbrev msegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m),
    .host (hseg hostOps3 hostOps3_sub hostOps3_fresh (W8 m)),
    .region (reg3 m) ]

set_option backward.isDefEq.respectTransparency.types false in
/-- THE RUN: from any memory with zero counters every weakly fair execution of @main terminates, nothing faulting, and
    in every final state each unscoped buffer of each core holds the last boundary's contents `W10`. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (msegs m)
    (fun c Q => by
      rewrite [main_chain c, Pipeline.Seg.run_eq_chain,
        show (msegs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

end Cert.Kernel.Frame

end
-- ==== Proof.KKeep.lean ====
/-
  What the run leaves where nothing writes: a buffer that no host stretch writes and that is no region's output holds at
  the end what it held at launch — in particular every argument array. With the run, this is the program's frame, and
  the run's statement about the result array.
-/
import proofs.«117362_j53163105190000_1_alg».proof.Proof.KRun

set_option maxRecDepth 16384

noncomputable section

namespace Cert.Kernel.Frame

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

/-- A buffer that is neither of region 0's outputs leaves the region as it entered it. -/
theorem W2_keep (c : Dev nD) (b : Ref sig .tc) (hb4 : b ≠ main_v31_0) (hb5 : b ≠ main_v31_1) :
    W2 m c (Proc.devRef .tc b) = W1 m c (Proc.devRef .tc b) := by
  by_cases h : ∃ w, Pipeline.arrRef spec0 w = b
  · obtain ⟨w, rfl⟩ := h
    have hw : (cfg0.win w).isOut = false :=
      match w with
      | ⟨0, _⟩ => rfl
      | ⟨1, _⟩ => rfl
      | ⟨2, _⟩ => rfl
      | ⟨3, _⟩ => rfl
      | ⟨4, _⟩ => absurd rfl hb4
      | ⟨5, _⟩ => absurd rfl hb5
      | ⟨_ + 6, h⟩ => absurd h (Nat.not_lt.2 (Nat.le_add_left _ _))
    exact W2_in m c w hw
  · exact W2_of_ne m c b fun w e => h ⟨w, e⟩

/-- A buffer that is neither of region 1's outputs leaves the region as it entered it. -/
theorem W6_keep (c : Dev nD) (b : Ref sig .tc) (hb4 : b ≠ main_v47_0) (hb5 : b ≠ main_v47_1) :
    W6 m c (Proc.devRef .tc b) = W5 m c (Proc.devRef .tc b) := by
  by_cases h : ∃ w, Pipeline.arrRef spec1 w = b
  · obtain ⟨w, rfl⟩ := h
    have hw : (cfg1.win w).isOut = false :=
      match w with
      | ⟨0, _⟩ => rfl
      | ⟨1, _⟩ => rfl
      | ⟨2, _⟩ => rfl
      | ⟨3, _⟩ => rfl
      | ⟨4, _⟩ => absurd rfl hb4
      | ⟨5, _⟩ => absurd rfl hb5
      | ⟨_ + 6, h⟩ => absurd h (Nat.not_lt.2 (Nat.le_add_left _ _))
    exact W6_in m c w hw
  · exact W6_of_ne m c b fun w e => h ⟨w, e⟩

/-- A buffer that is neither of region 2's outputs leaves the region as it entered it. -/
theorem W8_keep (c : Dev nD) (b : Ref sig .tc) (hb4 : b ≠ main_v62_0) (hb5 : b ≠ main_v62_1) :
    W8 m c (Proc.devRef .tc b) = W7 m c (Proc.devRef .tc b) := by
  by_cases h : ∃ w, Pipeline.arrRef spec2 w = b
  · obtain ⟨w, rfl⟩ := h
    have hw : (cfg2.win w).isOut = false :=
      match w with
      | ⟨0, _⟩ => rfl
      | ⟨1, _⟩ => rfl
      | ⟨2, _⟩ => rfl
      | ⟨3, _⟩ => rfl
      | ⟨4, _⟩ => absurd rfl hb4
      | ⟨5, _⟩ => absurd rfl hb5
      | ⟨_ + 6, h⟩ => absurd h (Nat.not_lt.2 (Nat.le_add_left _ _))
    exact W8_in m c w hw
  · exact W8_of_ne m c b fun w e => h ⟨w, e⟩

/-- A buffer no item of @main writes holds at the end what it held at launch. -/
theorem W10_keep (c : Dev nD) (b : Ref sig .tc) (h0 : b ∉ hostOps0_W) (h1 : b ∉ hostOps1_W) (h11 : b ∉ hostOps1_1_W)
    (h12 : b ∉ hostOps1_2_W) (h2 : b ∉ hostOps2_W) (h3 : b ∉ hostOps3_W)
    (ho : b ∉ ([main_v31_0, main_v31_1, main_v47_0, main_v47_1, main_v62_0, main_v62_1, main_v79] : List (Ref sig .tc))) :
    W10 m c (Proc.devRef .tc b) = m ((c : Thread nD τ).loc b) := by
  have e := fun (r : Ref sig .tc) (hr : r ∈ ([main_v31_0, main_v31_1, main_v47_0, main_v47_1, main_v62_0, main_v62_1, main_v79] : List (Ref sig .tc))) (hbr : b = r) => ho (hbr ▸ hr)
  calc W10 m c (Proc.devRef .tc b)
    _ = W9 m c (Proc.devRef .tc b) := W10_of_ne m c b fun hb => e main_v79 (by decide) hb
    _ = W8 m c (Proc.devRef .tc b) := W9_of m c b h3
    _ = W7 m c (Proc.devRef .tc b) := W8_keep m c b (fun hb => e main_v62_0 (by decide) hb) (fun hb => e main_v62_1 (by decide) hb)
    _ = W6 m c (Proc.devRef .tc b) := W7_of m c b h2
    _ = W5 m c (Proc.devRef .tc b) := W6_keep m c b (fun hb => e main_v47_0 (by decide) hb) (fun hb => e main_v47_1 (by decide) hb)
    _ = W4 m c (Proc.devRef .tc b) := W5_of m c b h12
    _ = W3 m c (Proc.devRef .tc b) := W4_of m c b h11
    _ = W2 m c (Proc.devRef .tc b) := W3_of m c b h1
    _ = W1 m c (Proc.devRef .tc b) := W2_keep m c b (fun hb => e main_v31_0 (by decide) hb) (fun hb => e main_v31_1 (by decide) hb)
    _ = W0 m c (Proc.devRef .tc b) := W1_of m c b h0
    _ = m ((c : Thread nD τ).loc b) := rfl

theorem W10_arg0 (c : Dev nD) : W10 m c (Proc.devRef .tc main_arg0) = m ((c : Thread nD τ).loc main_arg0) :=
  W10_keep m c main_arg0 (by decide) (by decide) (by decide) (by decide) (by decide) (by decide) (by decide)
theorem W10_arg1 (c : Dev nD) : W10 m c (Proc.devRef .tc main_arg1) = m ((c : Thread nD τ).loc main_arg1) :=
  W10_keep m c main_arg1 (by decide) (by decide) (by decide) (by decide) (by decide) (by decide) (by decide)
theorem W10_arg2 (c : Dev nD) : W10 m c (Proc.devRef .tc main_arg2) = m ((c : Thread nD τ).loc main_arg2) :=
  W10_keep m c main_arg2 (by decide) (by decide) (by decide) (by decide) (by decide) (by decide) (by decide)
theorem W10_arg3 (c : Dev nD) : W10 m c (Proc.devRef .tc main_arg3) = m ((c : Thread nD τ).loc main_arg3) :=
  W10_keep m c main_arg3 (by decide) (by decide) (by decide) (by decide) (by decide) (by decide) (by decide)
theorem W10_arg4 (c : Dev nD) : W10 m c (Proc.devRef .tc main_arg4) = m ((c : Thread nD τ).loc main_arg4) :=
  W10_keep m c main_arg4 (by decide) (by decide) (by decide) (by decide) (by decide) (by decide) (by decide)
theorem W10_arg5 (c : Dev nD) : W10 m c (Proc.devRef .tc main_arg5) = m ((c : Thread nD τ).loc main_arg5) :=
  W10_keep m c main_arg5 (by decide) (by decide) (by decide) (by decide) (by decide) (by decide) (by decide)
theorem W10_arg6 (c : Dev nD) : W10 m c (Proc.devRef .tc main_arg6) = m ((c : Thread nD τ).loc main_arg6) :=
  W10_keep m c main_arg6 (by decide) (by decide) (by decide) (by decide) (by decide) (by decide) (by decide)
theorem W10_arg7 (c : Dev nD) : W10 m c (Proc.devRef .tc main_arg7) = m ((c : Thread nD τ).loc main_arg7) :=
  W10_keep m c main_arg7 (by decide) (by decide) (by decide) (by decide) (by decide) (by decide) (by decide)
theorem W10_arg8 (c : Dev nD) : W10 m c (Proc.devRef .tc main_arg8) = m ((c : Thread nD τ).loc main_arg8) :=
  W10_keep m c main_arg8 (by decide) (by decide) (by decide) (by decide) (by decide) (by decide) (by decide)

/-- THE FRAME: every weakly fair execution of @main terminates, nothing faulting, with the argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧      r.2.mem ((c.tc : Thread nD τ).loc main_arg1) = m ((c.tc : Thread nD τ).loc main_arg1)
      ∧      r.2.mem ((c.tc : Thread nD τ).loc main_arg2) = m ((c.tc : Thread nD τ).loc main_arg2)
      ∧      r.2.mem ((c.tc : Thread nD τ).loc main_arg3) = m ((c.tc : Thread nD τ).loc main_arg3)
      ∧      r.2.mem ((c.tc : Thread nD τ).loc main_arg4) = m ((c.tc : Thread nD τ).loc main_arg4)
      ∧      r.2.mem ((c.tc : Thread nD τ).loc main_arg5) = m ((c.tc : Thread nD τ).loc main_arg5)
      ∧      r.2.mem ((c.tc : Thread nD τ).loc main_arg6) = m ((c.tc : Thread nD τ).loc main_arg6)
      ∧      r.2.mem ((c.tc : Thread nD τ).loc main_arg7) = m ((c.tc : Thread nD τ).loc main_arg7)
      ∧      r.2.mem ((c.tc : Thread nD τ).loc main_arg8) = m ((c.tc : Thread nD τ).loc main_arg8)) :=
  (θ_run defs _ _).mono (fun r h c =>
    ⟨(h c _ (mem_uc main_arg0 (by decide))).trans (W10_arg0 m c),
      (h c _ (mem_uc main_arg1 (by decide))).trans (W10_arg1 m c),
      (h c _ (mem_uc main_arg2 (by decide))).trans (W10_arg2 m c),
      (h c _ (mem_uc main_arg3 (by decide))).trans (W10_arg3 m c),
      (h c _ (mem_uc main_arg4 (by decide))).trans (W10_arg4 m c),
      (h c _ (mem_uc main_arg5 (by decide))).trans (W10_arg5 m c),
      (h c _ (mem_uc main_arg6 (by decide))).trans (W10_arg6 m c),
      (h c _ (mem_uc main_arg7 (by decide))).trans (W10_arg7 m c),
      (h c _ (mem_uc main_arg8 (by decide))).trans (W10_arg8 m c)⟩) (run m ρ)

/-- The run with the result array named: it ends at the decoder's output as the last boundary has it. -/
theorem run_result (ρ : Dev nD → PrngReg) : θ_run defs (onTc (τ := τ) (main (F := F))) ⟨m, fun _ => 0, ρ⟩ (fun r => ∀ c : Dev nD,
      r.2.mem ((c.tc : Thread nD τ).loc main_v79) = W10 m c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v79 (by decide)),
      (h c _ (mem_uc main_arg0 (by decide))).trans (W10_arg0 m c),
      (h c _ (mem_uc main_arg1 (by decide))).trans (W10_arg1 m c),
      (h c _ (mem_uc main_arg2 (by decide))).trans (W10_arg2 m c),
      (h c _ (mem_uc main_arg3 (by decide))).trans (W10_arg3 m c),
      (h c _ (mem_uc main_arg4 (by decide))).trans (W10_arg4 m c),
      (h c _ (mem_uc main_arg5 (by decide))).trans (W10_arg5 m c),
      (h c _ (mem_uc main_arg6 (by decide))).trans (W10_arg6 m c),
      (h c _ (mem_uc main_arg7 (by decide))).trans (W10_arg7 m c),
      (h c _ (mem_uc main_arg8 (by decide))).trans (W10_arg8 m c)⟩) (run m ρ)

end Cert.Kernel.Frame

end
-- ==== Proof.KIReg0.lean ====
/-
  Region 0 of the program, one dense graph-convolution layer on row blocks: at grid point t the body reads a block of
  1024 rows of the left matrix, the whole right matrix, the rows' 1024 self-loop weights and the bias row, and writes
  two blocks of 1024 rows: the product block, and the product block scaled row by row by the weights plus the bias.
  Here, at any contents V the region is entered from: what each output block holds after the body as a function of the
  input blocks, the body's triple, the pipeline's proof data, and the body obligation at every grid point.
-/
import proofs.«117362_j53163105190000_1_alg».proof.Proof.Gen.KernelIdeal.Launch
import proofs.«117362_j53163105190000_1_alg».proof.Proof.Gen.KernelIdeal.Skeleton
import proofs.«117362_j53163105190000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (a block that is
    not fetched again has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (a block that is
    not fetched again has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (a block that is
    not fetched again has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (a block that is
    not fetched again has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rX0 : Rect S1024x512 := Rect.unit (s := S1024x512) ![0, 0] S1024x512.size inb_S1024x512_S1024x512_0_0
abbrev rW0 : Rect S512x256 := Rect.unit (s := S512x256) ![0, 0] S512x256.size inb_S512x256_S512x256_0_0
abbrev rD0 : Rect S1024x1 := Rect.unit (s := S1024x1) ![0, 0] S1024x1.size inb_S1024x1_S1024x1_0_0
abbrev rB0 : Rect S1x256 := Rect.unit (s := S1x256) ![0, 0] S1x256.size inb_S1x256_S1x256_0_0
abbrev rO0 : Rect S1024x256 := Rect.unit (s := S1024x256) ![0, 0] S1024x256.size inb_S1024x256_S1024x256_0_0

/-! ## What the body leaves in each output window's buffer -/

/-- The product block: the one store of the product of the row block with the right matrix. -/
def out0_4 (x0 : Vec F S1024x512 .f32) (x1 : Vec F S512x256 .f32) : Vec F S1024x256 .f32 :=
  View.canon [⟨rO0, k0_pay1 (View.ld x0 rX0) (View.ld x1 rW0)⟩]

/-- The self-loop block: the one store of the product block scaled by the rows' weights, plus the bias row. -/
def out0_5 (x0 : Vec F S1024x512 .f32) (x1 : Vec F S512x256 .f32) (x2 : Vec F S1024x1 .f32) (x3 : Vec F S1x256 .f32) : Vec F S1024x256 .f32 :=
  View.canon [⟨rO0, k0_pay2 (View.ld x0 rX0) (View.ld x1 rW0) (View.ld x2 rD0) (View.ld x3 rB0)⟩]

/-- One whole-buffer store covers the buffer. -/
theorem cover0_O (p0 : Vec F S1024x256 .f32) (y : S1024x256.Idx) :
    ∃ pc ∈ ([⟨rO0, p0⟩] : List (View.Piece (Elt F) S1024x256 .f32)), y ∈ pc.1.set :=
  View.cover_of_tiled [⟨rO0, p0⟩] S1024x256.size (by rfl) y

/-! ## The body's triple -/

set_option maxHeartbeats 4000000 in
/-- The body on whole staging memrefs, the inputs' at contents x0 … x3 and the outputs' at anything, runs to the
    continuation holding the inputs' as they were and the outputs' at the two stored blocks. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1024x1 .f32) (harg3 : arg3.IsWhole) (arg4 : Memref sig .tc .vmem S1x256 .f32) (harg4 : arg4.IsWhole)
    (arg5 : Memref sig .tc .vmem S1024x256 .f32) (harg5 : arg5.IsWhole) (arg6 : Memref sig .tc .vmem S1024x256 .f32) (harg6 : arg6.IsWhole)
    (x0 : Vec F S1024x512 .f32) (x1 : Vec F S512x256 .f32) (x2 : Vec F S1024x1 .f32) (x3 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2 x3)) -∗ K ⟨⟩))
      ⊢ wp frame (wpE (defs₀ (F := F)) Variants.none c none) E (cc0__gcn_dense_kernel i arg1 harg1 arg2 harg2 arg3 harg3 arg4 harg4 arg5 harg5 arg6 harg6) K := by
  simp only [cc0__gcn_dense_kernel_eq_skeleton]; unfold cc0__gcn_dense_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_O _)
  iexists _; isplitr
  swap; · iexact H5
  ipureintro
  exact View.read_writes_eq_canon _ _ _ (cover0_O _)

/-! ## The pipeline's proof data -/

/-- The proof data of this pipeline on core c: the arrays as the region finds them; after the body at point t each
    input's buffer at its block and each output's at its stored block of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KIReg1.lean ====
/-
  Region 1 of the program, one dense graph-convolution layer on row blocks: at grid point t the body reads a block of
  1024 rows of the left matrix, the whole right matrix, the rows' 1024 self-loop weights and the bias row, and writes
  two blocks of 1024 rows: the product block, and the product block scaled row by row by the weights plus the bias.
  Here, at any contents V the region is entered from: what each output block holds after the body as a function of the
  input blocks, the body's triple, the pipeline's proof data, and the body obligation at every grid point.
-/
import proofs.«117362_j53163105190000_1_alg».proof.Proof.Gen.KernelIdeal.Launch
import proofs.«117362_j53163105190000_1_alg».proof.Proof.Gen.KernelIdeal.Skeleton
import proofs.«117362_j53163105190000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (a block that is
    not fetched again has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (a block that is
    not fetched again has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (a block that is
    not fetched again has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (a block that is
    not fetched again has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev rX1 : Rect S1024x256 := Rect.unit (s := S1024x256) ![0, 0] S1024x256.size inb_S1024x256_S1024x256_0_0
abbrev rW1 : Rect S256x64 := Rect.unit (s := S256x64) ![0, 0] S256x64.size inb_S256x64_S256x64_0_0
abbrev rD1 : Rect S1024x1 := Rect.unit (s := S1024x1) ![0, 0] S1024x1.size inb_S1024x1_S1024x1_0_0
abbrev rB1 : Rect S1x64 := Rect.unit (s := S1x64) ![0, 0] S1x64.size inb_S1x64_S1x64_0_0
abbrev rO1 : Rect S1024x64 := Rect.unit (s := S1024x64) ![0, 0] S1024x64.size inb_S1024x64_S1024x64_0_0

/-! ## What the body leaves in each output window's buffer -/

/-- The product block: the one store of the product of the row block with the right matrix. -/
def out1_4 (x0 : Vec F S1024x256 .f32) (x1 : Vec F S256x64 .f32) : Vec F S1024x64 .f32 :=
  View.canon [⟨rO1, k1_pay1 (View.ld x0 rX1) (View.ld x1 rW1)⟩]

/-- The self-loop block: the one store of the product block scaled by the rows' weights, plus the bias row. -/
def out1_5 (x0 : Vec F S1024x256 .f32) (x1 : Vec F S256x64 .f32) (x2 : Vec F S1024x1 .f32) (x3 : Vec F S1x64 .f32) : Vec F S1024x64 .f32 :=
  View.canon [⟨rO1, k1_pay2 (View.ld x0 rX1) (View.ld x1 rW1) (View.ld x2 rD1) (View.ld x3 rB1)⟩]

/-- One whole-buffer store covers the buffer. -/
theorem cover1_O (p0 : Vec F S1024x64 .f32) (y : S1024x64.Idx) :
    ∃ pc ∈ ([⟨rO1, p0⟩] : List (View.Piece (Elt F) S1024x64 .f32)), y ∈ pc.1.set :=
  View.cover_of_tiled [⟨rO1, p0⟩] S1024x64.size (by rfl) y

/-! ## The body's triple -/

set_option maxHeartbeats 4000000 in
/-- The body on whole staging memrefs, the inputs' at contents x0 … x3 and the outputs' at anything, runs to the
    continuation holding the inputs' as they were and the outputs' at the two stored blocks. -/
theorem sound_kernel1 (c : Dev nD) (E : Set ℕ) (i : grid1.Coords)
    (arg1 : Memref sig .tc .vmem S1024x256 .f32) (harg1 : arg1.IsWhole) (arg2 : Memref sig .tc .vmem S256x64 .f32) (harg2 : arg2.IsWhole)
    (arg3 : Memref sig .tc .vmem S1024x1 .f32) (harg3 : arg3.IsWhole) (arg4 : Memref sig .tc .vmem S1x64 .f32) (harg4 : arg4.IsWhole)
    (arg5 : Memref sig .tc .vmem S1024x64 .f32) (harg5 : arg5.IsWhole) (arg6 : Memref sig .tc .vmem S1024x64 .f32) (harg6 : arg6.IsWhole)
    (x0 : Vec F S1024x256 .f32) (x1 : Vec F S256x64 .f32) (x2 : Vec F S1024x1 .f32) (x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1) ∗ owns (c : Thread nD τ) arg6 fullShare (out1_5 x0 x1 x2 x3)) -∗ K ⟨⟩))
      ⊢ wp frame (wpE (defs₀ (F := F)) Variants.none c none) E (cc1__gcn_dense_kernel i arg1 harg1 arg2 harg2 arg3 harg3 arg4 harg4 arg5 harg5 arg6 harg6) K := by
  simp only [cc1__gcn_dense_kernel_eq_skeleton]; unfold cc1__gcn_dense_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_O _)
  iexists _; isplitr
  swap; · iexact H5
  ipureintro
  exact View.read_writes_eq_canon _ _ _ (cover1_O _)

/-! ## The pipeline's proof data -/

/-- The proof data of this pipeline on core c: the arrays as the region finds them; after the body at point t each
    input's buffer at its block and each output's at its stored block of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KIReg2.lean ====
/-
  Region 2 of the program, one dense graph-convolution layer on row blocks: at grid point t the body reads a block of
  1024 rows of the left matrix, the whole right matrix, the rows' 1024 self-loop weights and the bias row, and writes
  two blocks of 1024 rows: the product block, and the product block scaled row by row by the weights plus the bias.
  Here, at any contents V the region is entered from: what each output block holds after the body as a function of the
  input blocks, the body's triple, the pipeline's proof data, and the body obligation at every grid point.
-/
import proofs.«117362_j53163105190000_1_alg».proof.Proof.Gen.KernelIdeal.Launch
import proofs.«117362_j53163105190000_1_alg».proof.Proof.Gen.KernelIdeal.Skeleton
import proofs.«117362_j53163105190000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (a block that is
    not fetched again has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (a block that is
    not fetched again has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (a block that is
    not fetched again has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (a block that is
    not fetched again has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev rX2 : Rect S1024x256 := Rect.unit (s := S1024x256) ![0, 0] S1024x256.size inb_S1024x256_S1024x256_0_0
abbrev rW2 : Rect S256x64 := Rect.unit (s := S256x64) ![0, 0] S256x64.size inb_S256x64_S256x64_0_0
abbrev rD2 : Rect S1024x1 := Rect.unit (s := S1024x1) ![0, 0] S1024x1.size inb_S1024x1_S1024x1_0_0
abbrev rB2 : Rect S1x64 := Rect.unit (s := S1x64) ![0, 0] S1x64.size inb_S1x64_S1x64_0_0
abbrev rO2 : Rect S1024x64 := Rect.unit (s := S1024x64) ![0, 0] S1024x64.size inb_S1024x64_S1024x64_0_0

/-! ## What the body leaves in each output window's buffer -/

/-- The product block: the one store of the product of the row block with the right matrix. -/
def out2_4 (x0 : Vec F S1024x256 .f32) (x1 : Vec F S256x64 .f32) : Vec F S1024x64 .f32 :=
  View.canon [⟨rO2, k2_pay1 (View.ld x0 rX2) (View.ld x1 rW2)⟩]

/-- The self-loop block: the one store of the product block scaled by the rows' weights, plus the bias row. -/
def out2_5 (x0 : Vec F S1024x256 .f32) (x1 : Vec F S256x64 .f32) (x2 : Vec F S1024x1 .f32) (x3 : Vec F S1x64 .f32) : Vec F S1024x64 .f32 :=
  View.canon [⟨rO2, k2_pay2 (View.ld x0 rX2) (View.ld x1 rW2) (View.ld x2 rD2) (View.ld x3 rB2)⟩]

/-- One whole-buffer store covers the buffer. -/
theorem cover2_O (p0 : Vec F S1024x64 .f32) (y : S1024x64.Idx) :
    ∃ pc ∈ ([⟨rO2, p0⟩] : List (View.Piece (Elt F) S1024x64 .f32)), y ∈ pc.1.set :=
  View.cover_of_tiled [⟨rO2, p0⟩] S1024x64.size (by rfl) y

/-! ## The body's triple -/

set_option maxHeartbeats 4000000 in
/-- The body on whole staging memrefs, the inputs' at contents x0 … x3 and the outputs' at anything, runs to the
    continuation holding the inputs' as they were and the outputs' at the two stored blocks. -/
theorem sound_kernel2 (c : Dev nD) (E : Set ℕ) (i : grid2.Coords)
    (arg1 : Memref sig .tc .vmem S1024x256 .f32) (harg1 : arg1.IsWhole) (arg2 : Memref sig .tc .vmem S256x64 .f32) (harg2 : arg2.IsWhole)
    (arg3 : Memref sig .tc .vmem S1024x1 .f32) (harg3 : arg3.IsWhole) (arg4 : Memref sig .tc .vmem S1x64 .f32) (harg4 : arg4.IsWhole)
    (arg5 : Memref sig .tc .vmem S1024x64 .f32) (harg5 : arg5.IsWhole) (arg6 : Memref sig .tc .vmem S1024x64 .f32) (harg6 : arg6.IsWhole)
    (x0 : Vec F S1024x256 .f32) (x1 : Vec F S256x64 .f32) (x2 : Vec F S1024x1 .f32) (x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1) ∗ owns (c : Thread nD τ) arg6 fullShare (out2_5 x0 x1 x2 x3)) -∗ K ⟨⟩))
      ⊢ wp frame (wpE (defs₀ (F := F)) Variants.none c none) E (cc2__gcn_dense_kernel i arg1 harg1 arg2 harg2 arg3 harg3 arg4 harg4 arg5 harg5 arg6 harg6) K := by
  simp only [cc2__gcn_dense_kernel_eq_skeleton]; unfold cc2__gcn_dense_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_O _)
  iexists _; isplitr
  swap; · iexact H5
  ipureintro
  exact View.read_writes_eq_canon _ _ _ (cover2_O _)

/-! ## The pipeline's proof data -/

/-- The proof data of this pipeline on core c: the arrays as the region finds them; after the body at point t each
    input's buffer at its block and each output's at its stored block of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KIReg3.lean ====
/-
  Region 3 of the program, the decoder: at grid point (i, j) the body reads block i and block j of 1024 rows of ONE
  matrix z (two input windows on the same array) and writes the 1024 × 1024 block of logistic (z zᵀ).
  Here, at any contents V the region is entered from: what the output block holds after the body as a function of the
  two input blocks, the body's triple, the pipeline's proof data — the shared array held by the two input windows at
  the two halves of the full share — and the body obligation at every grid point.
-/
import proofs.«117362_j53163105190000_1_alg».proof.Proof.Gen.KernelIdeal.Launch
import proofs.«117362_j53163105190000_1_alg».proof.Proof.Gen.KernelIdeal.Skeleton
import proofs.«117362_j53163105190000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (a block that is
    not fetched again has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (a block that is
    not fetched again has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read and written whole -/

abbrev rZ3 : Rect S1024x64 := Rect.unit (s := S1024x64) ![0, 0] S1024x64.size inb_S1024x64_S1024x64_0_0
abbrev rO3 : Rect S1024x1024 := Rect.unit (s := S1024x1024) ![0, 0] S1024x1024.size inb_S1024x1024_S1024x1024_0_0

/-! ## What the body leaves in the output window's buffer -/

/-- The output block: the one store of the logistic of the product of the two row blocks, the second transposed. -/
def out3_2 (x0 : Vec F S1024x64 .f32) (x1 : Vec F S1024x64 .f32) : Vec F S1024x1024 .f32 :=
  View.canon [⟨rO3, k3_pay1 (View.ld x0 rZ3) (View.ld x1 rZ3)⟩]

/-- One whole-buffer store covers the buffer. -/
theorem cover3_O (p0 : Vec F S1024x1024 .f32) (y : S1024x1024.Idx) :
    ∃ pc ∈ ([⟨rO3, p0⟩] : List (View.Piece (Elt F) S1024x1024 .f32)), y ∈ pc.1.set :=
  View.cover_of_tiled [⟨rO3, p0⟩] S1024x1024.size (by rfl) y

/-! ## The body's triple -/

set_option maxHeartbeats 4000000 in
/-- The body on whole staging memrefs, the inputs' at contents x0, x1 and the output's at anything, runs to the
    continuation holding the inputs' as they were and the output's at the stored block. -/
theorem sound_kernel3 (c : Dev nD) (E : Set ℕ) (i : grid3.Coords)
    (arg2 : Memref sig .tc .vmem S1024x64 .f32) (harg2 : arg2.IsWhole) (arg3 : Memref sig .tc .vmem S1024x64 .f32) (harg3 : arg3.IsWhole)
    (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__decode_kernel i arg2 harg2 arg3 harg3 arg4 harg4) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_O _)

/-! ## The pipeline's proof data -/

/-- The proof data of this pipeline on core c: the arrays as the region finds them; after the body at point t each
    input's buffer at its block and the output's at its stored block of the input blocks; the invariant the scoped rest
    and the generator register, untouched; nothing owed; the shared input array at the left half of the full share for
    the first window and at the right half for the second. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KIRun.lean ====
/-
  The run of the whole program: the contents of every unscoped buffer at each boundary between two items of @main —
  a host stretch applies its operations; a region leaves its input arrays as it found them and each output array at
  what its write-backs leave — then every pipeline's proof data at its region's entry contents, the four regions as
  segments over the thread state "every unscoped buffer at the boundary's contents, the generator register at some
  state, nothing owed", and the run: every weakly fair execution of @main terminates, faults nowhere, and ends with
  every unscoped buffer at the last boundary's contents. The decoder's two input windows read ONE array: it is held
  whole at region entry, split along the share for the two windows, and joined again at the exit.
-/
import proofs.«117362_j53163105190000_1_alg».proof.Proof.KIReg0
import proofs.«117362_j53163105190000_1_alg».proof.Proof.KIReg1
import proofs.«117362_j53163105190000_1_alg».proof.Proof.KIReg2
import proofs.«117362_j53163105190000_1_alg».proof.Proof.KIReg3
import proofs.«117362_j53163105190000_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)

/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- A buffer the stretch does not write keeps its contents. -/
theorem W1_of (c : Dev nD) (r : Ref sig .tc) (h : r ∉ hostOps0_W) : W1 m c r = W0 m c r :=
  StableHlo.after_of_writes_sub hostOps0 _ hostOps0_writes h

/-- At region 0's exit: its arrays at what the pipeline leaves (the inputs as entered, each output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input window's array leaves the region as it entered it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch `hostOps1`. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- A buffer the stretch does not write keeps its contents. -/
theorem W3_of (c : Dev nD) (r : Ref sig .tc) (h : r ∉ hostOps1_W) : W3 m c r = W2 m c r :=
  StableHlo.after_of_writes_sub hostOps1 _ hostOps1_writes h

/-- After the host stretch `hostOps1_1`. -/
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
/-- A buffer the stretch does not write keeps its contents. -/
theorem W4_of (c : Dev nD) (r : Ref sig .tc) (h : r ∉ hostOps1_1_W) : W4 m c r = W3 m c r :=
  StableHlo.after_of_writes_sub hostOps1_1 _ hostOps1_1_writes h

/-- After the host stretch `hostOps1_2`. -/
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
/-- A buffer the stretch does not write keeps its contents. -/
theorem W5_of (c : Dev nD) (r : Ref sig .tc) (h : r ∉ hostOps1_2_W) : W5 m c r = W4 m c r :=
  StableHlo.after_of_writes_sub hostOps1_2 _ hostOps1_2_writes h

/-- At region 1's exit: its arrays at what the pipeline leaves (the inputs as entered, each output's write-backs folded),
    every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- An input window's array leaves the region as it entered it. -/
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hw _).trans (A_eq1 (V5 m) c w))
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the host stretch `hostOps2`. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- A buffer the stretch does not write keeps its contents. -/
theorem W7_of (c : Dev nD) (r : Ref sig .tc) (h : r ∉ hostOps2_W) : W7 m c r = W6 m c r :=
  StableHlo.after_of_writes_sub hostOps2 _ hostOps2_writes h

/-- At region 2's exit: its arrays at what the pipeline leaves (the inputs as entered, each output's write-backs folded),
    every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- An input window's array leaves the region as it entered it. -/
theorem W8_in (c : Dev nD) (w : Fin cfg2.W) (hw : (cfg2.win w).isOut = false) :
    W8 m c (Proc.devRef .tc (Pipeline.arrRef spec2 w)) = W7 m c (Proc.devRef .tc (Pipeline.arrRef spec2 w)) :=
  (W8_arr m c w).trans (((dat2 (V7 m) c).arrAt_in w hw _).trans (A_eq2 (V7 m) c w))
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- After the host stretch `hostOps3`. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b
/-- A buffer the stretch does not write keeps its contents. -/
theorem W9_of (c : Dev nD) (r : Ref sig .tc) (h : r ∉ hostOps3_W) : W9 m c r = W8 m c r :=
  StableHlo.after_of_writes_sub hostOps3 _ hostOps3_writes h

/-- At the decoder's exit: the output array at what its write-backs leave, every other buffer as entered. -/
def W10 (c : Dev nD) : Valuation τ sig (Elt F) :=
  Function.update (W9 m c) (Proc.devRef .tc main_v79) ((dat3 (V9 m) c).arrAt 2 cfg3.N)
theorem W10_out (c : Dev nD) : W10 m c (Proc.devRef .tc main_v79) = (dat3 (V9 m) c).arrAt 2 cfg3.N := by
  unfold W10; exact Function.update_self _ _ _
theorem W10_of_ne (c : Dev nD) (b : Ref sig .tc) (hb : b ≠ main_v79) : W10 m c (Proc.devRef .tc b) = W9 m c (Proc.devRef .tc b) := by
  unfold W10; exact Function.update_of_ne (StableHlo.devRef_ne_of_ne hb) _ _
abbrev V10 : (c : Dev nD) → (b : Ref sig .tc) → Buf (Elt F) ((c : Thread nD τ).loc b) := fun c b => W10 m c b

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
  | ⟨2, _⟩ => fun c => dat2 (V7 m) c
  | ⟨3, _⟩ => fun c => dat3 (V9 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered from every unscoped buffer at `W1`, left at `W2`. Its arrays are
    split out of the unscoped buffers and put back at what the write-backs leave; the generator register goes into the
    pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are
    split out of the unscoped buffers and put back at what the write-backs leave; the generator register goes into the
    pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are
    split out of the unscoped buffers and put back at what the write-backs leave; the generator register goes into the
    pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The decoder's arrays: one input array read by two windows -/

/-- The buffers behind the decoder's three windows are two: the matrix both input windows read, and the output. -/
theorem image3 : Finset.univ.image (Pipeline.arrRef spec3)
    = ({Pipeline.arrRef spec3 0, Pipeline.arrRef spec3 2} : Finset (Ref sig .tc)) := by decide

/-- The windowed arrays as plain holdings of the buffers behind them, each at its window's share. -/
theorem arrays3_eq (c : Dev nD) (dat : Dat τ (Elt F) Unit ℕ (UR sig nD τ) ℕ cfg3 c)
    (G : (w : Fin cfg3.W) → Buf (Elt F) ((cfg3.win w).arr.view.loc (c : Thread nD τ))) :
    dat.arrays G = bigSep Finset.univ fun w => (((c : Thread nD τ).loc (Pipeline.arrRef spec3 w)) ↦{dat.share w} G w : sProp 𝕄) := by
  unfold Dat.arrays
  exact BI.bigSep_congr fun w _ => by rw [(arr_whole3 w).set_eq_univ]

/-- The two buffers behind the decoder's arrays, each whole at the full share at contents V, are its three windowed
    arrays at the same contents: the shared input array is divided along the share, its left half to the first window and
    its right half to the second (and back). -/
theorem arrays3_iff (c : Dev nD) (V : (b : Ref sig .tc) → Buf (Elt F) ((c : Thread nD τ).loc b))
    (dat : Dat τ (Elt F) Unit ℕ (UR sig nD τ) ℕ cfg3 c)
    (hq0 : dat.share 0 = fullShare.left) (hq1 : dat.share 1 = fullShare.right) (hq2 : dat.share 2 = fullShare)
    (G : (w : Fin cfg3.W) → Buf (Elt F) ((cfg3.win w).arr.view.loc (c : Thread nD τ)))
    (hG : ∀ w, G w = V (Pipeline.arrRef spec3 w)) :
    (Pipeline.arrBufs spec3 c V : sProp 𝕄) ⊣⊢ dat.arrays G := by
  obtain rfl : G = fun w => V (Pipeline.arrRef spec3 w) := funext hG
  rw [arrays3_eq]
  unfold Pipeline.arrBufs
  rw [image3, bigSep_W3, BI.bigSep_insert (by decide : Pipeline.arrRef spec3 0 ∉ ({Pipeline.arrRef spec3 2} : Finset (Ref sig .tc))),
    BI.bigSep_singleton, hq0, hq1, hq2]
  show (iprop((((c : Thread nD τ).loc (Pipeline.arrRef spec3 0)) ↦{fullShare} V (Pipeline.arrRef spec3 0))
      ∗ (((c : Thread nD τ).loc (Pipeline.arrRef spec3 2)) ↦{fullShare} V (Pipeline.arrRef spec3 2))) : sProp 𝕄) ⊣⊢ _
  have hs : (((c : Thread nD τ).loc (Pipeline.arrRef spec3 0)) ↦{fullShare} V (Pipeline.arrRef spec3 0) : sProp 𝕄)
      ⊣⊢ iprop((((c : Thread nD τ).loc (Pipeline.arrRef spec3 0)) ↦{fullShare.left} V (Pipeline.arrRef spec3 0))
        ∗ ((c : Thread nD τ).loc (Pipeline.arrRef spec3 0)) ↦{fullShare.right} V (Pipeline.arrRef spec3 0)) :=
    pointsTo_share (PosShare.mem_left_op_right fullShare)
  constructor
  · iintro ⟨Ha, Hb⟩
    ihave H := hs.1 $$ Ha
    icases H with ⟨Hl, Hr⟩
    isplitl [Hl]; · iexact Hl
    isplitl [Hr]; · iexact Hr
    iexact Hb
  · iintro ⟨Hl, Hr, Hb⟩
    isplitl [Hl Hr]
    · iapply hs.2; isplitl [Hl] <;> iassumption
    iexact Hb

section DecoderArrays
variable (V V' : (c : Dev nD) → (b : Ref sig .tc) → Buf (Elt F) ((c : Thread nD τ).loc b))

theorem share3_0 (c : Dev nD) : (dat3 V c).share 0 = fullShare.left := rfl
theorem share3_1 (c : Dev nD) : (dat3 V c).share 1 = fullShare.right := rfl
theorem share3_2 (c : Dev nD) : (dat3 V c).share 2 = fullShare := rfl

/-- A core's unscoped buffers, as the two buffers behind the decoder's arrays and the rest. -/
theorem ubufs3_eq (c : Dev nD) (U : (b : Ref sig .tc) → Buf (Elt F) ((c : Thread nD τ).loc b)) :
    (unscopedBufs c U : sProp 𝕄) = iprop(Pipeline.arrBufs spec3 c U ∗ Pipeline.unscopedRest spec3 c U) :=
  Pipeline.PerCore.unscopedBufs_split₀ (fun _ : Dev nD => cfgs) 3 c winFacts₀3.arr_unscoped U

/-- ENTRY: a core's unscoped buffers at the entry contents are the decoder's arrays at those contents and the rest. -/
theorem hsplit3 (c : Dev nD) :
    (unscopedBufs c (V c) : sProp 𝕄) ⊢ iprop((dat3 V c).arrays (dat3 V c).A ∗ Pipeline.unscopedRest spec3 c (V c)) := by
  rw [ubufs3_eq c (V c)]
  exact sep_mono (arrays3_iff c (V c) (dat3 V c) (share3_0 V c) (share3_1 V c) (share3_2 V c) (dat3 V c).A
    (A_eq3 V c)).1 .rfl

/-- EXIT: the decoder's arrays at what the pipeline leaves, with the rest, are the core's unscoped buffers at contents
    V' that agree with the arrays' final contents and with the entry contents off the arrays. -/
theorem hjoin3 (c : Dev nD) (hF : ∀ w, (dat3 V c).arrAt w cfg3.N = V' c (Pipeline.arrRef spec3 w))
    (hrest : (Pipeline.unscopedRest (Ix := Unit) (Name := ℕ) (U := UR sig nD τ) (Lvl := ℕ) spec3 c (V c) : sProp 𝕄)
      = Pipeline.unscopedRest spec3 c (V' c)) :
    iprop((dat3 V c).arrays ((dat3 V c).arrAt · cfg3.N) ∗ Pipeline.unscopedRest spec3 c (V c)) ⊢ (unscopedBufs c (V' c) : sProp 𝕄) := by
  rw [ubufs3_eq c (V' c), hrest]
  exact sep_mono (arrays3_iff c (V' c) (dat3 V c) (share3_0 V c) (share3_1 V c) (share3_2 V c) ((dat3 V c).arrAt · cfg3.N) hF).2 .rfl

end DecoderArrays

/-- At the decoder's exit each of its arrays holds what the pipeline leaves: the input array what it held at entry (read
    by both windows), the output what its write-backs leave. -/
theorem hF3 (c : Dev nD) (w : Fin cfg3.W) : (dat3 (V9 m) c).arrAt w cfg3.N = V10 m c (Pipeline.arrRef spec3 w) :=
  match w with
  | ⟨0, _⟩ => (((dat3 (V9 m) c).arrAt_in 0 rfl _).trans (A_eq3 (V9 m) c 0)).trans (W10_of_ne m c main_v78 (by decide)).symm
  | ⟨1, _⟩ => (((dat3 (V9 m) c).arrAt_in 1 rfl _).trans (A_eq3 (V9 m) c 1)).trans (W10_of_ne m c main_v78 (by decide)).symm
  | ⟨2, _⟩ => (W10_out m c).symm

/-- Every other unscoped buffer leaves the decoder as it entered it. -/
theorem rest3_eq (c : Dev nD) :
    (Pipeline.unscopedRest (Ix := Unit) (Name := ℕ) (U := UR sig nD τ) (Lvl := ℕ) spec3 c (V9 m c) : sProp 𝕄)
      = Pipeline.unscopedRest spec3 c (V10 m c) := by
  unfold Pipeline.unscopedRest
  refine BI.bigSep_congr fun b hb => ?_
  have hne : b ≠ main_v79 := fun e => (Finset.mem_sdiff.mp hb).2 (e ▸ Finset.mem_image.mpr ⟨2, Finset.mem_univ _, rfl⟩)
  rw [show V10 m c b = V9 m c b from W10_of_ne m c b hne]

set_option backward.isDefEq.respectTransparency.types false in
/-- Region 3, the decoder, over the thread state: entered from every unscoped buffer at `W9`, left at `W10` beside the
    core owing nothing. The two buffers behind its arrays are taken out of the unscoped buffers whole, the input one divided
    along the share between the two windows that read it, and joined and put back at the exit. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit : (unscopedBufs c (V9 m c) : sProp 𝕄) ⊢ iprop((pdats m 3 c).arrays (pdats m 3 c).A ∗ Pipeline.unscopedRest spec3 c (V9 m c)) :=
      hsplit3 (V9 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (V9 m c))
        ⊢ (unscopedBufs c (V10 m c) : sProp 𝕄) := hjoin3 (V9 m) (V10 m) c (hF3 m c) (rest3_eq m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's ten segments in order: a host segment per stretch from its boundary's contents, a region per kernel call. -/
abbrev msegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m),
    .host (hseg hostOps3 hostOps3_sub hostOps3_fresh (W8 m)),
    .region (reg3 m) ]

set_option backward.isDefEq.respectTransparency.types false in
/-- THE RUN: from any memory with zero counters every weakly fair execution of @main terminates, nothing faulting, and
    in every final state each unscoped buffer of each core holds the last boundary's contents `W10`. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (msegs m)
    (fun c Q => by
      rewrite [main_chain c, Pipeline.Seg.run_eq_chain,
        show (msegs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

end Cert.KernelIdeal.Frame

end
-- ==== Proof.KIKeep.lean ====
/-
  What the run leaves where nothing writes: a buffer that no host stretch writes and that is no region's output holds at
  the end what it held at launch — in particular every argument array. With the run, this is the program's frame, and
  the run's statement about the result array.
-/
import proofs.«117362_j53163105190000_1_alg».proof.Proof.KIRun

set_option maxRecDepth 16384

noncomputable section

namespace Cert.KernelIdeal.Frame

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- A buffer that is neither of region 0's outputs leaves the region as it entered it. -/
theorem W2_keep (c : Dev nD) (b : Ref sig .tc) (hb4 : b ≠ main_v31_0) (hb5 : b ≠ main_v31_1) :
    W2 m c (Proc.devRef .tc b) = W1 m c (Proc.devRef .tc b) := by
  by_cases h : ∃ w, Pipeline.arrRef spec0 w = b
  · obtain ⟨w, rfl⟩ := h
    have hw : (cfg0.win w).isOut = false :=
      match w with
      | ⟨0, _⟩ => rfl
      | ⟨1, _⟩ => rfl
      | ⟨2, _⟩ => rfl
      | ⟨3, _⟩ => rfl
      | ⟨4, _⟩ => absurd rfl hb4
      | ⟨5, _⟩ => absurd rfl hb5
      | ⟨_ + 6, h⟩ => absurd h (Nat.not_lt.2 (Nat.le_add_left _ _))
    exact W2_in m c w hw
  · exact W2_of_ne m c b fun w e => h ⟨w, e⟩

/-- A buffer that is neither of region 1's outputs leaves the region as it entered it. -/
theorem W6_keep (c : Dev nD) (b : Ref sig .tc) (hb4 : b ≠ main_v47_0) (hb5 : b ≠ main_v47_1) :
    W6 m c (Proc.devRef .tc b) = W5 m c (Proc.devRef .tc b) := by
  by_cases h : ∃ w, Pipeline.arrRef spec1 w = b
  · obtain ⟨w, rfl⟩ := h
    have hw : (cfg1.win w).isOut = false :=
      match w with
      | ⟨0, _⟩ => rfl
      | ⟨1, _⟩ => rfl
      | ⟨2, _⟩ => rfl
      | ⟨3, _⟩ => rfl
      | ⟨4, _⟩ => absurd rfl hb4
      | ⟨5, _⟩ => absurd rfl hb5
      | ⟨_ + 6, h⟩ => absurd h (Nat.not_lt.2 (Nat.le_add_left _ _))
    exact W6_in m c w hw
  · exact W6_of_ne m c b fun w e => h ⟨w, e⟩

/-- A buffer that is neither of region 2's outputs leaves the region as it entered it. -/
theorem W8_keep (c : Dev nD) (b : Ref sig .tc) (hb4 : b ≠ main_v62_0) (hb5 : b ≠ main_v62_1) :
    W8 m c (Proc.devRef .tc b) = W7 m c (Proc.devRef .tc b) := by
  by_cases h : ∃ w, Pipeline.arrRef spec2 w = b
  · obtain ⟨w, rfl⟩ := h
    have hw : (cfg2.win w).isOut = false :=
      match w with
      | ⟨0, _⟩ => rfl
      | ⟨1, _⟩ => rfl
      | ⟨2, _⟩ => rfl
      | ⟨3, _⟩ => rfl
      | ⟨4, _⟩ => absurd rfl hb4
      | ⟨5, _⟩ => absurd rfl hb5
      | ⟨_ + 6, h⟩ => absurd h (Nat.not_lt.2 (Nat.le_add_left _ _))
    exact W8_in m c w hw
  · exact W8_of_ne m c b fun w e => h ⟨w, e⟩

/-- A buffer no item of @main writes holds at the end what it held at launch. -/
theorem W10_keep (c : Dev nD) (b : Ref sig .tc) (h0 : b ∉ hostOps0_W) (h1 : b ∉ hostOps1_W) (h11 : b ∉ hostOps1_1_W)
    (h12 : b ∉ hostOps1_2_W) (h2 : b ∉ hostOps2_W) (h3 : b ∉ hostOps3_W)
    (ho : b ∉ ([main_v31_0, main_v31_1, main_v47_0, main_v47_1, main_v62_0, main_v62_1, main_v79] : List (Ref sig .tc))) :
    W10 m c (Proc.devRef .tc b) = m ((c : Thread nD τ).loc b) := by
  have e := fun (r : Ref sig .tc) (hr : r ∈ ([main_v31_0, main_v31_1, main_v47_0, main_v47_1, main_v62_0, main_v62_1, main_v79] : List (Ref sig .tc))) (hbr : b = r) => ho (hbr ▸ hr)
  calc W10 m c (Proc.devRef .tc b)
    _ = W9 m c (Proc.devRef .tc b) := W10_of_ne m c b fun hb => e main_v79 (by decide) hb
    _ = W8 m c (Proc.devRef .tc b) := W9_of m c b h3
    _ = W7 m c (Proc.devRef .tc b) := W8_keep m c b (fun hb => e main_v62_0 (by decide) hb) (fun hb => e main_v62_1 (by decide) hb)
    _ = W6 m c (Proc.devRef .tc b) := W7_of m c b h2
    _ = W5 m c (Proc.devRef .tc b) := W6_keep m c b (fun hb => e main_v47_0 (by decide) hb) (fun hb => e main_v47_1 (by decide) hb)
    _ = W4 m c (Proc.devRef .tc b) := W5_of m c b h12
    _ = W3 m c (Proc.devRef .tc b) := W4_of m c b h11
    _ = W2 m c (Proc.devRef .tc b) := W3_of m c b h1
    _ = W1 m c (Proc.devRef .tc b) := W2_keep m c b (fun hb => e main_v31_0 (by decide) hb) (fun hb => e main_v31_1 (by decide) hb)
    _ = W0 m c (Proc.devRef .tc b) := W1_of m c b h0
    _ = m ((c : Thread nD τ).loc b) := rfl

theorem W10_arg0 (c : Dev nD) : W10 m c (Proc.devRef .tc main_arg0) = m ((c : Thread nD τ).loc main_arg0) :=
  W10_keep m c main_arg0 (by decide) (by decide) (by decide) (by decide) (by decide) (by decide) (by decide)
theorem W10_arg1 (c : Dev nD) : W10 m c (Proc.devRef .tc main_arg1) = m ((c : Thread nD τ).loc main_arg1) :=
  W10_keep m c main_arg1 (by decide) (by decide) (by decide) (by decide) (by decide) (by decide) (by decide)
theorem W10_arg2 (c : Dev nD) : W10 m c (Proc.devRef .tc main_arg2) = m ((c : Thread nD τ).loc main_arg2) :=
  W10_keep m c main_arg2 (by decide) (by decide) (by decide) (by decide) (by decide) (by decide) (by decide)
theorem W10_arg3 (c : Dev nD) : W10 m c (Proc.devRef .tc main_arg3) = m ((c : Thread nD τ).loc main_arg3) :=
  W10_keep m c main_arg3 (by decide) (by decide) (by decide) (by decide) (by decide) (by decide) (by decide)
theorem W10_arg4 (c : Dev nD) : W10 m c (Proc.devRef .tc main_arg4) = m ((c : Thread nD τ).loc main_arg4) :=
  W10_keep m c main_arg4 (by decide) (by decide) (by decide) (by decide) (by decide) (by decide) (by decide)
theorem W10_arg5 (c : Dev nD) : W10 m c (Proc.devRef .tc main_arg5) = m ((c : Thread nD τ).loc main_arg5) :=
  W10_keep m c main_arg5 (by decide) (by decide) (by decide) (by decide) (by decide) (by decide) (by decide)
theorem W10_arg6 (c : Dev nD) : W10 m c (Proc.devRef .tc main_arg6) = m ((c : Thread nD τ).loc main_arg6) :=
  W10_keep m c main_arg6 (by decide) (by decide) (by decide) (by decide) (by decide) (by decide) (by decide)
theorem W10_arg7 (c : Dev nD) : W10 m c (Proc.devRef .tc main_arg7) = m ((c : Thread nD τ).loc main_arg7) :=
  W10_keep m c main_arg7 (by decide) (by decide) (by decide) (by decide) (by decide) (by decide) (by decide)
theorem W10_arg8 (c : Dev nD) : W10 m c (Proc.devRef .tc main_arg8) = m ((c : Thread nD τ).loc main_arg8) :=
  W10_keep m c main_arg8 (by decide) (by decide) (by decide) (by decide) (by decide) (by decide) (by decide)

/-- THE FRAME: every weakly fair execution of @main terminates, nothing faulting, with the argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧      r.2.mem ((c.tc : Thread nD τ).loc main_arg1) = m ((c.tc : Thread nD τ).loc main_arg1)
      ∧      r.2.mem ((c.tc : Thread nD τ).loc main_arg2) = m ((c.tc : Thread nD τ).loc main_arg2)
      ∧      r.2.mem ((c.tc : Thread nD τ).loc main_arg3) = m ((c.tc : Thread nD τ).loc main_arg3)
      ∧      r.2.mem ((c.tc : Thread nD τ).loc main_arg4) = m ((c.tc : Thread nD τ).loc main_arg4)
      ∧      r.2.mem ((c.tc : Thread nD τ).loc main_arg5) = m ((c.tc : Thread nD τ).loc main_arg5)
      ∧      r.2.mem ((c.tc : Thread nD τ).loc main_arg6) = m ((c.tc : Thread nD τ).loc main_arg6)
      ∧      r.2.mem ((c.tc : Thread nD τ).loc main_arg7) = m ((c.tc : Thread nD τ).loc main_arg7)
      ∧      r.2.mem ((c.tc : Thread nD τ).loc main_arg8) = m ((c.tc : Thread nD τ).loc main_arg8)) :=
  (θ_run defs _ _).mono (fun r h c =>
    ⟨(h c _ (mem_uc main_arg0 (by decide))).trans (W10_arg0 m c),
      (h c _ (mem_uc main_arg1 (by decide))).trans (W10_arg1 m c),
      (h c _ (mem_uc main_arg2 (by decide))).trans (W10_arg2 m c),
      (h c _ (mem_uc main_arg3 (by decide))).trans (W10_arg3 m c),
      (h c _ (mem_uc main_arg4 (by decide))).trans (W10_arg4 m c),
      (h c _ (mem_uc main_arg5 (by decide))).trans (W10_arg5 m c),
      (h c _ (mem_uc main_arg6 (by decide))).trans (W10_arg6 m c),
      (h c _ (mem_uc main_arg7 (by decide))).trans (W10_arg7 m c),
      (h c _ (mem_uc main_arg8 (by decide))).trans (W10_arg8 m c)⟩) (run m ρ)

/-- The run with the result array named: it ends at the decoder's output as the last boundary has it. -/
theorem run_result (ρ : Dev nD → PrngReg) : θ_run defs (onTc (τ := τ) (main (F := F))) ⟨m, fun _ => 0, ρ⟩ (fun r => ∀ c : Dev nD,
      r.2.mem ((c.tc : Thread nD τ).loc main_v79) = W10 m c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v79 (by decide)),
      (h c _ (mem_uc main_arg0 (by decide))).trans (W10_arg0 m c),
      (h c _ (mem_uc main_arg1 (by decide))).trans (W10_arg1 m c),
      (h c _ (mem_uc main_arg2 (by decide))).trans (W10_arg2 m c),
      (h c _ (mem_uc main_arg3 (by decide))).trans (W10_arg3 m c),
      (h c _ (mem_uc main_arg4 (by decide))).trans (W10_arg4 m c),
      (h c _ (mem_uc main_arg5 (by decide))).trans (W10_arg5 m c),
      (h c _ (mem_uc main_arg6 (by decide))).trans (W10_arg6 m c),
      (h c _ (mem_uc main_arg7 (by decide))).trans (W10_arg7 m c),
      (h c _ (mem_uc main_arg8 (by decide))).trans (W10_arg8 m c)⟩) (run m ρ)

end Cert.KernelIdeal.Frame

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.PayIdx.lean ====
/-
  The kernel bodies' arithmetic read at one index, at the exact values.

  Each of the three dense layers computes, for a row p and a column q, the matrix product ∑ₖ x (p, k) · w (k, q) and
  then the affine step  (∑ₖ x (p, k) · w (k, q)) · d (p) + b (q): the column vector d (shape [1024, 1]) is read at
  the row, the row vector b (shape [1, N]) at the column. The decoder contracts the SECOND axis of both operands,
  so its entry (p, q) is the logistic function of the inner product of rows p and q: ∑ₖ a (p, k) · b (q, k).
  At the exact values a change of number format is the identity and a shape cast to the same shape is the identity,
  so nothing else is left of the bodies.

  First the two general facts the readings need beyond the library and the plain product: a column broadcast to a
  matrix read at an index, and a product that contracts both operands' second axes read at an index.
-/
import proofs.«117362_j53163105190000_1_alg».proof.Proof.Gen.KernelIdeal.Skeleton
import proofs.«117362_j53163105190000_1_alg».proof.Proof.LibDense
import Idealize.ShloMosaic.Lib.ValueLayout
import Idealize.ShloMosaic.PureOps.Ideal.Laws

noncomputable section

namespace Cert.KernelIdeal.PayIdx

open Idealize.ShloMosaic Idealize.ShloMosaic.ValueIdx Cert.KernelIdeal Cert.KernelIdeal.Gen

/-! ## Two general readings -/

section General

variable {α : Type}

/-- An [a, 1] column broadcast to [a, b] reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {M K N : ℕ} {φ₁ φ₂ : FTy}

/-- Contracting both second axes: the left operand's index at output (p, q) and contraction coordinate k is (p, k). -/
theorem transposed_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 p q) _).trans hk

/-- The right operand's index at output (p, q) and contraction coordinate k is (q, k): row q of the right operand. -/
theorem transposed_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 p q) _).trans hk

/-- The product of an M×K by an N×K matrix over both second axes, into the zero accumulator, at (p, q): the inner
    product of row p of the left operand and row q of the right one. -/
theorem transposed_matmul_apply (prec : Option ContractPrecision) (x : FVec Ideal ⟨2, ![M, K]⟩ φ₁) (w : FVec Ideal ⟨2, ![N, K]⟩ φ₂)
    (p : Fin M) (q : Fin N) :
    FloatOps.matmul (DotDims.transposedRhs M K N) prec x w (constant ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [transposed_lhsIdx, transposed_rhsIdx]

end General

/-! ## The three printed dimension records are the two standard ones

A record of dimension numbers is its six lists; the well-formedness field is a proof. -/

theorem dot0_eq : dot_S1024x512_S512x256_S1024x256_1_0_0_1_n_n = DotDims.plain 1024 512 256 := rfl
theorem dot1_eq : dot_S1024x256_S256x64_S1024x64_1_0_0_1_n_n = DotDims.plain 1024 256 64 := rfl
theorem dot3_eq : dot_S1024x64_S1024x64_S1024x1024_1_1_0_0_n_n = DotDims.transposedRhs 1024 64 1024 := rfl

/-! ## The first layer: [1024, 512] × [512, 256] -/

/-- The product x·w at (p, q). -/
theorem pay_xw0 (x : Vec Ideal S1024x512 .f32) (w : Vec Ideal S512x256 .f32) (p : Fin 1024) (q : Fin 256) :
    Gen.k0_pay1 (F := Ideal) x w (ix2 p q) = ∑ k : Fin 512, x (ix2 p k) * w (ix2 k q) := by
  unfold Gen.k0_pay1
  simp only [matmul, dot0_eq]
  exact Cert.LibDense.plain_matmul_apply none _ _ p q

/-- The affine step (x·w)·d + b at (p, q). -/
theorem pay_agg0 (x : Vec Ideal S1024x512 .f32) (w : Vec Ideal S512x256 .f32) (d : Vec Ideal S1024x1 .f32)
    (b : Vec Ideal S1x256 .f32) (p : Fin 1024) (q : Fin 256) :
    Gen.k0_pay2 (F := Ideal) x w d b (ix2 p q)
      = (∑ k : Fin 512, x (ix2 p k) * w (ix2 k q)) * d (ix2 p (0 : Fin 1)) + b (ix2 (0 : Fin 1) q) := by
  unfold Gen.k0_pay2
  simp only [shapeCast_self]
  rw [addf_apply, mulf_apply, pay_xw0, broadcastTo_a1_ab_apply, broadcastTo_1b_ab_apply]

/-! ## The second and third layers: [1024, 256] × [256, 64] -/

/-- The product x·w at (p, q), second layer. -/
theorem pay_xw1 (x : Vec Ideal S1024x256 .f32) (w : Vec Ideal S256x64 .f32) (p : Fin 1024) (q : Fin 64) :
    Gen.k1_pay1 (F := Ideal) x w (ix2 p q) = ∑ k : Fin 256, x (ix2 p k) * w (ix2 k q) := by
  unfold Gen.k1_pay1
  simp only [matmul, dot1_eq, shapeCast_self]
  exact Cert.LibDense.plain_matmul_apply none _ _ p q

/-- The affine step (x·w)·d + b at (p, q), second layer. -/
theorem pay_agg1 (x : Vec Ideal S1024x256 .f32) (w : Vec Ideal S256x64 .f32) (d : Vec Ideal S1024x1 .f32)
    (b : Vec Ideal S1x64 .f32) (p : Fin 1024) (q : Fin 64) :
    Gen.k1_pay2 (F := Ideal) x w d b (ix2 p q)
      = (∑ k : Fin 256, x (ix2 p k) * w (ix2 k q)) * d (ix2 p (0 : Fin 1)) + b (ix2 (0 : Fin 1) q) := by
  unfold Gen.k1_pay2
  simp only [shapeCast_self]
  rw [addf_apply, mulf_apply, pay_xw1, broadcastTo_a1_ab_apply, broadcastTo_1b_ab_apply]

/-- The product x·w at (p, q), third layer. -/
theorem pay_xw2 (x : Vec Ideal S1024x256 .f32) (w : Vec Ideal S256x64 .f32) (p : Fin 1024) (q : Fin 64) :
    Gen.k2_pay1 (F := Ideal) x w (ix2 p q) = ∑ k : Fin 256, x (ix2 p k) * w (ix2 k q) := by
  unfold Gen.k2_pay1
  simp only [matmul, dot1_eq, shapeCast_self]
  exact Cert.LibDense.plain_matmul_apply none _ _ p q

/-- The affine step (x·w)·d + b at (p, q), third layer. -/
theorem pay_agg2 (x : Vec Ideal S1024x256 .f32) (w : Vec Ideal S256x64 .f32) (d : Vec Ideal S1024x1 .f32)
    (b : Vec Ideal S1x64 .f32) (p : Fin 1024) (q : Fin 64) :
    Gen.k2_pay2 (F := Ideal) x w d b (ix2 p q)
      = (∑ k : Fin 256, x (ix2 p k) * w (ix2 k q)) * d (ix2 p (0 : Fin 1)) + b (ix2 (0 : Fin 1) q) := by
  unfold Gen.k2_pay2
  simp only [shapeCast_self]
  rw [addf_apply, mulf_apply, pay_xw2, broadcastTo_a1_ab_apply, broadcastTo_1b_ab_apply]

/-! ## The decoder: the logistic function of the rows' inner products -/

/-- Entry (p, q) of the decoder's output: the logistic function of ∑ₖ a (p, k) · b (q, k). -/
theorem pay_dec (a b : Vec Ideal S1024x64 .f32) (p q : Fin 1024) :
    Gen.k3_pay1 (F := Ideal) a b (ix2 p q) = Ideal.logistic (∑ k : Fin 64, a (ix2 p k) * b (ix2 q k)) := by
  unfold Gen.k3_pay1
  simp only [matmul, dot3_eq, shapeCast_self]
  show Ideal.logistic _ = _
  exact congrArg Ideal.logistic (transposed_matmul_apply none _ _ p q)

end Cert.KernelIdeal.PayIdx

end
-- ==== Proof.KIVal0.lean ====
/-
  Region 0 of the program, read as one function of the arrays it is entered with. The region runs a dense layer on 8
  row blocks of 1024 rows: at grid point t the body multiplies rows 1024·t … 1024·t + 1023 of the left matrix by the
  whole right matrix, and writes that block of the product and the block of the product scaled row by row by the rows'
  weights plus the bias row. So after the run the first output array is the product X·W of the whole arrays, entry
  (p, q) = ∑ₖ X (p, k) · W (k, q), and the second is (X·W) (p, q) · D (p) + B (q): each grid point writes back the block
  of that one function its rectangle names, and the 8 blocks cover the 8192 rows (row p is in block p / 1024).
-/
import proofs.«117362_j53163105190000_1_alg».proof.Proof.KIReg0
import proofs.«117362_j53163105190000_1_alg».proof.Proof.PayIdx
import Idealize.ShloMosaic.Lib.Pipeline.Value

noncomputable section

namespace Cert.KernelIdeal.Val

open Cert.KernelIdeal Cert.KernelIdeal.Gen Cert.KernelIdeal.Frame Idealize.ShloMosaic Idealize.ShloMosaic.ValueIdx
open Idealize.ShloMosaic.TcCoe Idealize.SL.Sem
open Idealize.ShloMosaic.Pipeline (Dat)

/-! ## The two whole-array functions -/

/-- The product of the whole arrays: entry i is ∑ₖ X (i₀, k) · W (k, i₁). -/
def xw0 (X : S8192x512.Idx → EReal) (W : S512x256.Idx → EReal) : S8192x256.Idx → EReal :=
  fun i => ∑ k : Fin 512, X (ix2 (i 0) k) * W (ix2 k (i 1))

/-- The product scaled row by row by the column D, plus the row B. -/
def agg0 (X : S8192x512.Idx → EReal) (W : S512x256.Idx → EReal) (D : S8192x1.Idx → EReal) (B : S1x256.Idx → EReal) :
    S8192x256.Idx → EReal :=
  fun i => xw0 X W i * D (ix2 (i 0) (0 : Fin 1)) + B (ix2 (0 : Fin 1) (i 1))

theorem xw0_apply (X : S8192x512.Idx → EReal) (W : S512x256.Idx → EReal) (p : Fin 8192) (q : Fin 256) :
    xw0 X W (ix2 p q) = ∑ k : Fin 512, X (ix2 p k) * W (ix2 k q) := rfl

theorem agg0_apply (X : S8192x512.Idx → EReal) (W : S512x256.Idx → EReal) (D : S8192x1.Idx → EReal) (B : S1x256.Idx → EReal)
    (p : Fin 8192) (q : Fin 256) :
    agg0 X W D B (ix2 p q)
      = (∑ k : Fin 512, X (ix2 p k) * W (ix2 k q)) * D (ix2 p (0 : Fin 1)) + B (ix2 (0 : Fin 1) q) := rfl

/-- Two functions on a matrix's indices that agree at every (r, q) are equal. -/
theorem ext_ix2_0 {α : Type} {a b : ℕ} (f g : (⟨2, ![a, b]⟩ : Shape).Idx → α)
    (h : ∀ (r : Fin a) (q : Fin b), f (ix2 r q) = g (ix2 r q)) : f = g :=
  funext fun j => by rw [eq_ix2 j]; exact h _ _

/-! ## One block of the two functions, from the block's inputs

Over variables: x0 is a block of 1024 rows of X starting at row n·1024, x1 is W, x2 the same rows of D, x3 is B. -/

theorem blk_xw0 (X : S8192x512.Idx → EReal) (W : S512x256.Idx → EReal)
    (x0 : Vec Ideal S1024x512 .f32) (x1 : Vec Ideal S512x256 .f32) (n : ℕ)
    (h0 : ∀ (r : Fin 1024) (k : Fin 512) (R : Fin 8192), R.val = n * 1024 + r.val → x0 (ix2 r k) = X (ix2 R k))
    (h1 : ∀ (k : Fin 512) (q : Fin 256), x1 (ix2 k q) = W (ix2 k q))
    (r : Fin 1024) (q : Fin 256) (R : Fin 8192) (hR : R.val = n * 1024 + r.val) :
    k0_pay1 (F := Ideal) x0 x1 (ix2 r q) = xw0 X W (ix2 R q) := by
  rw [PayIdx.pay_xw0, xw0_apply]
  exact Finset.sum_congr rfl fun k _ => by rw [h0 r k R hR, h1 k q]

theorem blk_agg0 (X : S8192x512.Idx → EReal) (W : S512x256.Idx → EReal) (D : S8192x1.Idx → EReal) (B : S1x256.Idx → EReal)
    (x0 : Vec Ideal S1024x512 .f32) (x1 : Vec Ideal S512x256 .f32) (x2 : Vec Ideal S1024x1 .f32) (x3 : Vec Ideal S1x256 .f32) (n : ℕ)
    (h0 : ∀ (r : Fin 1024) (k : Fin 512) (R : Fin 8192), R.val = n * 1024 + r.val → x0 (ix2 r k) = X (ix2 R k))
    (h1 : ∀ (k : Fin 512) (q : Fin 256), x1 (ix2 k q) = W (ix2 k q))
    (h2 : ∀ (r : Fin 1024) (R : Fin 8192), R.val = n * 1024 + r.val → x2 (ix2 r (0 : Fin 1)) = D (ix2 R (0 : Fin 1)))
    (h3 : ∀ q : Fin 256, x3 (ix2 (0 : Fin 1) q) = B (ix2 (0 : Fin 1) q))
    (r : Fin 1024) (q : Fin 256) (R : Fin 8192) (hR : R.val = n * 1024 + r.val) :
    k0_pay2 (F := Ideal) x0 x1 x2 x3 (ix2 r q) = agg0 X W D B (ix2 R q) := by
  rw [PayIdx.pay_agg0, agg0_apply, h2 r R hR, h3 q]
  exact congrArg (fun s => s * D (ix2 R (0 : Fin 1)) + B (ix2 (0 : Fin 1) q))
    (Finset.sum_congr rfl fun k _ => by rw [h0 r k R hR, h1 k q])

/-! ## The windows' blocks in their arrays -/

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the row-block windows are at block row t, the whole-array windows at 0. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row r of the left matrix's block at point t is row 1024·t + r of the array. -/
theorem iblk0_0_apply (c : Dev nD) (t : Fin cfg0.N) (r : Fin 1024) (k : Fin 512) (R : Fin 8192)
    (hR : R.val = t.val * 1024 + r.val) :
    (iblk0 V c 0 t : Vec Ideal S1024x512 .f32) (ix2 r k) = (V c main_arg0 : S8192x512.Idx → EReal) (ix2 R k) := by
  obtain ⟨e0, e1, -⟩ := idx0 t
  unfold iblk0
  rw [View.read_apply]
  show (V c main_arg0 : S8192x512.Idx → EReal) _ = (V c main_arg0 : S8192x512.Idx → EReal) (ix2 R k)
  refine congrArg _ (funext fun a => Fin.ext ?_)
  match a with
  | ⟨0, _⟩ => show win0_0.index t (0 : Fin 2) * 1024 + 1 * r.val = R.val; rw [e0, hR]; omega
  | ⟨1, _⟩ => show win0_0.index t (1 : Fin 2) * 512 + 1 * k.val = k.val; rw [e1]; omega

/-- The right matrix's block at every point is the array. -/
theorem iblk0_1_apply (c : Dev nD) (t : Fin cfg0.N) (k : Fin 512) (q : Fin 256) :
    (iblk0 V c 1 t : Vec Ideal S512x256 .f32) (ix2 k q) = (V c main_arg2 : S512x256.Idx → EReal) (ix2 k q) := by
  obtain ⟨-, -, e0, e1, -⟩ := idx0 t
  unfold iblk0
  rw [View.read_apply]
  show (V c main_arg2 : S512x256.Idx → EReal) _ = (V c main_arg2 : S512x256.Idx → EReal) (ix2 k q)
  refine congrArg _ (funext fun a => Fin.ext ?_)
  match a with
  | ⟨0, _⟩ => show win0_1.index t (0 : Fin 2) * 512 + 1 * k.val = k.val; rw [e0]; omega
  | ⟨1, _⟩ => show win0_1.index t (1 : Fin 2) * 256 + 1 * q.val = q.val; rw [e1]; omega

/-- Row r of the weights' block at point t is row 1024·t + r of the column. -/
theorem iblk0_2_apply (c : Dev nD) (t : Fin cfg0.N) (r : Fin 1024) (R : Fin 8192)
    (hR : R.val = t.val * 1024 + r.val) :
    (iblk0 V c 2 t : Vec Ideal S1024x1 .f32) (ix2 r (0 : Fin 1)) = (V c main_v13 : S8192x1.Idx → EReal) (ix2 R (0 : Fin 1)) := by
  obtain ⟨-, -, -, -, e0, e1, -⟩ := idx0 t
  unfold iblk0
  rw [View.read_apply]
  show (V c main_v13 : S8192x1.Idx → EReal) _ = (V c main_v13 : S8192x1.Idx → EReal) (ix2 R (0 : Fin 1))
  refine congrArg _ (funext fun a => Fin.ext ?_)
  match a with
  | ⟨0, _⟩ => show win0_2.index t (0 : Fin 2) * 1024 + 1 * r.val = R.val; rw [e0, hR]; omega
  | ⟨1, _⟩ => show win0_2.index t (1 : Fin 2) * 1 + 1 * 0 = 0; rw [e1]

/-- The bias row's block at every point is the array. -/
theorem iblk0_3_apply (c : Dev nD) (t : Fin cfg0.N) (q : Fin 256) :
    (iblk0 V c 3 t : Vec Ideal S1x256 .f32) (ix2 (0 : Fin 1) q) = (V c main_v30 : S1x256.Idx → EReal) (ix2 (0 : Fin 1) q) := by
  obtain ⟨-, -, -, -, -, -, e0, e1, -⟩ := idx0 t
  unfold iblk0
  rw [View.read_apply]
  show (V c main_v30 : S1x256.Idx → EReal) _ = (V c main_v30 : S1x256.Idx → EReal) (ix2 (0 : Fin 1) q)
  refine congrArg _ (funext fun a => Fin.ext ?_)
  match a with
  | ⟨0, _⟩ => show win0_3.index t (0 : Fin 2) * 1 + 1 * 0 = 0; rw [e0]
  | ⟨1, _⟩ => show win0_3.index t (1 : Fin 2) * 256 + 1 * q.val = q.val; rw [e1]; omega

/-- Element (r, q) of an output block at point t sits at (1024·t + r, q) of its array. -/
theorem emb0_4 (t : Fin cfg0.N) (r : Fin 1024) (q : Fin 256) (R : Fin 8192) (hR : R.val = t.val * 1024 + r.val) :
    ((cfg0.win 4).blk t).view.emb (ix2 r q) = (ix2 R q : S8192x256.Idx) := by
  obtain ⟨-, -, -, -, -, -, -, -, e0, e1, -⟩ := idx0 t
  refine funext fun a => Fin.ext ?_
  match a with
  | ⟨0, _⟩ => show win0_4.index t (0 : Fin 2) * 1024 + 1 * r.val = R.val; rw [e0, hR]; omega
  | ⟨1, _⟩ => show win0_4.index t (1 : Fin 2) * 256 + 1 * q.val = q.val; rw [e1]; omega

theorem emb0_5 (t : Fin cfg0.N) (r : Fin 1024) (q : Fin 256) (R : Fin 8192) (hR : R.val = t.val * 1024 + r.val) :
    ((cfg0.win 5).blk t).view.emb (ix2 r q) = (ix2 R q : S8192x256.Idx) := by
  obtain ⟨-, -, -, -, -, -, -, -, -, -, e0, e1⟩ := idx0 t
  refine funext fun a => Fin.ext ?_
  match a with
  | ⟨0, _⟩ => show win0_5.index t (0 : Fin 2) * 1024 + 1 * r.val = R.val; rw [e0, hR]; omega
  | ⟨1, _⟩ => show win0_5.index t (1 : Fin 2) * 256 + 1 * q.val = q.val; rw [e1]; omega

/-- Row 1024·t + r is a row of the array. -/
theorem row_lt0 (t : Fin cfg0.N) (r : Fin 1024) : t.val * 1024 + r.val < 8192 := by
  have hN : cfg0.N = 8 := N_0
  have := t.isLt; have := r.isLt; omega

/-! ## What each point writes back is its block of the whole-array function -/

theorem flushed0_4_eq (c : Dev nD) (t : Fin cfg0.N) :
    (dat0 (F := Ideal) V c).flushed 4 t
      = ((cfg0.win 4).blk t).view.read (Elt Ideal) (xw0 (V c main_arg0) (V c main_arg2)) := by
  show (cfg0.win 4).cut (grid0.coords t) ((dat0 (F := Ideal) V c).after 4 t) = _
  rw [after0_4]
  unfold out0_4
  rw [View.canon_unit_zero hz0]
  simp only [View.ld_unit_zero (S := S1024x512) hz0, View.ld_unit_zero (S := S512x256) hz0]
  refine ext_ix2_0 (a := 1024) (b := 256) _ _ fun r q => ?_
  show k0_pay1 (F := Ideal) (iblk0 V c 0 t) (iblk0 V c 1 t) (ix2 r q)
    = xw0 (V c main_arg0) (V c main_arg2) (((cfg0.win 4).blk t).view.emb (ix2 r q))
  rw [emb0_4 t r q ⟨t.val * 1024 + r.val, row_lt0 t r⟩ rfl]
  exact blk_xw0 (V c main_arg0) (V c main_arg2) (iblk0 V c 0 t) (iblk0 V c 1 t) t.val
    (fun r k R hR => iblk0_0_apply V c t r k R hR) (fun k q => iblk0_1_apply V c t k q) r q _ rfl

theorem flushed0_5_eq (c : Dev nD) (t : Fin cfg0.N) :
    (dat0 (F := Ideal) V c).flushed 5 t
      = ((cfg0.win 5).blk t).view.read (Elt Ideal) (agg0 (V c main_arg0) (V c main_arg2) (V c main_v13) (V c main_v30)) := by
  show (cfg0.win 5).cut (grid0.coords t) ((dat0 (F := Ideal) V c).after 5 t) = _
  rw [after0_5]
  unfold out0_5
  rw [View.canon_unit_zero hz0]
  simp only [View.ld_unit_zero (S := S1024x512) hz0, View.ld_unit_zero (S := S512x256) hz0,
    View.ld_unit_zero (S := S1024x1) hz0, View.ld_unit_zero (S := S1x256) hz0]
  refine ext_ix2_0 (a := 1024) (b := 256) _ _ fun r q => ?_
  show k0_pay2 (F := Ideal) (iblk0 V c 0 t) (iblk0 V c 1 t) (iblk0 V c 2 t) (iblk0 V c 3 t) (ix2 r q)
    = agg0 (V c main_arg0) (V c main_arg2) (V c main_v13) (V c main_v30) (((cfg0.win 5).blk t).view.emb (ix2 r q))
  rw [emb0_5 t r q ⟨t.val * 1024 + r.val, row_lt0 t r⟩ rfl]
  exact blk_agg0 (V c main_arg0) (V c main_arg2) (V c main_v13) (V c main_v30)
    (iblk0 V c 0 t) (iblk0 V c 1 t) (iblk0 V c 2 t) (iblk0 V c 3 t) t.val
    (fun r k R hR => iblk0_0_apply V c t r k R hR) (fun k q => iblk0_1_apply V c t k q)
    (fun r R hR => iblk0_2_apply V c t r R hR) (fun q => iblk0_3_apply V c t q) r q _ rfl

/-! ## The blocks cover the arrays -/

/-- An index is in point t's block iff each coordinate is in the block's range on its axis. -/
theorem mem_blk0_4 (t : Fin cfg0.N) (i : S8192x256.Idx) :
    i ∈ ((cfg0.win 4).blk t).view.set
      ↔ ∀ a : Fin 2, win0_4.index t a * S1024x256.size a ≤ (i a).val ∧ (i a).val < win0_4.index t a * S1024x256.size a + S1024x256.size a := by
  show i ∈ ((View.whole main_v31_0).slice (win0_4.rect t)).set ↔ _
  rw [View.set_slice_whole, Rect.mem_set_unit]
  exact Iff.rfl

theorem mem_blk0_5 (t : Fin cfg0.N) (i : S8192x256.Idx) :
    i ∈ ((cfg0.win 5).blk t).view.set
      ↔ ∀ a : Fin 2, win0_5.index t a * S1024x256.size a ≤ (i a).val ∧ (i a).val < win0_5.index t a * S1024x256.size a + S1024x256.size a := by
  show i ∈ ((View.whole main_v31_1).slice (win0_5.rect t)).set ↔ _
  rw [View.set_slice_whole, Rect.mem_set_unit]
  exact Iff.rfl

/-- Row i₀ is in the block of point i₀ / 1024. -/
theorem cover0_4 (i : S8192x256.Idx) :
    ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 8 := N_0
  have ht : (i 0).val / 1024 < cfg0.N := by rw [hN]; omega
  obtain ⟨-, -, -, -, -, -, -, -, e0, e1, -⟩ := idx0 ⟨(i 0).val / 1024, ht⟩
  refine ⟨⟨(i 0).val / 1024, ht⟩, flush0_4 _, ?_⟩
  rw [mem_blk0_4]
  intro a
  match a with
  | ⟨0, _⟩ =>
    show win0_4.index ⟨(i 0).val / 1024, ht⟩ (0 : Fin 2) * 1024 ≤ (i 0).val
      ∧ (i 0).val < win0_4.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_4.index ⟨(i 0).val / 1024, ht⟩ (1 : Fin 2) * 256 ≤ (i 1).val
      ∧ (i 1).val < win0_4.index ⟨(i 0).val / 1024, ht⟩ (1 : Fin 2) * 256 + 256
    rw [e1]; omega

theorem cover0_5 (i : S8192x256.Idx) :
    ∃ t : Fin cfg0.N, (cfg0.win 5).flush t = true ∧ i ∈ ((cfg0.win 5).blk t).view.set := by
  have hi0 : (i 0).val < 8192 := (i 0).isLt
  have hi1 : (i 1).val < 256 := (i 1).isLt
  have hN : cfg0.N = 8 := N_0
  have ht : (i 0).val / 1024 < cfg0.N := by rw [hN]; omega
  obtain ⟨-, -, -, -, -, -, -, -, -, -, e0, e1⟩ := idx0 ⟨(i 0).val / 1024, ht⟩
  refine ⟨⟨(i 0).val / 1024, ht⟩, flush0_5 _, ?_⟩
  rw [mem_blk0_5]
  intro a
  match a with
  | ⟨0, _⟩ =>
    show win0_5.index ⟨(i 0).val / 1024, ht⟩ (0 : Fin 2) * 1024 ≤ (i 0).val
      ∧ (i 0).val < win0_5.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, ht⟩ (1 : Fin 2) * 256 ≤ (i 1).val
      ∧ (i 1).val < win0_5.index ⟨(i 0).val / 1024, ht⟩ (1 : Fin 2) * 256 + 256
    rw [e1]; omega

/-! ## The two output arrays after the run -/

/-- The first output array is the product of the whole arrays. -/
theorem final0_4 (c : Dev nD) (p : Fin 8192) (q : Fin 256) :
    (by exact (dat0 (F := Ideal) V c).arrAt 4 cfg0.N : S8192x256.Idx → EReal) (ix2 p q)
      = ∑ k : Fin 512, (by exact V c main_arg0 : S8192x512.Idx → EReal) (ix2 p k) * (by exact V c main_arg2 : S512x256.Idx → EReal) (ix2 k q) := by
  have h := (dat0 (F := Ideal) V c).arrAt_eq_of_cover 4 (xw0 (V c main_arg0) (V c main_arg2))
    (fun t _ => flushed0_4_eq V c t) cover0_4
  exact (congrFun h (ix2 p q)).trans (xw0_apply (V c main_arg0) (V c main_arg2) p q)

/-- The second is the product scaled row by row by the weights, plus the bias row. -/
theorem final0_5 (c : Dev nD) (p : Fin 8192) (q : Fin 256) :
    (by exact (dat0 (F := Ideal) V c).arrAt 5 cfg0.N : S8192x256.Idx → EReal) (ix2 p q)
      = (∑ k : Fin 512, (by exact V c main_arg0 : S8192x512.Idx → EReal) (ix2 p k) * (by exact V c main_arg2 : S512x256.Idx → EReal) (ix2 k q))
          * (by exact V c main_v13 : S8192x1.Idx → EReal) (ix2 p (0 : Fin 1)) + (by exact V c main_v30 : S1x256.Idx → EReal) (ix2 (0 : Fin 1) q) := by
  have h := (dat0 (F := Ideal) V c).arrAt_eq_of_cover 5 (agg0 (V c main_arg0) (V c main_arg2) (V c main_v13) (V c main_v30))
    (fun t _ => flushed0_5_eq V c t) cover0_5
  exact (congrFun h (ix2 p q)).trans (agg0_apply (V c main_arg0) (V c main_arg2) (V c main_v13) (V c main_v30) p q)

end Cert.KernelIdeal.Val

end
-- ==== Proof.KIVal1.lean ====
/-
  Region 1 of the program, read as one function of the arrays it is entered with. The region runs a dense layer on 8
  row blocks of 1024 rows: at grid point t the body multiplies rows 1024·t … 1024·t + 1023 of the left matrix by the
  whole right matrix, and writes that block of the product and the block of the product scaled row by row by the rows'
  weights plus the bias row. So after the run the first output array is the product X·W of the whole arrays, entry
  (p, q) = ∑ₖ X (p, k) · W (k, q), and the second is (X·W) (p, q) · D (p) + B (q): each grid point writes back the block
  of that one function its rectangle names, and the 8 blocks cover the 8192 rows (row p is in block p / 1024).
-/
import proofs.«117362_j53163105190000_1_alg».proof.Proof.KIReg1
import proofs.«117362_j53163105190000_1_alg».proof.Proof.PayIdx
import Idealize.ShloMosaic.Lib.Pipeline.Value

noncomputable section

namespace Cert.KernelIdeal.Val

open Cert.KernelIdeal Cert.KernelIdeal.Gen Cert.KernelIdeal.Frame Idealize.ShloMosaic Idealize.ShloMosaic.ValueIdx
open Idealize.ShloMosaic.TcCoe Idealize.SL.Sem
open Idealize.ShloMosaic.Pipeline (Dat)

/-! ## The two whole-array functions -/

/-- The product of the whole arrays: entry i is ∑ₖ X (i₀, k) · W (k, i₁). -/
def xw1 (X : S8192x256.Idx → EReal) (W : S256x64.Idx → EReal) : S8192x64.Idx → EReal :=
  fun i => ∑ k : Fin 256, X (ix2 (i 0) k) * W (ix2 k (i 1))

/-- The product scaled row by row by the column D, plus the row B. -/
def agg1 (X : S8192x256.Idx → EReal) (W : S256x64.Idx → EReal) (D : S8192x1.Idx → EReal) (B : S1x64.Idx → EReal) :
    S8192x64.Idx → EReal :=
  fun i => xw1 X W i * D (ix2 (i 0) (0 : Fin 1)) + B (ix2 (0 : Fin 1) (i 1))

theorem xw1_apply (X : S8192x256.Idx → EReal) (W : S256x64.Idx → EReal) (p : Fin 8192) (q : Fin 64) :
    xw1 X W (ix2 p q) = ∑ k : Fin 256, X (ix2 p k) * W (ix2 k q) := rfl

theorem agg1_apply (X : S8192x256.Idx → EReal) (W : S256x64.Idx → EReal) (D : S8192x1.Idx → EReal) (B : S1x64.Idx → EReal)
    (p : Fin 8192) (q : Fin 64) :
    agg1 X W D B (ix2 p q)
      = (∑ k : Fin 256, X (ix2 p k) * W (ix2 k q)) * D (ix2 p (0 : Fin 1)) + B (ix2 (0 : Fin 1) q) := rfl

/-- Two functions on a matrix's indices that agree at every (r, q) are equal. -/
theorem ext_ix2_1 {α : Type} {a b : ℕ} (f g : (⟨2, ![a, b]⟩ : Shape).Idx → α)
    (h : ∀ (r : Fin a) (q : Fin b), f (ix2 r q) = g (ix2 r q)) : f = g :=
  funext fun j => by rw [eq_ix2 j]; exact h _ _

/-! ## One block of the two functions, from the block's inputs

Over variables: x0 is a block of 1024 rows of X starting at row n·1024, x1 is W, x2 the same rows of D, x3 is B. -/

theorem blk_xw1 (X : S8192x256.Idx → EReal) (W : S256x64.Idx → EReal)
    (x0 : Vec Ideal S1024x256 .f32) (x1 : Vec Ideal S256x64 .f32) (n : ℕ)
    (h0 : ∀ (r : Fin 1024) (k : Fin 256) (R : Fin 8192), R.val = n * 1024 + r.val → x0 (ix2 r k) = X (ix2 R k))
    (h1 : ∀ (k : Fin 256) (q : Fin 64), x1 (ix2 k q) = W (ix2 k q))
    (r : Fin 1024) (q : Fin 64) (R : Fin 8192) (hR : R.val = n * 1024 + r.val) :
    k1_pay1 (F := Ideal) x0 x1 (ix2 r q) = xw1 X W (ix2 R q) := by
  rw [PayIdx.pay_xw1, xw1_apply]
  exact Finset.sum_congr rfl fun k _ => by rw [h0 r k R hR, h1 k q]

theorem blk_agg1 (X : S8192x256.Idx → EReal) (W : S256x64.Idx → EReal) (D : S8192x1.Idx → EReal) (B : S1x64.Idx → EReal)
    (x0 : Vec Ideal S1024x256 .f32) (x1 : Vec Ideal S256x64 .f32) (x2 : Vec Ideal S1024x1 .f32) (x3 : Vec Ideal S1x64 .f32) (n : ℕ)
    (h0 : ∀ (r : Fin 1024) (k : Fin 256) (R : Fin 8192), R.val = n * 1024 + r.val → x0 (ix2 r k) = X (ix2 R k))
    (h1 : ∀ (k : Fin 256) (q : Fin 64), x1 (ix2 k q) = W (ix2 k q))
    (h2 : ∀ (r : Fin 1024) (R : Fin 8192), R.val = n * 1024 + r.val → x2 (ix2 r (0 : Fin 1)) = D (ix2 R (0 : Fin 1)))
    (h3 : ∀ q : Fin 64, x3 (ix2 (0 : Fin 1) q) = B (ix2 (0 : Fin 1) q))
    (r : Fin 1024) (q : Fin 64) (R : Fin 8192) (hR : R.val = n * 1024 + r.val) :
    k1_pay2 (F := Ideal) x0 x1 x2 x3 (ix2 r q) = agg1 X W D B (ix2 R q) := by
  rw [PayIdx.pay_agg1, agg1_apply, h2 r R hR, h3 q]
  exact congrArg (fun s => s * D (ix2 R (0 : Fin 1)) + B (ix2 (0 : Fin 1) q))
    (Finset.sum_congr rfl fun k _ => by rw [h0 r k R hR, h1 k q])

/-! ## The windows' blocks in their arrays -/

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the row-block windows are at block row t, the whole-array windows at 0. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row r of the left matrix's block at point t is row 1024·t + r of the array. -/
theorem iblk1_0_apply (c : Dev nD) (t : Fin cfg1.N) (r : Fin 1024) (k : Fin 256) (R : Fin 8192)
    (hR : R.val = t.val * 1024 + r.val) :
    (iblk1 V c 0 t : Vec Ideal S1024x256 .f32) (ix2 r k) = (V c main_v45 : S8192x256.Idx → EReal) (ix2 R k) := by
  obtain ⟨e0, e1, -⟩ := idx1 t
  unfold iblk1
  rw [View.read_apply]
  show (V c main_v45 : S8192x256.Idx → EReal) _ = (V c main_v45 : S8192x256.Idx → EReal) (ix2 R k)
  refine congrArg _ (funext fun a => Fin.ext ?_)
  match a with
  | ⟨0, _⟩ => show win1_0.index t (0 : Fin 2) * 1024 + 1 * r.val = R.val; rw [e0, hR]; omega
  | ⟨1, _⟩ => show win1_0.index t (1 : Fin 2) * 256 + 1 * k.val = k.val; rw [e1]; omega

/-- The right matrix's block at every point is the array. -/
theorem iblk1_1_apply (c : Dev nD) (t : Fin cfg1.N) (k : Fin 256) (q : Fin 64) :
    (iblk1 V c 1 t : Vec Ideal S256x64 .f32) (ix2 k q) = (V c main_arg4 : S256x64.Idx → EReal) (ix2 k q) := by
  obtain ⟨-, -, e0, e1, -⟩ := idx1 t
  unfold iblk1
  rw [View.read_apply]
  show (V c main_arg4 : S256x64.Idx → EReal) _ = (V c main_arg4 : S256x64.Idx → EReal) (ix2 k q)
  refine congrArg _ (funext fun a => Fin.ext ?_)
  match a with
  | ⟨0, _⟩ => show win1_1.index t (0 : Fin 2) * 256 + 1 * k.val = k.val; rw [e0]; omega
  | ⟨1, _⟩ => show win1_1.index t (1 : Fin 2) * 64 + 1 * q.val = q.val; rw [e1]; omega

/-- Row r of the weights' block at point t is row 1024·t + r of the column. -/
theorem iblk1_2_apply (c : Dev nD) (t : Fin cfg1.N) (r : Fin 1024) (R : Fin 8192)
    (hR : R.val = t.val * 1024 + r.val) :
    (iblk1 V c 2 t : Vec Ideal S1024x1 .f32) (ix2 r (0 : Fin 1)) = (V c main_v13 : S8192x1.Idx → EReal) (ix2 R (0 : Fin 1)) := by
  obtain ⟨-, -, -, -, e0, e1, -⟩ := idx1 t
  unfold iblk1
  rw [View.read_apply]
  show (V c main_v13 : S8192x1.Idx → EReal) _ = (V c main_v13 : S8192x1.Idx → EReal) (ix2 R (0 : Fin 1))
  refine congrArg _ (funext fun a => Fin.ext ?_)
  match a with
  | ⟨0, _⟩ => show win1_2.index t (0 : Fin 2) * 1024 + 1 * r.val = R.val; rw [e0, hR]; omega
  | ⟨1, _⟩ => show win1_2.index t (1 : Fin 2) * 1 + 1 * 0 = 0; rw [e1]

/-- The bias row's block at every point is the array. -/
theorem iblk1_3_apply (c : Dev nD) (t : Fin cfg1.N) (q : Fin 64) :
    (iblk1 V c 3 t : Vec Ideal S1x64 .f32) (ix2 (0 : Fin 1) q) = (V c main_v46 : S1x64.Idx → EReal) (ix2 (0 : Fin 1) q) := by
  obtain ⟨-, -, -, -, -, -, e0, e1, -⟩ := idx1 t
  unfold iblk1
  rw [View.read_apply]
  show (V c main_v46 : S1x64.Idx → EReal) _ = (V c main_v46 : S1x64.Idx → EReal) (ix2 (0 : Fin 1) q)
  refine congrArg _ (funext fun a => Fin.ext ?_)
  match a with
  | ⟨0, _⟩ => show win1_3.index t (0 : Fin 2) * 1 + 1 * 0 = 0; rw [e0]
  | ⟨1, _⟩ => show win1_3.index t (1 : Fin 2) * 64 + 1 * q.val = q.val; rw [e1]; omega

/-- Element (r, q) of an output block at point t sits at (1024·t + r, q) of its array. -/
theorem emb1_4 (t : Fin cfg1.N) (r : Fin 1024) (q : Fin 64) (R : Fin 8192) (hR : R.val = t.val * 1024 + r.val) :
    ((cfg1.win 4).blk t).view.emb (ix2 r q) = (ix2 R q : S8192x64.Idx) := by
  obtain ⟨-, -, -, -, -, -, -, -, e0, e1, -⟩ := idx1 t
  refine funext fun a => Fin.ext ?_
  match a with
  | ⟨0, _⟩ => show win1_4.index t (0 : Fin 2) * 1024 + 1 * r.val = R.val; rw [e0, hR]; omega
  | ⟨1, _⟩ => show win1_4.index t (1 : Fin 2) * 64 + 1 * q.val = q.val; rw [e1]; omega

theorem emb1_5 (t : Fin cfg1.N) (r : Fin 1024) (q : Fin 64) (R : Fin 8192) (hR : R.val = t.val * 1024 + r.val) :
    ((cfg1.win 5).blk t).view.emb (ix2 r q) = (ix2 R q : S8192x64.Idx) := by
  obtain ⟨-, -, -, -, -, -, -, -, -, -, e0, e1⟩ := idx1 t
  refine funext fun a => Fin.ext ?_
  match a with
  | ⟨0, _⟩ => show win1_5.index t (0 : Fin 2) * 1024 + 1 * r.val = R.val; rw [e0, hR]; omega
  | ⟨1, _⟩ => show win1_5.index t (1 : Fin 2) * 64 + 1 * q.val = q.val; rw [e1]; omega

/-- Row 1024·t + r is a row of the array. -/
theorem row_lt1 (t : Fin cfg1.N) (r : Fin 1024) : t.val * 1024 + r.val < 8192 := by
  have hN : cfg1.N = 8 := N_1
  have := t.isLt; have := r.isLt; omega

/-! ## What each point writes back is its block of the whole-array function -/

theorem flushed1_4_eq (c : Dev nD) (t : Fin cfg1.N) :
    (dat1 (F := Ideal) V c).flushed 4 t
      = ((cfg1.win 4).blk t).view.read (Elt Ideal) (xw1 (V c main_v45) (V c main_arg4)) := by
  show (cfg1.win 4).cut (grid1.coords t) ((dat1 (F := Ideal) V c).after 4 t) = _
  rw [after1_4]
  unfold out1_4
  rw [View.canon_unit_zero hz1]
  simp only [View.ld_unit_zero (S := S1024x256) hz1, View.ld_unit_zero (S := S256x64) hz1]
  refine ext_ix2_1 (a := 1024) (b := 64) _ _ fun r q => ?_
  show k1_pay1 (F := Ideal) (iblk1 V c 0 t) (iblk1 V c 1 t) (ix2 r q)
    = xw1 (V c main_v45) (V c main_arg4) (((cfg1.win 4).blk t).view.emb (ix2 r q))
  rw [emb1_4 t r q ⟨t.val * 1024 + r.val, row_lt1 t r⟩ rfl]
  exact blk_xw1 (V c main_v45) (V c main_arg4) (iblk1 V c 0 t) (iblk1 V c 1 t) t.val
    (fun r k R hR => iblk1_0_apply V c t r k R hR) (fun k q => iblk1_1_apply V c t k q) r q _ rfl

theorem flushed1_5_eq (c : Dev nD) (t : Fin cfg1.N) :
    (dat1 (F := Ideal) V c).flushed 5 t
      = ((cfg1.win 5).blk t).view.read (Elt Ideal) (agg1 (V c main_v45) (V c main_arg4) (V c main_v13) (V c main_v46)) := by
  show (cfg1.win 5).cut (grid1.coords t) ((dat1 (F := Ideal) V c).after 5 t) = _
  rw [after1_5]
  unfold out1_5
  rw [View.canon_unit_zero hz1]
  simp only [View.ld_unit_zero (S := S1024x256) hz1, View.ld_unit_zero (S := S256x64) hz1,
    View.ld_unit_zero (S := S1024x1) hz1, View.ld_unit_zero (S := S1x64) hz1]
  refine ext_ix2_1 (a := 1024) (b := 64) _ _ fun r q => ?_
  show k1_pay2 (F := Ideal) (iblk1 V c 0 t) (iblk1 V c 1 t) (iblk1 V c 2 t) (iblk1 V c 3 t) (ix2 r q)
    = agg1 (V c main_v45) (V c main_arg4) (V c main_v13) (V c main_v46) (((cfg1.win 5).blk t).view.emb (ix2 r q))
  rw [emb1_5 t r q ⟨t.val * 1024 + r.val, row_lt1 t r⟩ rfl]
  exact blk_agg1 (V c main_v45) (V c main_arg4) (V c main_v13) (V c main_v46)
    (iblk1 V c 0 t) (iblk1 V c 1 t) (iblk1 V c 2 t) (iblk1 V c 3 t) t.val
    (fun r k R hR => iblk1_0_apply V c t r k R hR) (fun k q => iblk1_1_apply V c t k q)
    (fun r R hR => iblk1_2_apply V c t r R hR) (fun q => iblk1_3_apply V c t q) r q _ rfl

/-! ## The blocks cover the arrays -/

/-- An index is in point t's block iff each coordinate is in the block's range on its axis. -/
theorem mem_blk1_4 (t : Fin cfg1.N) (i : S8192x64.Idx) :
    i ∈ ((cfg1.win 4).blk t).view.set
      ↔ ∀ a : Fin 2, win1_4.index t a * S1024x64.size a ≤ (i a).val ∧ (i a).val < win1_4.index t a * S1024x64.size a + S1024x64.size a := by
  show i ∈ ((View.whole main_v47_0).slice (win1_4.rect t)).set ↔ _
  rw [View.set_slice_whole, Rect.mem_set_unit]
  exact Iff.rfl

theorem mem_blk1_5 (t : Fin cfg1.N) (i : S8192x64.Idx) :
    i ∈ ((cfg1.win 5).blk t).view.set
      ↔ ∀ a : Fin 2, win1_5.index t a * S1024x64.size a ≤ (i a).val ∧ (i a).val < win1_5.index t a * S1024x64.size a + S1024x64.size a := by
  show i ∈ ((View.whole main_v47_1).slice (win1_5.rect t)).set ↔ _
  rw [View.set_slice_whole, Rect.mem_set_unit]
  exact Iff.rfl

/-- Row i₀ is in the block of point i₀ / 1024. -/
theorem cover1_4 (i : S8192x64.Idx) :
    ∃ t : Fin cfg1.N, (cfg1.win 4).flush t = true ∧ i ∈ ((cfg1.win 4).blk t).view.set := by
  have hi0 : (i 0).val < 8192 := (i 0).isLt
  have hi1 : (i 1).val < 64 := (i 1).isLt
  have hN : cfg1.N = 8 := N_1
  have ht : (i 0).val / 1024 < cfg1.N := by rw [hN]; omega
  obtain ⟨-, -, -, -, -, -, -, -, e0, e1, -⟩ := idx1 ⟨(i 0).val / 1024, ht⟩
  refine ⟨⟨(i 0).val / 1024, ht⟩, flush1_4 _, ?_⟩
  rw [mem_blk1_4]
  intro a
  match a with
  | ⟨0, _⟩ =>
    show win1_4.index ⟨(i 0).val / 1024, ht⟩ (0 : Fin 2) * 1024 ≤ (i 0).val
      ∧ (i 0).val < win1_4.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win1_4.index ⟨(i 0).val / 1024, ht⟩ (1 : Fin 2) * 64 ≤ (i 1).val
      ∧ (i 1).val < win1_4.index ⟨(i 0).val / 1024, ht⟩ (1 : Fin 2) * 64 + 64
    rw [e1]; omega

theorem cover1_5 (i : S8192x64.Idx) :
    ∃ t : Fin cfg1.N, (cfg1.win 5).flush t = true ∧ i ∈ ((cfg1.win 5).blk t).view.set := by
  have hi0 : (i 0).val < 8192 := (i 0).isLt
  have hi1 : (i 1).val < 64 := (i 1).isLt
  have hN : cfg1.N = 8 := N_1
  have ht : (i 0).val / 1024 < cfg1.N := by rw [hN]; omega
  obtain ⟨-, -, -, -, -, -, -, -, -, -, e0, e1⟩ := idx1 ⟨(i 0).val / 1024, ht⟩
  refine ⟨⟨(i 0).val / 1024, ht⟩, flush1_5 _, ?_⟩
  rw [mem_blk1_5]
  intro a
  match a with
  | ⟨0, _⟩ =>
    show win1_5.index ⟨(i 0).val / 1024, ht⟩ (0 : Fin 2) * 1024 ≤ (i 0).val
      ∧ (i 0).val < win1_5.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win1_5.index ⟨(i 0).val / 1024, ht⟩ (1 : Fin 2) * 64 ≤ (i 1).val
      ∧ (i 1).val < win1_5.index ⟨(i 0).val / 1024, ht⟩ (1 : Fin 2) * 64 + 64
    rw [e1]; omega

/-! ## The two output arrays after the run -/

/-- The first output array is the product of the whole arrays. -/
theorem final1_4 (c : Dev nD) (p : Fin 8192) (q : Fin 64) :
    (by exact (dat1 (F := Ideal) V c).arrAt 4 cfg1.N : S8192x64.Idx → EReal) (ix2 p q)
      = ∑ k : Fin 256, (by exact V c main_v45 : S8192x256.Idx → EReal) (ix2 p k) * (by exact V c main_arg4 : S256x64.Idx → EReal) (ix2 k q) := by
  have h := (dat1 (F := Ideal) V c).arrAt_eq_of_cover 4 (xw1 (V c main_v45) (V c main_arg4))
    (fun t _ => flushed1_4_eq V c t) cover1_4
  exact (congrFun h (ix2 p q)).trans (xw1_apply (V c main_v45) (V c main_arg4) p q)

/-- The second is the product scaled row by row by the weights, plus the bias row. -/
theorem final1_5 (c : Dev nD) (p : Fin 8192) (q : Fin 64) :
    (by exact (dat1 (F := Ideal) V c).arrAt 5 cfg1.N : S8192x64.Idx → EReal) (ix2 p q)
      = (∑ k : Fin 256, (by exact V c main_v45 : S8192x256.Idx → EReal) (ix2 p k) * (by exact V c main_arg4 : S256x64.Idx → EReal) (ix2 k q))
          * (by exact V c main_v13 : S8192x1.Idx → EReal) (ix2 p (0 : Fin 1)) + (by exact V c main_v46 : S1x64.Idx → EReal) (ix2 (0 : Fin 1) q) := by
  have h := (dat1 (F := Ideal) V c).arrAt_eq_of_cover 5 (agg1 (V c main_v45) (V c main_arg4) (V c main_v13) (V c main_v46))
    (fun t _ => flushed1_5_eq V c t) cover1_5
  exact (congrFun h (ix2 p q)).trans (agg1_apply (V c main_v45) (V c main_arg4) (V c main_v13) (V c main_v46) p q)

end Cert.KernelIdeal.Val

end
-- ==== Proof.KIVal2.lean ====
/-
  Region 2 of the program, read as one function of the arrays it is entered with. The region runs a dense layer on 8
  row blocks of 1024 rows: at grid point t the body multiplies rows 1024·t … 1024·t + 1023 of the left matrix by the
  whole right matrix, and writes that block of the product and the block of the product scaled row by row by the rows'
  weights plus the bias row. So after the run the first output array is the product X·W of the whole arrays, entry
  (p, q) = ∑ₖ X (p, k) · W (k, q), and the second is (X·W) (p, q) · D (p) + B (q): each grid point writes back the block
  of that one function its rectangle names, and the 8 blocks cover the 8192 rows (row p is in block p / 1024).
-/
import proofs.«117362_j53163105190000_1_alg».proof.Proof.KIReg2
import proofs.«117362_j53163105190000_1_alg».proof.Proof.PayIdx
import Idealize.ShloMosaic.Lib.Pipeline.Value

noncomputable section

namespace Cert.KernelIdeal.Val

open Cert.KernelIdeal Cert.KernelIdeal.Gen Cert.KernelIdeal.Frame Idealize.ShloMosaic Idealize.ShloMosaic.ValueIdx
open Idealize.ShloMosaic.TcCoe Idealize.SL.Sem
open Idealize.ShloMosaic.Pipeline (Dat)

/-! ## The two whole-array functions -/

/-- The product of the whole arrays: entry i is ∑ₖ X (i₀, k) · W (k, i₁). -/
def xw2 (X : S8192x256.Idx → EReal) (W : S256x64.Idx → EReal) : S8192x64.Idx → EReal :=
  fun i => ∑ k : Fin 256, X (ix2 (i 0) k) * W (ix2 k (i 1))

/-- The product scaled row by row by the column D, plus the row B. -/
def agg2 (X : S8192x256.Idx → EReal) (W : S256x64.Idx → EReal) (D : S8192x1.Idx → EReal) (B : S1x64.Idx → EReal) :
    S8192x64.Idx → EReal :=
  fun i => xw2 X W i * D (ix2 (i 0) (0 : Fin 1)) + B (ix2 (0 : Fin 1) (i 1))

theorem xw2_apply (X : S8192x256.Idx → EReal) (W : S256x64.Idx → EReal) (p : Fin 8192) (q : Fin 64) :
    xw2 X W (ix2 p q) = ∑ k : Fin 256, X (ix2 p k) * W (ix2 k q) := rfl

theorem agg2_apply (X : S8192x256.Idx → EReal) (W : S256x64.Idx → EReal) (D : S8192x1.Idx → EReal) (B : S1x64.Idx → EReal)
    (p : Fin 8192) (q : Fin 64) :
    agg2 X W D B (ix2 p q)
      = (∑ k : Fin 256, X (ix2 p k) * W (ix2 k q)) * D (ix2 p (0 : Fin 1)) + B (ix2 (0 : Fin 1) q) := rfl

/-- Two functions on a matrix's indices that agree at every (r, q) are equal. -/
theorem ext_ix2_2 {α : Type} {a b : ℕ} (f g : (⟨2, ![a, b]⟩ : Shape).Idx → α)
    (h : ∀ (r : Fin a) (q : Fin b), f (ix2 r q) = g (ix2 r q)) : f = g :=
  funext fun j => by rw [eq_ix2 j]; exact h _ _

/-! ## One block of the two functions, from the block's inputs

Over variables: x0 is a block of 1024 rows of X starting at row n·1024, x1 is W, x2 the same rows of D, x3 is B. -/

theorem blk_xw2 (X : S8192x256.Idx → EReal) (W : S256x64.Idx → EReal)
    (x0 : Vec Ideal S1024x256 .f32) (x1 : Vec Ideal S256x64 .f32) (n : ℕ)
    (h0 : ∀ (r : Fin 1024) (k : Fin 256) (R : Fin 8192), R.val = n * 1024 + r.val → x0 (ix2 r k) = X (ix2 R k))
    (h1 : ∀ (k : Fin 256) (q : Fin 64), x1 (ix2 k q) = W (ix2 k q))
    (r : Fin 1024) (q : Fin 64) (R : Fin 8192) (hR : R.val = n * 1024 + r.val) :
    k2_pay1 (F := Ideal) x0 x1 (ix2 r q) = xw2 X W (ix2 R q) := by
  rw [PayIdx.pay_xw2, xw2_apply]
  exact Finset.sum_congr rfl fun k _ => by rw [h0 r k R hR, h1 k q]

theorem blk_agg2 (X : S8192x256.Idx → EReal) (W : S256x64.Idx → EReal) (D : S8192x1.Idx → EReal) (B : S1x64.Idx → EReal)
    (x0 : Vec Ideal S1024x256 .f32) (x1 : Vec Ideal S256x64 .f32) (x2 : Vec Ideal S1024x1 .f32) (x3 : Vec Ideal S1x64 .f32) (n : ℕ)
    (h0 : ∀ (r : Fin 1024) (k : Fin 256) (R : Fin 8192), R.val = n * 1024 + r.val → x0 (ix2 r k) = X (ix2 R k))
    (h1 : ∀ (k : Fin 256) (q : Fin 64), x1 (ix2 k q) = W (ix2 k q))
    (h2 : ∀ (r : Fin 1024) (R : Fin 8192), R.val = n * 1024 + r.val → x2 (ix2 r (0 : Fin 1)) = D (ix2 R (0 : Fin 1)))
    (h3 : ∀ q : Fin 64, x3 (ix2 (0 : Fin 1) q) = B (ix2 (0 : Fin 1) q))
    (r : Fin 1024) (q : Fin 64) (R : Fin 8192) (hR : R.val = n * 1024 + r.val) :
    k2_pay2 (F := Ideal) x0 x1 x2 x3 (ix2 r q) = agg2 X W D B (ix2 R q) := by
  rw [PayIdx.pay_agg2, agg2_apply, h2 r R hR, h3 q]
  exact congrArg (fun s => s * D (ix2 R (0 : Fin 1)) + B (ix2 (0 : Fin 1) q))
    (Finset.sum_congr rfl fun k _ => by rw [h0 r k R hR, h1 k q])

/-! ## The windows' blocks in their arrays -/

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-block windows are at block row t, the whole-array windows at 0. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row r of the left matrix's block at point t is row 1024·t + r of the array. -/
theorem iblk2_0_apply (c : Dev nD) (t : Fin cfg2.N) (r : Fin 1024) (k : Fin 256) (R : Fin 8192)
    (hR : R.val = t.val * 1024 + r.val) :
    (iblk2 V c 0 t : Vec Ideal S1024x256 .f32) (ix2 r k) = (V c main_v45 : S8192x256.Idx → EReal) (ix2 R k) := by
  obtain ⟨e0, e1, -⟩ := idx2 t
  unfold iblk2
  rw [View.read_apply]
  show (V c main_v45 : S8192x256.Idx → EReal) _ = (V c main_v45 : S8192x256.Idx → EReal) (ix2 R k)
  refine congrArg _ (funext fun a => Fin.ext ?_)
  match a with
  | ⟨0, _⟩ => show win2_0.index t (0 : Fin 2) * 1024 + 1 * r.val = R.val; rw [e0, hR]; omega
  | ⟨1, _⟩ => show win2_0.index t (1 : Fin 2) * 256 + 1 * k.val = k.val; rw [e1]; omega

/-- The right matrix's block at every point is the array. -/
theorem iblk2_1_apply (c : Dev nD) (t : Fin cfg2.N) (k : Fin 256) (q : Fin 64) :
    (iblk2 V c 1 t : Vec Ideal S256x64 .f32) (ix2 k q) = (V c main_arg6 : S256x64.Idx → EReal) (ix2 k q) := by
  obtain ⟨-, -, e0, e1, -⟩ := idx2 t
  unfold iblk2
  rw [View.read_apply]
  show (V c main_arg6 : S256x64.Idx → EReal) _ = (V c main_arg6 : S256x64.Idx → EReal) (ix2 k q)
  refine congrArg _ (funext fun a => Fin.ext ?_)
  match a with
  | ⟨0, _⟩ => show win2_1.index t (0 : Fin 2) * 256 + 1 * k.val = k.val; rw [e0]; omega
  | ⟨1, _⟩ => show win2_1.index t (1 : Fin 2) * 64 + 1 * q.val = q.val; rw [e1]; omega

/-- Row r of the weights' block at point t is row 1024·t + r of the column. -/
theorem iblk2_2_apply (c : Dev nD) (t : Fin cfg2.N) (r : Fin 1024) (R : Fin 8192)
    (hR : R.val = t.val * 1024 + r.val) :
    (iblk2 V c 2 t : Vec Ideal S1024x1 .f32) (ix2 r (0 : Fin 1)) = (V c main_v13 : S8192x1.Idx → EReal) (ix2 R (0 : Fin 1)) := by
  obtain ⟨-, -, -, -, e0, e1, -⟩ := idx2 t
  unfold iblk2
  rw [View.read_apply]
  show (V c main_v13 : S8192x1.Idx → EReal) _ = (V c main_v13 : S8192x1.Idx → EReal) (ix2 R (0 : Fin 1))
  refine congrArg _ (funext fun a => Fin.ext ?_)
  match a with
  | ⟨0, _⟩ => show win2_2.index t (0 : Fin 2) * 1024 + 1 * r.val = R.val; rw [e0, hR]; omega
  | ⟨1, _⟩ => show win2_2.index t (1 : Fin 2) * 1 + 1 * 0 = 0; rw [e1]

/-- The bias row's block at every point is the array. -/
theorem iblk2_3_apply (c : Dev nD) (t : Fin cfg2.N) (q : Fin 64) :
    (iblk2 V c 3 t : Vec Ideal S1x64 .f32) (ix2 (0 : Fin 1) q) = (V c main_v61 : S1x64.Idx → EReal) (ix2 (0 : Fin 1) q) := by
  obtain ⟨-, -, -, -, -, -, e0, e1, -⟩ := idx2 t
  unfold iblk2
  rw [View.read_apply]
  show (V c main_v61 : S1x64.Idx → EReal) _ = (V c main_v61 : S1x64.Idx → EReal) (ix2 (0 : Fin 1) q)
  refine congrArg _ (funext fun a => Fin.ext ?_)
  match a with
  | ⟨0, _⟩ => show win2_3.index t (0 : Fin 2) * 1 + 1 * 0 = 0; rw [e0]
  | ⟨1, _⟩ => show win2_3.index t (1 : Fin 2) * 64 + 1 * q.val = q.val; rw [e1]; omega

/-- Element (r, q) of an output block at point t sits at (1024·t + r, q) of its array. -/
theorem emb2_4 (t : Fin cfg2.N) (r : Fin 1024) (q : Fin 64) (R : Fin 8192) (hR : R.val = t.val * 1024 + r.val) :
    ((cfg2.win 4).blk t).view.emb (ix2 r q) = (ix2 R q : S8192x64.Idx) := by
  obtain ⟨-, -, -, -, -, -, -, -, e0, e1, -⟩ := idx2 t
  refine funext fun a => Fin.ext ?_
  match a with
  | ⟨0, _⟩ => show win2_4.index t (0 : Fin 2) * 1024 + 1 * r.val = R.val; rw [e0, hR]; omega
  | ⟨1, _⟩ => show win2_4.index t (1 : Fin 2) * 64 + 1 * q.val = q.val; rw [e1]; omega

theorem emb2_5 (t : Fin cfg2.N) (r : Fin 1024) (q : Fin 64) (R : Fin 8192) (hR : R.val = t.val * 1024 + r.val) :
    ((cfg2.win 5).blk t).view.emb (ix2 r q) = (ix2 R q : S8192x64.Idx) := by
  obtain ⟨-, -, -, -, -, -, -, -, -, -, e0, e1⟩ := idx2 t
  refine funext fun a => Fin.ext ?_
  match a with
  | ⟨0, _⟩ => show win2_5.index t (0 : Fin 2) * 1024 + 1 * r.val = R.val; rw [e0, hR]; omega
  | ⟨1, _⟩ => show win2_5.index t (1 : Fin 2) * 64 + 1 * q.val = q.val; rw [e1]; omega

/-- Row 1024·t + r is a row of the array. -/
theorem row_lt2 (t : Fin cfg2.N) (r : Fin 1024) : t.val * 1024 + r.val < 8192 := by
  have hN : cfg2.N = 8 := N_2
  have := t.isLt; have := r.isLt; omega

/-! ## What each point writes back is its block of the whole-array function -/

theorem flushed2_4_eq (c : Dev nD) (t : Fin cfg2.N) :
    (dat2 (F := Ideal) V c).flushed 4 t
      = ((cfg2.win 4).blk t).view.read (Elt Ideal) (xw2 (V c main_v45) (V c main_arg6)) := by
  show (cfg2.win 4).cut (grid2.coords t) ((dat2 (F := Ideal) V c).after 4 t) = _
  rw [after2_4]
  unfold out2_4
  rw [View.canon_unit_zero hz2]
  simp only [View.ld_unit_zero (S := S1024x256) hz2, View.ld_unit_zero (S := S256x64) hz2]
  refine ext_ix2_2 (a := 1024) (b := 64) _ _ fun r q => ?_
  show k2_pay1 (F := Ideal) (iblk2 V c 0 t) (iblk2 V c 1 t) (ix2 r q)
    = xw2 (V c main_v45) (V c main_arg6) (((cfg2.win 4).blk t).view.emb (ix2 r q))
  rw [emb2_4 t r q ⟨t.val * 1024 + r.val, row_lt2 t r⟩ rfl]
  exact blk_xw2 (V c main_v45) (V c main_arg6) (iblk2 V c 0 t) (iblk2 V c 1 t) t.val
    (fun r k R hR => iblk2_0_apply V c t r k R hR) (fun k q => iblk2_1_apply V c t k q) r q _ rfl

theorem flushed2_5_eq (c : Dev nD) (t : Fin cfg2.N) :
    (dat2 (F := Ideal) V c).flushed 5 t
      = ((cfg2.win 5).blk t).view.read (Elt Ideal) (agg2 (V c main_v45) (V c main_arg6) (V c main_v13) (V c main_v61)) := by
  show (cfg2.win 5).cut (grid2.coords t) ((dat2 (F := Ideal) V c).after 5 t) = _
  rw [after2_5]
  unfold out2_5
  rw [View.canon_unit_zero hz2]
  simp only [View.ld_unit_zero (S := S1024x256) hz2, View.ld_unit_zero (S := S256x64) hz2,
    View.ld_unit_zero (S := S1024x1) hz2, View.ld_unit_zero (S := S1x64) hz2]
  refine ext_ix2_2 (a := 1024) (b := 64) _ _ fun r q => ?_
  show k2_pay2 (F := Ideal) (iblk2 V c 0 t) (iblk2 V c 1 t) (iblk2 V c 2 t) (iblk2 V c 3 t) (ix2 r q)
    = agg2 (V c main_v45) (V c main_arg6) (V c main_v13) (V c main_v61) (((cfg2.win 5).blk t).view.emb (ix2 r q))
  rw [emb2_5 t r q ⟨t.val * 1024 + r.val, row_lt2 t r⟩ rfl]
  exact blk_agg2 (V c main_v45) (V c main_arg6) (V c main_v13) (V c main_v61)
    (iblk2 V c 0 t) (iblk2 V c 1 t) (iblk2 V c 2 t) (iblk2 V c 3 t) t.val
    (fun r k R hR => iblk2_0_apply V c t r k R hR) (fun k q => iblk2_1_apply V c t k q)
    (fun r R hR => iblk2_2_apply V c t r R hR) (fun q => iblk2_3_apply V c t q) r q _ rfl

/-! ## The blocks cover the arrays -/

/-- An index is in point t's block iff each coordinate is in the block's range on its axis. -/
theorem mem_blk2_4 (t : Fin cfg2.N) (i : S8192x64.Idx) :
    i ∈ ((cfg2.win 4).blk t).view.set
      ↔ ∀ a : Fin 2, win2_4.index t a * S1024x64.size a ≤ (i a).val ∧ (i a).val < win2_4.index t a * S1024x64.size a + S1024x64.size a := by
  show i ∈ ((View.whole main_v62_0).slice (win2_4.rect t)).set ↔ _
  rw [View.set_slice_whole, Rect.mem_set_unit]
  exact Iff.rfl

theorem mem_blk2_5 (t : Fin cfg2.N) (i : S8192x64.Idx) :
    i ∈ ((cfg2.win 5).blk t).view.set
      ↔ ∀ a : Fin 2, win2_5.index t a * S1024x64.size a ≤ (i a).val ∧ (i a).val < win2_5.index t a * S1024x64.size a + S1024x64.size a := by
  show i ∈ ((View.whole main_v62_1).slice (win2_5.rect t)).set ↔ _
  rw [View.set_slice_whole, Rect.mem_set_unit]
  exact Iff.rfl

/-- Row i₀ is in the block of point i₀ / 1024. -/
theorem cover2_4 (i : S8192x64.Idx) :
    ∃ t : Fin cfg2.N, (cfg2.win 4).flush t = true ∧ i ∈ ((cfg2.win 4).blk t).view.set := by
  have hi0 : (i 0).val < 8192 := (i 0).isLt
  have hi1 : (i 1).val < 64 := (i 1).isLt
  have hN : cfg2.N = 8 := N_2
  have ht : (i 0).val / 1024 < cfg2.N := by rw [hN]; omega
  obtain ⟨-, -, -, -, -, -, -, -, e0, e1, -⟩ := idx2 ⟨(i 0).val / 1024, ht⟩
  refine ⟨⟨(i 0).val / 1024, ht⟩, flush2_4 _, ?_⟩
  rw [mem_blk2_4]
  intro a
  match a with
  | ⟨0, _⟩ =>
    show win2_4.index ⟨(i 0).val / 1024, ht⟩ (0 : Fin 2) * 1024 ≤ (i 0).val
      ∧ (i 0).val < win2_4.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win2_4.index ⟨(i 0).val / 1024, ht⟩ (1 : Fin 2) * 64 ≤ (i 1).val
      ∧ (i 1).val < win2_4.index ⟨(i 0).val / 1024, ht⟩ (1 : Fin 2) * 64 + 64
    rw [e1]; omega

theorem cover2_5 (i : S8192x64.Idx) :
    ∃ t : Fin cfg2.N, (cfg2.win 5).flush t = true ∧ i ∈ ((cfg2.win 5).blk t).view.set := by
  have hi0 : (i 0).val < 8192 := (i 0).isLt
  have hi1 : (i 1).val < 64 := (i 1).isLt
  have hN : cfg2.N = 8 := N_2
  have ht : (i 0).val / 1024 < cfg2.N := by rw [hN]; omega
  obtain ⟨-, -, -, -, -, -, -, -, -, -, e0, e1⟩ := idx2 ⟨(i 0).val / 1024, ht⟩
  refine ⟨⟨(i 0).val / 1024, ht⟩, flush2_5 _, ?_⟩
  rw [mem_blk2_5]
  intro a
  match a with
  | ⟨0, _⟩ =>
    show win2_5.index ⟨(i 0).val / 1024, ht⟩ (0 : Fin 2) * 1024 ≤ (i 0).val
      ∧ (i 0).val < win2_5.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win2_5.index ⟨(i 0).val / 1024, ht⟩ (1 : Fin 2) * 64 ≤ (i 1).val
      ∧ (i 1).val < win2_5.index ⟨(i 0).val / 1024, ht⟩ (1 : Fin 2) * 64 + 64
    rw [e1]; omega

/-! ## The two output arrays after the run -/

/-- The first output array is the product of the whole arrays. -/
theorem final2_4 (c : Dev nD) (p : Fin 8192) (q : Fin 64) :
    (by exact (dat2 (F := Ideal) V c).arrAt 4 cfg2.N : S8192x64.Idx → EReal) (ix2 p q)
      = ∑ k : Fin 256, (by exact V c main_v45 : S8192x256.Idx → EReal) (ix2 p k) * (by exact V c main_arg6 : S256x64.Idx → EReal) (ix2 k q) := by
  have h := (dat2 (F := Ideal) V c).arrAt_eq_of_cover 4 (xw2 (V c main_v45) (V c main_arg6))
    (fun t _ => flushed2_4_eq V c t) cover2_4
  exact (congrFun h (ix2 p q)).trans (xw2_apply (V c main_v45) (V c main_arg6) p q)

/-- The second is the product scaled row by row by the weights, plus the bias row. -/
theorem final2_5 (c : Dev nD) (p : Fin 8192) (q : Fin 64) :
    (by exact (dat2 (F := Ideal) V c).arrAt 5 cfg2.N : S8192x64.Idx → EReal) (ix2 p q)
      = (∑ k : Fin 256, (by exact V c main_v45 : S8192x256.Idx → EReal) (ix2 p k) * (by exact V c main_arg6 : S256x64.Idx → EReal) (ix2 k q))
          * (by exact V c main_v13 : S8192x1.Idx → EReal) (ix2 p (0 : Fin 1)) + (by exact V c main_v61 : S1x64.Idx → EReal) (ix2 (0 : Fin 1) q) := by
  have h := (dat2 (F := Ideal) V c).arrAt_eq_of_cover 5 (agg2 (V c main_v45) (V c main_arg6) (V c main_v13) (V c main_v61))
    (fun t _ => flushed2_5_eq V c t) cover2_5
  exact (congrFun h (ix2 p q)).trans (agg2_apply (V c main_v45) (V c main_arg6) (V c main_v13) (V c main_v61) p q)

end Cert.KernelIdeal.Val

end
-- ==== Proof.KIVal3.lean ====
/-
  The decoder region's output array after the region, entry by entry.

  The grid is 8 × 8: point t has coordinates (t / 8, t % 8). At point t the first input window holds rows
  1024·(t / 8) … 1024·(t / 8) + 1023 of the matrix z, the second input window rows 1024·(t % 8) … of the SAME matrix, and
  the output window is block (t / 8, t % 8) of the 8192 × 8192 result. The body stores, at (p, q) of the block, the
  logistic function of the inner product of row p of the first block and row q of the second. So every point writes
  back ITS BLOCK of one whole-array function of z,

      (P, Q) ↦ logistic (∑ₖ z (P, k) · z (Q, k)),

  and the 64 blocks tile the array: the array ends holding that function.
-/
import proofs.«117362_j53163105190000_1_alg».proof.Proof.KIReg3
import proofs.«117362_j53163105190000_1_alg».proof.Proof.PayIdx
import Idealize.ShloMosaic.Lib.Pipeline.Value
import Idealize.ShloMosaic.Lib.ValueIdx

noncomputable section

namespace Cert.KernelIdeal.Val

open Cert.KernelIdeal Cert.KernelIdeal.Gen Cert.KernelIdeal.Frame Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, however spelt. -/
theorem hz3 : (![0, 0] : Fin 2 → Nat) = fun _ => 0 := funext fun a => by fin_cases a <;> rfl

/-! ## The whole-array function -/

/-- Entry (P, Q) of logistic (z zᵀ): the logistic function of the inner product of rows P and Q of z. -/
def decG (z : S8192x64.Idx → EReal) : S8192x8192.Idx → EReal := fun i =>
  Ideal.logistic (∑ k : Fin 64, z (ix2 (n0 := 8192) (i 0) k) * z (ix2 (n0 := 8192) (i 1) k))

/-- The body's payload on two blocks of 1024 rows that are rows 1024·bi … and 1024·bj … of z is, at (p, q), the
    whole-array function at (1024·bi + p, 1024·bj + q). -/
theorem pay_block (z : S8192x64.Idx → EReal) (x0 x1 : Vec Ideal S1024x64 .f32) (bi bj : Nat)
    (P Q : Fin 8192) (p q : Fin 1024) (hP : P.val = bi * 1024 + p.val) (hQ : Q.val = bj * 1024 + q.val)
    (h0 : ∀ k : Fin 64, x0 (ix2 p k) = z (ix2 P k)) (h1 : ∀ k : Fin 64, x1 (ix2 q k) = z (ix2 Q k)) :
    Gen.k3_pay1 (F := Ideal) x0 x1 (ix2 p q) = decG z (ix2 P Q) := by
  rw [PayIdx.pay_dec]
  unfold decG
  refine congrArg Ideal.logistic (Finset.sum_congr rfl fun k _ => ?_)
  rw [h0, h1]

/-! ## The printed index maps over the grid -/

/-- Point t of the 8 × 8 grid: the first input's row block is t / 8, the second's t % 8, the output's block
    (t / 8, t % 8); the inputs' column block is 0. Decided over the 64 points. -/
theorem idx_facts3 : ∀ t : Fin cfg3.N,
    win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = t.val / 8 ∧ win3_2.index t (1 : Fin 2) = t.val % 8 :=
  (by decide +kernel : ∀ t : Fin grid3.N, _)

/-! ## The input blocks as rows of the matrix -/

/-- The first input window's block at point t, at (r, k): row 1024·(t / 8) + r of z. -/
theorem iblk0_apply (c : Dev nD) (t : Fin cfg3.N) (r : Fin 1024) (k : Fin 64) (P : Fin 8192)
    (hP : P.val = t.val / 8 * 1024 + r.val) :
    (iblk3 V c 0 t : Vec Ideal S1024x64 .f32) (ix2 r k) = (V c main_v78 : S8192x64.Idx → EReal) (ix2 P k) := by
  obtain ⟨e0, e1, -, -, -, -⟩ := idx_facts3 t
  unfold iblk3
  rw [View.read_apply]
  show V c main_v78 _ = V c main_v78 _
  congr 1
  funext a
  apply Fin.ext
  match a with
  | ⟨0, _⟩ => show win3_0.index t (0 : Fin 2) * 1024 + 1 * r.val = P.val; rw [e0, hP]; omega
  | ⟨1, _⟩ => show win3_0.index t (1 : Fin 2) * 64 + 1 * k.val = k.val; rw [e1]; omega

/-- The second input window's block at point t, at (r, k): row 1024·(t % 8) + r of the same matrix. -/
theorem iblk1_apply (c : Dev nD) (t : Fin cfg3.N) (r : Fin 1024) (k : Fin 64) (Q : Fin 8192)
    (hQ : Q.val = t.val % 8 * 1024 + r.val) :
    (iblk3 V c 1 t : Vec Ideal S1024x64 .f32) (ix2 r k) = (V c main_v78 : S8192x64.Idx → EReal) (ix2 Q k) := by
  obtain ⟨-, -, e2, e3, -, -⟩ := idx_facts3 t
  unfold iblk3
  rw [View.read_apply]
  show V c main_v78 _ = V c main_v78 _
  congr 1
  funext a
  apply Fin.ext
  match a with
  | ⟨0, _⟩ => show win3_1.index t (0 : Fin 2) * 1024 + 1 * r.val = Q.val; rw [e2, hQ]; omega
  | ⟨1, _⟩ => show win3_1.index t (1 : Fin 2) * 64 + 1 * k.val = k.val; rw [e3]; omega

/-! ## What a point writes back -/

/-- Point t writes back block t of the whole-array function of z as the region finds it. -/
theorem flushed3_eq (c : Dev nD) (t : Fin cfg3.N) :
    (dat3 (F := Ideal) V c).flushed 2 t
      = ((cfg3.win 2).blk t).view.read (Elt Ideal) (decG (V c main_v78 : S8192x64.Idx → EReal)) := by
  show (cfg3.win 2).cut (grid3.coords t) ((dat3 (F := Ideal) V c).after 2 t) = _
  rw [after3_2]
  unfold out3_2
  rw [View.canon_unit_zero hz3]
  simp only [View.ld_unit_zero (S := S1024x64) hz3]
  obtain ⟨-, -, -, -, e4, e5⟩ := idx_facts3 t
  have hN : cfg3.N = 64 := N_3
  have ht : t.val < 64 := hN ▸ t.isLt
  funext j
  obtain ⟨p, q, rfl⟩ : ∃ (p q : Fin 1024), j = ix2 p q := ⟨j 0, j 1, eq_ix2 (n0 := 1024) (n1 := 1024) j⟩
  rw [View.read_apply]
  show Gen.k3_pay1 (F := Ideal) (iblk3 V c 0 t) (iblk3 V c 1 t) (ix2 p q)
      = decG (V c main_v78 : S8192x64.Idx → EReal) (((cfg3.win 2).blk t).view.emb (ix2 p q))
  have hP : t.val / 8 * 1024 + p.val < 8192 := by have := p.isLt; omega
  have hQ : t.val % 8 * 1024 + q.val < 8192 := by have := q.isLt; omega
  have hemb : ((cfg3.win 2).blk t).view.emb (ix2 p q)
      = ix2 (⟨t.val / 8 * 1024 + p.val, hP⟩ : Fin 8192) (⟨t.val % 8 * 1024 + q.val, hQ⟩ : Fin 8192) := by
    funext a
    apply Fin.ext
    match a with
    | ⟨0, _⟩ => show win3_2.index t (0 : Fin 2) * 1024 + 1 * p.val = t.val / 8 * 1024 + p.val; rw [e4]; omega
    | ⟨1, _⟩ => show win3_2.index t (1 : Fin 2) * 1024 + 1 * q.val = t.val % 8 * 1024 + q.val; rw [e5]; omega
  rw [hemb]
  exact pay_block (V c main_v78 : S8192x64.Idx → EReal) (iblk3 V c 0 t) (iblk3 V c 1 t) (t.val / 8) (t.val % 8)
    ⟨t.val / 8 * 1024 + p.val, hP⟩ ⟨t.val % 8 * 1024 + q.val, hQ⟩ p q rfl rfl
    (fun k => iblk0_apply V c t p k _ rfl) (fun k => iblk1_apply V c t q k _ rfl)

/-! ## The blocks tile the array -/

/-- An index of the array is in point t's block iff each coordinate is in the block's range on its axis. -/
theorem mem_blk3 (t : Fin cfg3.N) (i : S8192x8192.Idx) :
    i ∈ ((cfg3.win 2).blk t).view.set ↔ ∀ a : Fin 2, win3_2.index t a * S1024x1024.size a ≤ (i a).val
      ∧ (i a).val < win3_2.index t a * S1024x1024.size a + S1024x1024.size a := by
  show i ∈ ((View.whole main_v79).slice (win3_2.rect t)).set ↔ _
  rw [View.set_slice_whole, Rect.mem_set_unit]
  exact Iff.rfl

/-- Every index (P, Q) of the array is in the block of the point 8·(P / 1024) + Q / 1024. -/
theorem cover3 (i : S8192x8192.Idx) :
    ∃ t : Fin cfg3.N, (cfg3.win 2).flush t = true ∧ i ∈ ((cfg3.win 2).blk t).view.set := by
  have hN : cfg3.N = 64 := N_3
  have hi0 : (i 0).val < 8192 := (i 0).isLt
  have hi1 : (i 1).val < 8192 := (i 1).isLt
  have hlt : (i 0).val / 1024 * 8 + (i 1).val / 1024 < cfg3.N := by rw [hN]; omega
  refine ⟨⟨(i 0).val / 1024 * 8 + (i 1).val / 1024, hlt⟩, flush3_2 _, ?_⟩
  obtain ⟨-, -, -, -, e4, e5⟩ := idx_facts3 ⟨(i 0).val / 1024 * 8 + (i 1).val / 1024, hlt⟩
  rw [mem_blk3]
  intro a
  match a with
  | ⟨0, _⟩ =>
    show win3_2.index _ (0 : Fin 2) * 1024 ≤ (i 0).val ∧ (i 0).val < win3_2.index _ (0 : Fin 2) * 1024 + 1024
    rw [e4]; show ((i 0).val / 1024 * 8 + (i 1).val / 1024) / 8 * 1024 ≤ (i 0).val ∧ (i 0).val < ((i 0).val / 1024 * 8 + (i 1).val / 1024) / 8 * 1024 + 1024
    omega
  | ⟨1, _⟩ =>
    show win3_2.index _ (1 : Fin 2) * 1024 ≤ (i 1).val ∧ (i 1).val < win3_2.index _ (1 : Fin 2) * 1024 + 1024
    rw [e5]; show ((i 0).val / 1024 * 8 + (i 1).val / 1024) % 8 * 1024 ≤ (i 1).val ∧ (i 1).val < ((i 0).val / 1024 * 8 + (i 1).val / 1024) % 8 * 1024 + 1024
    omega

/-! ## The array after the region -/

/-- The output array after the region is the whole-array function of z as the region finds it. -/
theorem arr3_2 (c : Dev nD) :
    (dat3 (F := Ideal) V c).arrAt 2 cfg3.N = decG (V c main_v78 : S8192x64.Idx → EReal) :=
  (dat3 (F := Ideal) V c).arrAt_eq_of_cover 2 (decG (V c main_v78 : S8192x64.Idx → EReal))
    (fun t _ => flushed3_eq V c t) cover3

/-- Entry (p, q) of the decoder's output after the region: the logistic function of the inner product of rows p and q
    of z. -/
theorem final3_2 (V : (c : Dev nD) → (b : Ref sig .tc) → Buf (Elt Ideal) ((c : Thread nD τ).loc b)) (c : Dev nD) (p q : Fin 8192) :
    (dat3 (F := Ideal) V c).arrAt 2 cfg3.N (ix2 p q)
      = Ideal.logistic (∑ k : Fin 64, @HMul.hMul EReal EReal EReal instHMul ((V c main_v78 : S8192x64.Idx → EReal) (ix2 p k)) ((V c main_v78 : S8192x64.Idx → EReal) (ix2 q k))) :=
  congrFun (arr3_2 V c) (ix2 p q)

end Cert.KernelIdeal.Val

end
-- ==== Proof.RefConv.lean ====
/-
  The reference's three graph-convolution layers read at one index, at the exact values.

  Each layer of the reference computes, at row p and column q,
      agg (p, q) + h (p, q) · (d (p) · d (p)) + b (q),
  where h is the layer's dense product, agg is the result of a scatter-add (kept here as one unopened array), d is a
  vector that depends on the edge list only (also unopened) and b is the layer's bias vector. The factor d · d is
  broadcast from a vector to a column and then to the matrix, the bias from a vector to a row and then to the matrix;
  read at (p, q) the first is d (p) · d (p) and the second b (q). The dense products are sums over the contracted axis,
  the rectifier is the maximum with the zero constant, and the last stage is x₈ · exp (first head) + second head,
  entry by entry.
-/
import proofs.«117362_j53163105190000_1_alg».proof.Proof.Gen.ReferenceIdeal.Read
import Idealize.ShloMosaic.Lib.ValueIdx
import Idealize.ShloMosaic.PureOps.Ideal.Laws

noncomputable section

namespace Cert.Bridge

open Cert.ReferenceIdeal Cert.ReferenceIdeal.Gen Cert.ReferenceIdeal.Read Idealize.ShloMosaic Idealize.ShloMosaic.ValueIdx

/-! ## The dense products -/

/-- The first layer's product x·W₁ at (p, q). -/
theorem ref_dot1 (x0 : (⟨S8192x512, .f32⟩ : BufTy).Contents (Elt Ideal)) (x2 : (⟨S512x256, .f32⟩ : BufTy).Contents (Elt Ideal)) (p : Fin 8192) (q : Fin 256) :
    val_main_v12 (F := Ideal) x0 x2 (ix2 p q) = ∑ k : Fin 512, x0 (ix2 p k) * x2 (ix2 k q) := by
  rw [val_main_v12_apply]
  refine Finset.sum_congr rfl fun k _ => ?_
  have el : lidx_main_v12 (ix2 p q) k = ix2 p k := funext fun a => Fin.ext (by
    match a with
    | ⟨0, _⟩ => rfl
    | ⟨1, _⟩ => rfl)
  have er : ridx_main_v12 (ix2 p q) k = ix2 k q := funext fun a => Fin.ext (by
    match a with
    | ⟨0, _⟩ => rfl
    | ⟨1, _⟩ => rfl)
  rw [el, er]

/-- The first head's product relu(layer 1)·W₄ at (p, q). -/
theorem ref_dot_mu (x0 : (⟨S8192x512, .f32⟩ : BufTy).Contents (Elt Ideal)) (x1 : (⟨S2x262144, .i32⟩ : BufTy).Contents (Elt Ideal)) (x2 : (⟨S512x256, .f32⟩ : BufTy).Contents (Elt Ideal)) (x3 : (⟨S256, .f32⟩ : BufTy).Contents (Elt Ideal)) (x4 : (⟨S256x64, .f32⟩ : BufTy).Contents (Elt Ideal)) (p : Fin 8192) (q : Fin 64) :
    val_main_v50 (F := Ideal) x0 x1 x2 x3 x4 (ix2 p q)
      = ∑ k : Fin 256, val_main_v49 (F := Ideal) x0 x1 x2 x3 (ix2 p k) * x4 (ix2 k q) := by
  rw [val_main_v50_apply]
  generalize val_main_v49 (F := Ideal) x0 x1 x2 x3 = y
  refine Finset.sum_congr rfl fun k _ => ?_
  have el : lidx_main_v50 (ix2 p q) k = ix2 p k := funext fun a => Fin.ext (by
    match a with
    | ⟨0, _⟩ => rfl
    | ⟨1, _⟩ => rfl)
  have er : ridx_main_v50 (ix2 p q) k = ix2 k q := funext fun a => Fin.ext (by
    match a with
    | ⟨0, _⟩ => rfl
    | ⟨1, _⟩ => rfl)
  rw [el, er]

/-- The second head's product relu(layer 1)·W₆ at (p, q). -/
theorem ref_dot_sig (x0 : (⟨S8192x512, .f32⟩ : BufTy).Contents (Elt Ideal)) (x1 : (⟨S2x262144, .i32⟩ : BufTy).Contents (Elt Ideal)) (x2 : (⟨S512x256, .f32⟩ : BufTy).Contents (Elt Ideal)) (x3 : (⟨S256, .f32⟩ : BufTy).Contents (Elt Ideal)) (x6 : (⟨S256x64, .f32⟩ : BufTy).Contents (Elt Ideal)) (p : Fin 8192) (q : Fin 64) :
    val_main_v87 (F := Ideal) x0 x1 x2 x3 x6 (ix2 p q)
      = ∑ k : Fin 256, val_main_v49 (F := Ideal) x0 x1 x2 x3 (ix2 p k) * x6 (ix2 k q) := by
  rw [val_main_v87_apply]
  generalize val_main_v49 (F := Ideal) x0 x1 x2 x3 = y
  refine Finset.sum_congr rfl fun k _ => ?_
  have el : lidx_main_v87 (ix2 p q) k = ix2 p k := funext fun a => Fin.ext (by
    match a with
    | ⟨0, _⟩ => rfl
    | ⟨1, _⟩ => rfl)
  have er : ridx_main_v87 (ix2 p q) k = ix2 k q := funext fun a => Fin.ext (by
    match a with
    | ⟨0, _⟩ => rfl
    | ⟨1, _⟩ => rfl)
  rw [el, er]

/-! ## The three layers -/

/-- Layer 1 at (p, q): the scatter-add's entry plus the product scaled by d (p) · d (p), plus the bias. -/
theorem ref_conv1 (x0 : (⟨S8192x512, .f32⟩ : BufTy).Contents (Elt Ideal)) (x1 : (⟨S2x262144, .i32⟩ : BufTy).Contents (Elt Ideal)) (x2 : (⟨S512x256, .f32⟩ : BufTy).Contents (Elt Ideal)) (x3 : (⟨S256, .f32⟩ : BufTy).Contents (Elt Ideal)) (p : Fin 8192) (q : Fin 256) :
    val_main_v48 (F := Ideal) x0 x1 x2 x3 (ix2 p q)
      = (val_main_v40 (F := Ideal) x0 x1 x2 (ix2 p q)
          + val_main_v12 (F := Ideal) x0 x2 (ix2 p q) * (val_main_v11 (F := Ideal) x1 (ix1 p) * val_main_v11 (F := Ideal) x1 (ix1 p)))
        + x3 (ix1 q) := by
  rw [val_main_v48_apply, val_main_v45_apply, val_main_v44_apply, val_main_v47_apply, val_main_v46_apply,
    val_main_v43_apply, val_main_v42_apply, val_main_v41_apply]
  generalize val_main_v40 (F := Ideal) x0 x1 x2 = S
  generalize val_main_v12 (F := Ideal) x0 x2 = xw
  generalize val_main_v11 (F := Ideal) x1 = d
  have e1 : idx_main_v42 (idx_main_v43 (ix2 p q)) = ix1 p := funext fun a => Fin.ext (by
    match a with
    | ⟨0, _⟩ => rfl)
  have e2 : idx_main_v46 (idx_main_v47 (ix2 p q)) = ix1 q := funext fun a => Fin.ext (by
    match a with
    | ⟨0, _⟩ => rfl)
  rw [e1, e2]
  rfl

/-- The first head at (p, q): the same form. -/
theorem ref_conv_mu (x0 : (⟨S8192x512, .f32⟩ : BufTy).Contents (Elt Ideal)) (x1 : (⟨S2x262144, .i32⟩ : BufTy).Contents (Elt Ideal)) (x2 : (⟨S512x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (p : Fin 8192) (q : Fin 64) :
    val_main_v86 (F := Ideal) x0 x1 x2 x3 x4 x5 (ix2 p q)
      = (val_main_v78 (F := Ideal) x0 x1 x2 x3 x4 (ix2 p q)
          + val_main_v50 (F := Ideal) x0 x1 x2 x3 x4 (ix2 p q) * (val_main_v11 (F := Ideal) x1 (ix1 p) * val_main_v11 (F := Ideal) x1 (ix1 p)))
        + x5 (ix1 q) := by
  rw [val_main_v86_apply, val_main_v83_apply, val_main_v82_apply, val_main_v85_apply, val_main_v84_apply,
    val_main_v81_apply, val_main_v80_apply, val_main_v79_apply]
  generalize val_main_v78 (F := Ideal) x0 x1 x2 x3 x4 = S
  generalize val_main_v50 (F := Ideal) x0 x1 x2 x3 x4 = xw
  generalize val_main_v11 (F := Ideal) x1 = d
  have e1 : idx_main_v80 (idx_main_v81 (ix2 p q)) = ix1 p := funext fun a => Fin.ext (by
    match a with
    | ⟨0, _⟩ => rfl)
  have e2 : idx_main_v84 (idx_main_v85 (ix2 p q)) = ix1 q := funext fun a => Fin.ext (by
    match a with
    | ⟨0, _⟩ => rfl)
  rw [e1, e2]
  rfl

/-- The second head at (p, q): the same form. -/
theorem ref_conv_sig (x0 : (⟨S8192x512, .f32⟩ : BufTy).Contents (Elt Ideal)) (x1 : (⟨S2x262144, .i32⟩ : BufTy).Contents (Elt Ideal)) (x2 : (⟨S512x256, .f32⟩ : BufTy).Contents (Elt Ideal)) (x3 : (⟨S256, .f32⟩ : BufTy).Contents (Elt Ideal)) (x6 : (⟨S256x64, .f32⟩ : BufTy).Contents (Elt Ideal)) (x7 : (⟨S64, .f32⟩ : BufTy).Contents (Elt Ideal)) (p : Fin 8192) (q : Fin 64) :
    val_main_v123 (F := Ideal) x0 x1 x2 x3 x6 x7 (ix2 p q)
      = (val_main_v115 (F := Ideal) x0 x1 x2 x3 x6 (ix2 p q)
          + val_main_v87 (F := Ideal) x0 x1 x2 x3 x6 (ix2 p q) * (val_main_v11 (F := Ideal) x1 (ix1 p) * val_main_v11 (F := Ideal) x1 (ix1 p)))
        + x7 (ix1 q) := by
  rw [val_main_v123_apply, val_main_v120_apply, val_main_v119_apply, val_main_v122_apply, val_main_v121_apply,
    val_main_v118_apply, val_main_v117_apply, val_main_v116_apply]
  generalize val_main_v115 (F := Ideal) x0 x1 x2 x3 x6 = S
  generalize val_main_v87 (F := Ideal) x0 x1 x2 x3 x6 = xw
  generalize val_main_v11 (F := Ideal) x1 = d
  have e1 : idx_main_v117 (idx_main_v118 (ix2 p q)) = ix1 p := funext fun a => Fin.ext (by
    match a with
    | ⟨0, _⟩ => rfl)
  have e2 : idx_main_v121 (idx_main_v122 (ix2 p q)) = ix1 q := funext fun a => Fin.ext (by
    match a with
    | ⟨0, _⟩ => rfl)
  rw [e1, e2]
  rfl

/-! ## The rectifier and the last stage -/

/-- The rectifier: the maximum of layer 1 with the zero constant broadcast to the matrix. -/
theorem ref_relu (x0 : (⟨S8192x512, .f32⟩ : BufTy).Contents (Elt Ideal)) (x1 : (⟨S2x262144, .i32⟩ : BufTy).Contents (Elt Ideal)) (x2 : (⟨S512x256, .f32⟩ : BufTy).Contents (Elt Ideal)) (x3 : (⟨S256, .f32⟩ : BufTy).Contents (Elt Ideal)) :
    val_main_v49 (F := Ideal) x0 x1 x2 x3
      = maximumf (val_main_v48 (F := Ideal) x0 x1 x2 x3)
          (broadcastInDim S8192x256 ![] bcast_S_S8192x256 (constant (F := Ideal) S_ .f32 0x00000000#32)) := rfl

/-- The rectifier at an index: the maximum with zero. -/
theorem ref_relu_apply (x0 : (⟨S8192x512, .f32⟩ : BufTy).Contents (Elt Ideal)) (x1 : (⟨S2x262144, .i32⟩ : BufTy).Contents (Elt Ideal)) (x2 : (⟨S512x256, .f32⟩ : BufTy).Contents (Elt Ideal)) (x3 : (⟨S256, .f32⟩ : BufTy).Contents (Elt Ideal)) (i : S8192x256.Idx) :
    val_main_v49 (F := Ideal) x0 x1 x2 x3 i = max (val_main_v48 (F := Ideal) x0 x1 x2 x3 i) 0 := by
  rw [val_main_v49_apply, val_main_call0_v0_apply, val_main_call0_cst_apply]
  generalize val_main_v48 (F := Ideal) x0 x1 x2 x3 i = y
  show max y (Ideal.ofBits .f32 0x00000000#32) = max y 0
  rw [Ideal.ofBits_zero_f32]

/-- The last stage: x₈ · exp (first head) + second head, entry by entry. -/
theorem ref_z (x0 : (⟨S8192x512, .f32⟩ : BufTy).Contents (Elt Ideal)) (x1 : (⟨S2x262144, .i32⟩ : BufTy).Contents (Elt Ideal)) (x2 : (⟨S512x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) (x6 : (⟨S256x64, .f32⟩ : BufTy).Contents (Elt Ideal)) (x7 : (⟨S64, .f32⟩ : BufTy).Contents (Elt Ideal)) (x8 : (⟨S8192x64, .f32⟩ : BufTy).Contents (Elt Ideal)) (i : S8192x64.Idx) :
    val_main_v126 (F := Ideal) x0 x1 x2 x3 x4 x5 x6 x7 x8 i
      = x8 i * Ideal.exp (val_main_v86 (F := Ideal) x0 x1 x2 x3 x4 x5 i) + val_main_v123 (F := Ideal) x0 x1 x2 x3 x6 x7 i := by
  rw [val_main_v126_apply, val_main_v125_apply, val_main_v124_apply]
  generalize val_main_v86 (F := Ideal) x0 x1 x2 x3 x4 x5 i = mu
  generalize val_main_v123 (F := Ideal) x0 x1 x2 x3 x6 x7 i = sg
  rfl

end Cert.Bridge

end
-- ==== Proof.KIBridgeA.lean ====
/-
  The kernel program's buffers against the reference's stages, first part: which boundary holds what. A buffer that the
  first host stretch wrote and that nothing later writes (the edge indices, the degree normalisation and its products)
  holds at every later boundary what it held after that stretch; an argument holds its launch contents at every boundary.
  Then the first dense layer's product array is the reference's product of x and W1, entry by entry a sum over the 512
  input features.
-/
import proofs.«117362_j53163105190000_1_alg».proof.Proof.KIKeep
import proofs.«117362_j53163105190000_1_alg».proof.Proof.KIVal0
import proofs.«117362_j53163105190000_1_alg».proof.Proof.KIVal1
import proofs.«117362_j53163105190000_1_alg».proof.Proof.KIVal2
import proofs.«117362_j53163105190000_1_alg».proof.Proof.KIVal3
import proofs.«117362_j53163105190000_1_alg».proof.Proof.RefConv

set_option maxRecDepth 16384

noncomputable section

namespace Cert.Bridge

open Cert.KernelIdeal Cert.KernelIdeal.Gen Cert.KernelIdeal.Frame Cert.KernelIdeal.Val
open Idealize.ShloMosaic Idealize.ShloMosaic.TcCoe Idealize.ShloMosaic.ValueIdx Idealize.SL.Sem
open Cert.ReferenceIdeal.Read (val_main_v1 val_main_v3 val_main_v11 val_main_v12 val_main_v35 val_main_v48 val_main_v49 val_main_v50
  val_main_v86 val_main_v87 val_main_v123 val_main_v126 val_main_v134)

variable (m : (ℓ : Loc nD τ sig) → Buf (Elt Ideal) ℓ) (c : Dev nD)

/-! ## Buffers nothing writes after the first stretch -/

section Transport
variable (b : Ref sig .tc)

theorem W5_1 (h1 : b ∉ hostOps1_W) (h11 : b ∉ hostOps1_1_W) (h12 : b ∉ hostOps1_2_W) (ho : b ≠ main_v31_0) (ho' : b ≠ main_v31_1) :
    W5 m c (Proc.devRef .tc b) = W1 m c (Proc.devRef .tc b) :=
  (W5_of m c b h12).trans ((W4_of m c b h11).trans ((W3_of m c b h1).trans (W2_keep m c b ho ho')))
theorem W6_1 (h1 : b ∉ hostOps1_W) (h11 : b ∉ hostOps1_1_W) (h12 : b ∉ hostOps1_2_W) (ho : b ≠ main_v31_0) (ho' : b ≠ main_v31_1)
    (hp : b ≠ main_v47_0) (hp' : b ≠ main_v47_1) : W6 m c (Proc.devRef .tc b) = W1 m c (Proc.devRef .tc b) :=
  (W6_keep m c b hp hp').trans (W5_1 m c b h1 h11 h12 ho ho')
theorem W7_1 (h1 : b ∉ hostOps1_W) (h11 : b ∉ hostOps1_1_W) (h12 : b ∉ hostOps1_2_W) (h2 : b ∉ hostOps2_W) (ho : b ≠ main_v31_0) (ho' : b ≠ main_v31_1)
    (hp : b ≠ main_v47_0) (hp' : b ≠ main_v47_1) : W7 m c (Proc.devRef .tc b) = W1 m c (Proc.devRef .tc b) :=
  (W7_of m c b h2).trans (W6_1 m c b h1 h11 h12 ho ho' hp hp')
theorem W8_1 (h1 : b ∉ hostOps1_W) (h11 : b ∉ hostOps1_1_W) (h12 : b ∉ hostOps1_2_W) (h2 : b ∉ hostOps2_W) (ho : b ≠ main_v31_0) (ho' : b ≠ main_v31_1)
    (hp : b ≠ main_v47_0) (hp' : b ≠ main_v47_1) (hs : b ≠ main_v62_0) (hs' : b ≠ main_v62_1) :
    W8 m c (Proc.devRef .tc b) = W1 m c (Proc.devRef .tc b) :=
  (W8_keep m c b hs hs').trans (W7_1 m c b h1 h11 h12 h2 ho ho' hp hp')

end Transport

/-- An argument holds its launch contents after the first stretch. -/
theorem W1_arg (b : Ref sig .tc) (h0 : b ∉ hostOps0_W) : W1 m c (Proc.devRef .tc b) = m ((c : Thread nD τ).loc b) :=
  W1_of m c b h0

/-! ## Layer 1: the product array -/

/-- The first kernel call's product array is the reference's x · W1. -/
theorem xw1_eq : W2 m c (Proc.devRef .tc main_v31_0)
    = val_main_v12 (F := Ideal) (m ((c : Thread nD τ).loc main_arg0)) (m ((c : Thread nD τ).loc main_arg2)) := by
  refine (W2_arr m c 4).trans ?_
  funext i
  obtain ⟨p, q, rfl⟩ : ∃ (p : Fin 8192) (q : Fin 256), i = ix2 p q := ⟨i 0, i 1, eq_ix2 i⟩
  rw [final0_4 (Frame.V1 m) c p q, ref_dot1]
  rw [show Frame.V1 m c main_arg0 = m ((c : Thread nD τ).loc main_arg0) from W1_arg m c main_arg0 (by decide),
    show Frame.V1 m c main_arg2 = m ((c : Thread nD τ).loc main_arg2) from W1_arg m c main_arg2 (by decide)]

end Cert.Bridge

end
-- ==== Proof.KIPrelude.lean ====
/-
  The host operations the kernel's program runs before its first kernel call, read against the reference's stages.

  Both programs compute the same index vectors, the same vector d and the same per-edge products from the edge list,
  by the same operations in the same order, so those buffers hold the reference's stages, term for term. Three
  buffers differ in spelling only: the kernel's program RESHAPES a vector of n entries to an n × 1 column where the
  reference BROADCASTS it along axis 0 to n × 1 — the same array, entry (r, 0) being entry r of the vector either way —,
  it reshapes d · d to a column, whose entry (p, 0) is d (p) · d (p), and it reshapes each bias vector to a 1 × n row,
  whose entry (0, q) is entry q of the vector.
-/
import proofs.«117362_j53163105190000_1_alg».proof.Proof.Gen.KernelIdeal.Regions
import proofs.«117362_j53163105190000_1_alg».proof.Proof.Gen.ReferenceIdeal.Read
import Idealize.ShloMosaic.Lib.StableHlo.Run
import Idealize.ShloMosaic.Lib.ValueLayout

set_option maxRecDepth 16384

noncomputable section

namespace Cert.Bridge

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v1 val_main_v3 val_main_v11 val_main_v27 val_main_v35 val_main_v35_apply idx_main_v35)

/-! ## A vector reshaped to a column -/

section Column

variable {α : Type}

/-- Two functions on a matrix's indices that agree at every (r, u) are equal. -/
theorem ext_ix2_pre {a b : ℕ} (f g : (⟨2, ![a, b]⟩ : Shape).Idx → α)
    (h : ∀ (r : Fin a) (u : Fin b), f (ix2 r u) = g (ix2 r u)) : f = g :=
  funext fun j => by rw [eq_ix2 j]; exact h _ _

/-- An [a] vector cast to an [a, 1] column reads, at (r, u), the vector's entry r. -/
theorem shapeCast_a_a1_apply {a : ℕ} (y : (⟨1, ![a]⟩ : Shape).Idx → α)
    (h : (⟨1, ![a]⟩ : Shape).ShapeCasts ⟨2, ![a, 1]⟩) (r : Fin a) (u : Fin 1) :
    shapeCast ⟨2, ![a, 1]⟩ y h (ix2 r u) = y (ix1 r) :=
  shapeCast_apply y h _ _ (by
    have hu : u.val = 0 := by omega
    rw [Shape.rowMajor_val_two, Shape.rowMajor_val_one]
    show r.val = r.val * 1 + u.val
    rw [hu, Nat.mul_one, Nat.add_zero])

end Column

/-! ## The first host stretch -/

variable (m : (ℓ : Loc nD τ sig) → Buf (Elt Ideal) ℓ) (c : Dev nD)

/-- The contents the program starts from, on device c. -/
abbrev U0 : Valuation τ sig (Elt Ideal) := fun b => m (c, b)

/-- Every buffer after the first host stretch. -/
abbrev A1 : Valuation τ sig (Elt Ideal) := StableHlo.after (hostOps0 (F := Ideal)) (U0 m c)

/-- The first row of the edge list, as a vector. -/
theorem pre_v1 : A1 m c (Proc.devRef .tc main_v1) = val_main_v1 (F := Ideal) (m ((c : Thread nD τ).loc main_arg1)) := by
  show StableHlo.after (hostOps0 (F := Ideal)) (U0 m c) (Proc.devRef .tc main_v1) = _
  after_results_simp
  rfl

/-- The second row of the edge list, as a vector. -/
theorem pre_v3 : A1 m c (Proc.devRef .tc main_v3) = val_main_v3 (F := Ideal) (m ((c : Thread nD τ).loc main_arg1)) := by
  show StableHlo.after (hostOps0 (F := Ideal)) (U0 m c) (Proc.devRef .tc main_v3) = _
  after_results_simp
  rfl

/-- The vector d. -/
theorem pre_v11 : A1 m c (Proc.devRef .tc main_v11) = val_main_v11 (F := Ideal) (m ((c : Thread nD τ).loc main_arg1)) := by
  show StableHlo.after (hostOps0 (F := Ideal)) (U0 m c) (Proc.devRef .tc main_v11) = _
  after_results_simp
  rfl

/-- The per-edge products as a column: the reshape of the vector is the reference's broadcast of it. -/
theorem pre_v29 : A1 m c (Proc.devRef .tc main_v29) = val_main_v35 (F := Ideal) (m ((c : Thread nD τ).loc main_arg1)) := by
  have e : A1 m c (Proc.devRef .tc main_v29)
      = shapeCast S262144x1 (val_main_v27 (F := Ideal) (m ((c : Thread nD τ).loc main_arg1))) shapeCasts_S262144_S262144x1 := by
    show StableHlo.after (hostOps0 (F := Ideal)) (U0 m c) (Proc.devRef .tc main_v29) = _
    after_results_simp
    rfl
  refine e.trans ?_
  refine ext_ix2_pre (a := 262144) (b := 1) _ _ fun r u => ?_
  rw [val_main_v35_apply]
  refine (shapeCast_a_a1_apply _ _ r u).trans ?_
  refine congrArg _ (funext fun a => Fin.ext ?_)
  match a with
  | ⟨0, _⟩ => rfl

/-- The column d · d: entry (p, 0) is d (p) · d (p). -/
theorem pre_v13 (p : Fin 8192) :
    (by exact A1 m c (Proc.devRef .tc main_v13) : S8192x1.Idx → EReal) (ix2 p (0 : Fin 1))
      = (by exact val_main_v11 (F := Ideal) (m ((c : Thread nD τ).loc main_arg1)) : S8192.Idx → EReal) (ix1 p)
        * (by exact val_main_v11 (F := Ideal) (m ((c : Thread nD τ).loc main_arg1)) : S8192.Idx → EReal) (ix1 p) := by
  have e : A1 m c (Proc.devRef .tc main_v13)
      = shapeCast S8192x1 (mulf (F := Ideal) (s := S8192) (φ := .f32) (val_main_v11 (F := Ideal) (m ((c : Thread nD τ).loc main_arg1)))
          (val_main_v11 (F := Ideal) (m ((c : Thread nD τ).loc main_arg1)))) shapeCasts_S8192_S8192x1 := by
    show StableHlo.after (hostOps0 (F := Ideal)) (U0 m c) (Proc.devRef .tc main_v13) = _
    after_results_simp
    rfl
  refine (congrFun e (ix2 p (0 : Fin 1))).trans ?_
  refine (shapeCast_a_a1_apply _ _ p (0 : Fin 1)).trans ?_
  rfl

/-- The first bias as a row: entry (0, q) is entry q of the vector. -/
theorem pre_v30 (q : Fin 256) :
    (by exact A1 m c (Proc.devRef .tc main_v30) : S1x256.Idx → EReal) (ix2 (0 : Fin 1) q)
      = (by exact m ((c : Thread nD τ).loc main_arg3) : S256.Idx → EReal) (ix1 q) := by
  have e : A1 m c (Proc.devRef .tc main_v30)
      = shapeCast S1x256 (m ((c : Thread nD τ).loc main_arg3)) shapeCasts_S256_S1x256 := by
    show StableHlo.after (hostOps0 (F := Ideal)) (U0 m c) (Proc.devRef .tc main_v30) = _
    after_results_simp
    rfl
  refine (congrFun e (ix2 (0 : Fin 1) q)).trans ?_
  exact shapeCast_a_1a_apply _ _ (0 : Fin 1) q

/-! ## The two later reshapes of a bias vector, from any contents -/

theorem pre_v46 (Wv : Valuation τ sig (Elt Ideal)) (q : Fin 64) :
    (by exact StableHlo.after (hostOps1_2 (F := Ideal)) Wv (Proc.devRef .tc main_v46) : S1x64.Idx → EReal) (ix2 (0 : Fin 1) q)
      = (by exact Wv (Proc.devRef .tc main_arg5) : S64.Idx → EReal) (ix1 q) := by
  have e : StableHlo.after (hostOps1_2 (F := Ideal)) Wv (Proc.devRef .tc main_v46)
      = shapeCast S1x64 (Wv (Proc.devRef .tc main_arg5)) shapeCasts_S64_S1x64 := by
    after_results_simp
    rfl
  refine (congrFun e (ix2 (0 : Fin 1) q)).trans ?_
  exact shapeCast_a_1a_apply _ _ (0 : Fin 1) q

theorem pre_v61 (Wv : Valuation τ sig (Elt Ideal)) (q : Fin 64) :
    (by exact StableHlo.after (hostOps2 (F := Ideal)) Wv (Proc.devRef .tc main_v61) : S1x64.Idx → EReal) (ix2 (0 : Fin 1) q)
      = (by exact Wv (Proc.devRef .tc main_arg7) : S64.Idx → EReal) (ix1 q) := by
  have e : StableHlo.after (hostOps2 (F := Ideal)) Wv (Proc.devRef .tc main_v61)
      = shapeCast S1x64 (Wv (Proc.devRef .tc main_arg7)) shapeCasts_S64_S1x64 := by
    after_results_simp
    rfl
  refine (congrFun e (ix2 (0 : Fin 1) q)).trans ?_
  exact shapeCast_a_1a_apply _ _ (0 : Fin 1) q

end Cert.Bridge

end
-- ==== Proof.RefEdge.lean ====
/-
  The reference recomputes, in each of its three layers, the same quantities of the edge list alone: the normalised
  source and target index columns, the two gathers of the inverse square-root degrees and their product (the edge
  norm) with its column form, and a zero array. Each recomputed stage is the same expression as the first layer's, read
  off the stages' definitions one level at a time; the degree stage itself and the two rows of the edge list are never
  opened.
-/
import proofs.«117362_j53163105190000_1_alg».proof.Proof.Gen.ReferenceIdeal.Read

noncomputable section

namespace Cert.Bridge

open Cert.ReferenceIdeal Cert.ReferenceIdeal.Read Idealize.ShloMosaic

variable {F : FTy → Type} [FloatOps F]

/-! ## The normalised index columns the degree gathers read -/

/-- Second layer, the first gather's index column (negative indices wrapped) is the first layer's. -/
theorem ref_gidx_src_mu (x1 : (⟨S2x262144, .i32⟩ : BufTy).Contents (Elt F)) : val_main_v56 (F := F) x1 = val_main_v18 (F := F) x1 := by
  unfold val_main_v56 val_main_v18 val_main_v55 val_main_v17 val_main_v52 val_main_v14 val_main_v54 val_main_v16 val_main_v51 val_main_v13 val_main_v53 val_main_v15 val_main_c_9 val_main_c val_main_c_10 val_main_c_3
  with_reducible rfl

/-- Second layer, the second gather's index column is the first layer's. -/
theorem ref_gidx_dst_mu (x1 : (⟨S2x262144, .i32⟩ : BufTy).Contents (Elt F)) : val_main_v63 (F := F) x1 = val_main_v25 (F := F) x1 := by
  unfold val_main_v63 val_main_v25 val_main_v62 val_main_v24 val_main_v59 val_main_v21 val_main_v61 val_main_v23 val_main_v58 val_main_v20 val_main_v60 val_main_v22 val_main_c_11 val_main_c_4 val_main_c_12 val_main_c_5
  with_reducible rfl

/-- Third layer, the first gather's index column is the first layer's. -/
theorem ref_gidx_src_sig (x1 : (⟨S2x262144, .i32⟩ : BufTy).Contents (Elt F)) : val_main_v93 (F := F) x1 = val_main_v18 (F := F) x1 := by
  unfold val_main_v93 val_main_v18 val_main_v92 val_main_v17 val_main_v89 val_main_v14 val_main_v91 val_main_v16 val_main_v88 val_main_v13 val_main_v90 val_main_v15 val_main_c_16 val_main_c val_main_c_17 val_main_c_3
  with_reducible rfl

/-- Third layer, the second gather's index column is the first layer's. -/
theorem ref_gidx_dst_sig (x1 : (⟨S2x262144, .i32⟩ : BufTy).Contents (Elt F)) : val_main_v100 (F := F) x1 = val_main_v25 (F := F) x1 := by
  unfold val_main_v100 val_main_v25 val_main_v99 val_main_v24 val_main_v96 val_main_v21 val_main_v98 val_main_v23 val_main_v95 val_main_v20 val_main_v97 val_main_v22 val_main_c_18 val_main_c_4 val_main_c_19 val_main_c_5
  with_reducible rfl

/-! ## The gathers of the inverse square-root degrees, and the edge norm -/

/-- Second layer, the degrees gathered at the sources. -/
theorem ref_gather_src_mu (x1 : (⟨S2x262144, .i32⟩ : BufTy).Contents (Elt F)) : val_main_v57 (F := F) x1 = val_main_v19 (F := F) x1 := by
  unfold val_main_v57 val_main_v19
  rw [ref_gidx_src_mu]

/-- Second layer, the degrees gathered at the targets. -/
theorem ref_gather_dst_mu (x1 : (⟨S2x262144, .i32⟩ : BufTy).Contents (Elt F)) : val_main_v64 (F := F) x1 = val_main_v26 (F := F) x1 := by
  unfold val_main_v64 val_main_v26
  rw [ref_gidx_dst_mu]

/-- Third layer, the degrees gathered at the sources. -/
theorem ref_gather_src_sig (x1 : (⟨S2x262144, .i32⟩ : BufTy).Contents (Elt F)) : val_main_v94 (F := F) x1 = val_main_v19 (F := F) x1 := by
  unfold val_main_v94 val_main_v19
  rw [ref_gidx_src_sig]

/-- Third layer, the degrees gathered at the targets. -/
theorem ref_gather_dst_sig (x1 : (⟨S2x262144, .i32⟩ : BufTy).Contents (Elt F)) : val_main_v101 (F := F) x1 = val_main_v26 (F := F) x1 := by
  unfold val_main_v101 val_main_v26
  rw [ref_gidx_dst_sig]

/-- Second layer, the edge norm. -/
theorem ref_prod_mu (x1 : (⟨S2x262144, .i32⟩ : BufTy).Contents (Elt F)) : val_main_v65 (F := F) x1 = val_main_v27 (F := F) x1 := by
  unfold val_main_v65 val_main_v27
  rw [ref_gather_src_mu, ref_gather_dst_mu]

/-- Third layer, the edge norm. -/
theorem ref_prod_sig (x1 : (⟨S2x262144, .i32⟩ : BufTy).Contents (Elt F)) : val_main_v102 (F := F) x1 = val_main_v27 (F := F) x1 := by
  unfold val_main_v102 val_main_v27
  rw [ref_gather_src_sig, ref_gather_dst_sig]

/-- Second layer, the edge norm as a column. -/
theorem ref_norm_mu (x1 : (⟨S2x262144, .i32⟩ : BufTy).Contents (Elt F)) : val_main_v73 (F := F) x1 = val_main_v35 (F := F) x1 := by
  unfold val_main_v73 val_main_v35
  rw [ref_prod_mu]

/-- Third layer, the edge norm as a column. -/
theorem ref_norm_sig (x1 : (⟨S2x262144, .i32⟩ : BufTy).Contents (Elt F)) : val_main_v110 (F := F) x1 = val_main_v35 (F := F) x1 := by
  unfold val_main_v110 val_main_v35
  rw [ref_prod_sig]

/-! ## The index columns of the feature gather and of the scatter -/

/-- Second layer, the source index column the features are gathered at. -/
theorem ref_src_mu (x1 : (⟨S2x262144, .i32⟩ : BufTy).Contents (Elt F)) : val_main_v71 (F := F) x1 = val_main_v33 (F := F) x1 := by
  unfold val_main_v71 val_main_v33 val_main_v70 val_main_v32 val_main_v67 val_main_v29 val_main_v69 val_main_v31 val_main_v66 val_main_v28 val_main_v68 val_main_v30 val_main_c_13 val_main_c_6 val_main_c_14 val_main_c_7
  with_reducible rfl

/-- Third layer, the source index column the features are gathered at. -/
theorem ref_src_sig (x1 : (⟨S2x262144, .i32⟩ : BufTy).Contents (Elt F)) : val_main_v108 (F := F) x1 = val_main_v33 (F := F) x1 := by
  unfold val_main_v108 val_main_v33 val_main_v107 val_main_v32 val_main_v104 val_main_v29 val_main_v106 val_main_v31 val_main_v103 val_main_v28 val_main_v105 val_main_v30 val_main_c_20 val_main_c_6 val_main_c_21 val_main_c_7
  with_reducible rfl

/-- Second layer, the target index column the messages are scattered to. -/
theorem ref_dst_mu (x1 : (⟨S2x262144, .i32⟩ : BufTy).Contents (Elt F)) : val_main_v77 (F := F) x1 = val_main_v39 (F := F) x1 := by
  unfold val_main_v77 val_main_v39
  with_reducible rfl

/-- Third layer, the target index column the messages are scattered to. -/
theorem ref_dst_sig (x1 : (⟨S2x262144, .i32⟩ : BufTy).Contents (Elt F)) : val_main_v114 (F := F) x1 = val_main_v39 (F := F) x1 := by
  unfold val_main_v114 val_main_v39
  with_reducible rfl

/-! ## The zero array the scatter starts from -/

/-- The third layer's zero array is the second layer's. -/
theorem ref_zero_sig : val_main_v113 (F := F) = val_main_v76 (F := F) := by
  unfold val_main_v113 val_main_v76 val_main_cst_22 val_main_cst_15
  with_reducible rfl

end Cert.Bridge

end
-- ==== Proof.KILayers.lean ====
/-
  The kernel program's later host stretches against the reference's stages, over an arbitrary valuation of the
  buffers the stretches read.

  Each of the three aggregation stretches recomputes the source index column from the edge list, gathers the rows of
  the layer's dense product at it, scales them by the edge norm, scatter-adds them at the target index column onto a zero
  array, and adds the result to the array the layer's kernel region left:  h · (d · d) + b  at every entry. The reference
  adds the same three terms in another order, (scatter + h · (d · d)) + b; the scatter-add is the same expression on both
  sides and is never opened. The rectifier is the maximum with the broadcast zero constant; the last stretch ends with
  x₈ · exp (first head) + second head.
-/
import proofs.«117362_j53163105190000_1_alg».proof.Proof.Gen.KernelIdeal.Regions
import proofs.«117362_j53163105190000_1_alg».proof.Proof.Gen.ReferenceIdeal.Read
import proofs.«117362_j53163105190000_1_alg».proof.Proof.RefConv
import proofs.«117362_j53163105190000_1_alg».proof.Proof.RefEdge
import Idealize.ShloMosaic.Lib.StableHlo.Run
import Idealize.ShloMosaic.Lib.ValueIdx

set_option maxRecDepth 16384

noncomputable section

namespace Cert.Bridge

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v1 val_main_v3 val_main_v11 val_main_v12 val_main_v28 val_main_v29 val_main_v30 val_main_v31 val_main_v32 val_main_v33 val_main_v34 val_main_v35 val_main_v36 val_main_v37 val_main_v38 val_main_v39 val_main_v40 val_main_c_6 val_main_c_7 val_main_cst_8 val_main_v48 val_main_v49 val_main_call0_v0 val_main_call0_cst val_main_v50 val_main_v66 val_main_v67 val_main_v68 val_main_v69 val_main_v70 val_main_v71 val_main_v72 val_main_v73 val_main_v74 val_main_v75 val_main_v76 val_main_v77 val_main_v78 val_main_c_13 val_main_c_14 val_main_cst_15 val_main_v86 val_main_v87 val_main_v103 val_main_v104 val_main_v105 val_main_v106 val_main_v107 val_main_v108 val_main_v109 val_main_v110 val_main_v111 val_main_v112 val_main_v113 val_main_v114 val_main_v115 val_main_c_20 val_main_c_21 val_main_cst_22 val_main_v123 val_main_v124 val_main_v125 val_main_v126)

/-! ## Layer 1 -/

set_option maxHeartbeats 4000000 in
/-- The first aggregation stretch ends at the reference's first layer. -/
theorem layer1 (Wv : Valuation τ sig (Elt Ideal)) (X0 : (⟨S8192x512, .f32⟩ : BufTy).Contents (Elt Ideal)) (X1 : (⟨S2x262144, .i32⟩ : BufTy).Contents (Elt Ideal)) (X2 : (⟨S512x256, .f32⟩ : BufTy).Contents (Elt Ideal)) (X3 : (⟨S256, .f32⟩ : BufTy).Contents (Elt Ideal))
    (h1 : Wv (Proc.devRef .tc main_v1) = val_main_v1 (F := Ideal) X1) (h3 : Wv (Proc.devRef .tc main_v3) = val_main_v3 (F := Ideal) X1)
    (h29 : Wv (Proc.devRef .tc main_v29) = val_main_v35 (F := Ideal) X1)
    (hxw : Wv (Proc.devRef .tc main_v31_0) = val_main_v12 (F := Ideal) X0 X2)
    (hagg : ∀ (p : Fin 8192) (q : Fin 256), (by exact Wv (Proc.devRef .tc main_v31_1) : S8192x256.Idx → EReal) (ix2 p q)
        = (by exact val_main_v12 (F := Ideal) X0 X2 : S8192x256.Idx → EReal) (ix2 p q) * ((by exact val_main_v11 (F := Ideal) X1 : S8192.Idx → EReal) (ix1 p) * (by exact val_main_v11 (F := Ideal) X1 : S8192.Idx → EReal) (ix1 p)) + (by exact X3 : S256.Idx → EReal) (ix1 q)) :
    StableHlo.after (hostOps1 (F := Ideal)) Wv (Proc.devRef .tc main_v44) = val_main_v48 (F := Ideal) X0 X1 X2 X3 := by
  after_results_simp
  rw [h1, h3, h29, hxw]
  generalize hT : Host.scatterAdd (F := Ideal) _ _ _ _ = T
  have hS : T = val_main_v40 (F := Ideal) X0 X1 X2 := by
    rw [← hT]
    unfold val_main_v40 val_main_v38 val_main_v39 val_main_v37 val_main_v34 val_main_v36 val_main_v33 val_main_v32
      val_main_v29 val_main_v31 val_main_v28 val_main_v30 val_main_cst_8 val_main_c_6 val_main_c_7
    rfl
  rw [hS]
  funext i
  obtain ⟨p, q, rfl⟩ : ∃ (p : Fin 8192) (q : Fin 256), i = ix2 p q := ⟨i 0, i 1, eq_ix2 (n0 := 8192) (n1 := 256) i⟩
  rw [ref_conv1]
  show (by exact Wv (Proc.devRef .tc main_v31_1) : S8192x256.Idx → EReal) (ix2 p q)
      + (by exact val_main_v40 (F := Ideal) X0 X1 X2 : S8192x256.Idx → EReal) (ix2 p q) = _
  rw [hagg]
  generalize (by exact val_main_v40 (F := Ideal) X0 X1 X2 : S8192x256.Idx → EReal) (ix2 p q) = s
  rw [add_right_comm, add_comm s]

/-! ## The rectifier -/

/-- The inlined rectifier ends at the reference's rectified first layer. -/
theorem relu1 (Wv : Valuation τ sig (Elt Ideal)) (X0 : (⟨S8192x512, .f32⟩ : BufTy).Contents (Elt Ideal)) (X1 : (⟨S2x262144, .i32⟩ : BufTy).Contents (Elt Ideal)) (X2 : (⟨S512x256, .f32⟩ : BufTy).Contents (Elt Ideal)) (X3 : (⟨S256, .f32⟩ : BufTy).Contents (Elt Ideal))
    (h44 : Wv (Proc.devRef .tc main_v44) = val_main_v48 (F := Ideal) X0 X1 X2 X3) :
    StableHlo.after (hostOps1_1 (F := Ideal)) Wv (Proc.devRef .tc main_v45) = val_main_v49 (F := Ideal) X0 X1 X2 X3 := by
  after_results
  show maximumf (Wv (Proc.devRef .tc main_v44)) (broadcastInDim S8192x256 ![] bcast_S_S8192x256 (constant (F := Ideal) S_ .f32 0x00000000#32)) = _
  rw [h44]
  exact (ref_relu X0 X1 X2 X3).symm

/-! ## The first head -/

set_option maxHeartbeats 4000000 in
/-- The second aggregation stretch ends at the reference's first head. -/
theorem layer_mu (Wv : Valuation τ sig (Elt Ideal)) (X0 : (⟨S8192x512, .f32⟩ : BufTy).Contents (Elt Ideal)) (X1 : (⟨S2x262144, .i32⟩ : BufTy).Contents (Elt Ideal)) (X2 : (⟨S512x256, .f32⟩ : BufTy).Contents (Elt Ideal)) (X3 : (⟨S256, .f32⟩ : BufTy).Contents (Elt Ideal)) (X4 : (⟨S256x64, .f32⟩ : BufTy).Contents (Elt Ideal)) (X5 : (⟨S64, .f32⟩ : BufTy).Contents (Elt Ideal))
    (h1 : Wv (Proc.devRef .tc main_v1) = val_main_v1 (F := Ideal) X1) (h3 : Wv (Proc.devRef .tc main_v3) = val_main_v3 (F := Ideal) X1)
    (h29 : Wv (Proc.devRef .tc main_v29) = val_main_v35 (F := Ideal) X1)
    (hxw : Wv (Proc.devRef .tc main_v47_0) = val_main_v50 (F := Ideal) X0 X1 X2 X3 X4)
    (hagg : ∀ (p : Fin 8192) (q : Fin 64), (by exact Wv (Proc.devRef .tc main_v47_1) : S8192x64.Idx → EReal) (ix2 p q)
        = (by exact val_main_v50 (F := Ideal) X0 X1 X2 X3 X4 : S8192x64.Idx → EReal) (ix2 p q) * ((by exact val_main_v11 (F := Ideal) X1 : S8192.Idx → EReal) (ix1 p) * (by exact val_main_v11 (F := Ideal) X1 : S8192.Idx → EReal) (ix1 p)) + (by exact X5 : S64.Idx → EReal) (ix1 q)) :
    StableHlo.after (hostOps2 (F := Ideal)) Wv (Proc.devRef .tc main_v60) = val_main_v86 (F := Ideal) X0 X1 X2 X3 X4 X5 := by
  after_results_simp
  rw [h1, h3, h29, hxw, ← ref_norm_mu (F := Ideal) X1]
  generalize hT : Host.scatterAdd (F := Ideal) _ _ _ _ = T
  have hS : T = val_main_v78 (F := Ideal) X0 X1 X2 X3 X4 := by
    rw [← hT]
    unfold val_main_v78 val_main_v76 val_main_v77 val_main_v75 val_main_v72 val_main_v74 val_main_v71 val_main_v70
      val_main_v67 val_main_v69 val_main_v66 val_main_v68 val_main_cst_15 val_main_c_13 val_main_c_14
    rfl
  rw [hS]
  funext i
  obtain ⟨p, q, rfl⟩ : ∃ (p : Fin 8192) (q : Fin 64), i = ix2 p q := ⟨i 0, i 1, eq_ix2 (n0 := 8192) (n1 := 64) i⟩
  rw [ref_conv_mu]
  show (by exact Wv (Proc.devRef .tc main_v47_1) : S8192x64.Idx → EReal) (ix2 p q)
      + (by exact val_main_v78 (F := Ideal) X0 X1 X2 X3 X4 : S8192x64.Idx → EReal) (ix2 p q) = _
  rw [hagg]
  generalize (by exact val_main_v78 (F := Ideal) X0 X1 X2 X3 X4 : S8192x64.Idx → EReal) (ix2 p q) = s
  rw [add_right_comm, add_comm s]

/-! ## The second head, and the last stage -/

set_option maxHeartbeats 4000000 in
/-- The third aggregation stretch's aggregate, as the term of the valuation the stretch computes, is the reference's
    second head. -/
theorem sig_term (Wv : Valuation τ sig (Elt Ideal)) (X0 : (⟨S8192x512, .f32⟩ : BufTy).Contents (Elt Ideal)) (X1 : (⟨S2x262144, .i32⟩ : BufTy).Contents (Elt Ideal)) (X2 : (⟨S512x256, .f32⟩ : BufTy).Contents (Elt Ideal)) (X3 : (⟨S256, .f32⟩ : BufTy).Contents (Elt Ideal)) (X6 : (⟨S256x64, .f32⟩ : BufTy).Contents (Elt Ideal)) (X7 : (⟨S64, .f32⟩ : BufTy).Contents (Elt Ideal))
    (h1 : Wv (Proc.devRef .tc main_v1) = val_main_v1 (F := Ideal) X1) (h3 : Wv (Proc.devRef .tc main_v3) = val_main_v3 (F := Ideal) X1)
    (h29 : Wv (Proc.devRef .tc main_v29) = val_main_v35 (F := Ideal) X1)
    (hxw : Wv (Proc.devRef .tc main_v62_0) = val_main_v87 (F := Ideal) X0 X1 X2 X3 X6)
    (hagg : ∀ (p : Fin 8192) (q : Fin 64), (by exact Wv (Proc.devRef .tc main_v62_1) : S8192x64.Idx → EReal) (ix2 p q)
        = (by exact val_main_v87 (F := Ideal) X0 X1 X2 X3 X6 : S8192x64.Idx → EReal) (ix2 p q) * ((by exact val_main_v11 (F := Ideal) X1 : S8192.Idx → EReal) (ix1 p) * (by exact val_main_v11 (F := Ideal) X1 : S8192.Idx → EReal) (ix1 p)) + (by exact X7 : S64.Idx → EReal) (ix1 q)) (T : (⟨S8192x64, .f32⟩ : BufTy).Contents (Elt Ideal))
    (hT : Host.scatterAdd (F := Ideal) scatter_S8192x64_S262144x1_S262144x64_1_0_0_1
        (broadcastInDim S8192x64 ![] bcast_S_S8192x64 (constant (F := Ideal) S_ .f32 0x00000000#32))
        (broadcastInDim S262144x1 ![0] bcast_S262144_S262144x1_0 (val_main_v3 (F := Ideal) X1))
        (mulf (Host.gather gather_S8192x64_S262144x1_S262144x64_1_0_n_n_0_1_164 (val_main_v87 (F := Ideal) X0 X1 X2 X3 X6)
            (broadcastInDim S262144x1 ![0] bcast_S262144_S262144x1_0
              (select (cmpi .slt (val_main_v1 (F := Ideal) X1) (broadcastInDim S262144 ![] bcast_S_S262144 (constantI S_ 32 0#32)))
                (addi (val_main_v1 (F := Ideal) X1) (broadcastInDim S262144 ![] bcast_S_S262144 (constantI S_ 32 8192#32)))
                (val_main_v1 (F := Ideal) X1))))
          (broadcastInDim S262144x64 ![0, 1] bcast_S262144x1_S262144x64_0_1 (val_main_v110 (F := Ideal) X1))) = T) :
    addf (F := Ideal) (s := S8192x64) (φ := .f32) (Wv (Proc.devRef .tc main_v62_1)) T = val_main_v123 (F := Ideal) X0 X1 X2 X3 X6 X7 := by
  have hS : T = val_main_v115 (F := Ideal) X0 X1 X2 X3 X6 := by
    rw [← hT]
    unfold val_main_v115 val_main_v113 val_main_v114 val_main_v112 val_main_v109 val_main_v111 val_main_v108 val_main_v107
      val_main_v104 val_main_v106 val_main_v103 val_main_v105 val_main_cst_22 val_main_c_20 val_main_c_21
    rfl
  rw [hS]
  funext i
  obtain ⟨p, q, rfl⟩ : ∃ (p : Fin 8192) (q : Fin 64), i = ix2 p q := ⟨i 0, i 1, eq_ix2 (n0 := 8192) (n1 := 64) i⟩
  rw [ref_conv_sig]
  show (by exact Wv (Proc.devRef .tc main_v62_1) : S8192x64.Idx → EReal) (ix2 p q)
      + (by exact val_main_v115 (F := Ideal) X0 X1 X2 X3 X6 : S8192x64.Idx → EReal) (ix2 p q) = _
  rw [hagg]
  generalize (by exact val_main_v115 (F := Ideal) X0 X1 X2 X3 X6 : S8192x64.Idx → EReal) (ix2 p q) = s
  rw [add_right_comm, add_comm s]

set_option maxHeartbeats 4000000 in
/-- The third aggregation stretch's aggregate is the reference's second head. -/
theorem layer_sig (Wv : Valuation τ sig (Elt Ideal)) (X0 : (⟨S8192x512, .f32⟩ : BufTy).Contents (Elt Ideal)) (X1 : (⟨S2x262144, .i32⟩ : BufTy).Contents (Elt Ideal)) (X2 : (⟨S512x256, .f32⟩ : BufTy).Contents (Elt Ideal)) (X3 : (⟨S256, .f32⟩ : BufTy).Contents (Elt Ideal)) (X6 : (⟨S256x64, .f32⟩ : BufTy).Contents (Elt Ideal)) (X7 : (⟨S64, .f32⟩ : BufTy).Contents (Elt Ideal))
    (h1 : Wv (Proc.devRef .tc main_v1) = val_main_v1 (F := Ideal) X1) (h3 : Wv (Proc.devRef .tc main_v3) = val_main_v3 (F := Ideal) X1)
    (h29 : Wv (Proc.devRef .tc main_v29) = val_main_v35 (F := Ideal) X1)
    (hxw : Wv (Proc.devRef .tc main_v62_0) = val_main_v87 (F := Ideal) X0 X1 X2 X3 X6)
    (hagg : ∀ (p : Fin 8192) (q : Fin 64), (by exact Wv (Proc.devRef .tc main_v62_1) : S8192x64.Idx → EReal) (ix2 p q)
        = (by exact val_main_v87 (F := Ideal) X0 X1 X2 X3 X6 : S8192x64.Idx → EReal) (ix2 p q) * ((by exact val_main_v11 (F := Ideal) X1 : S8192.Idx → EReal) (ix1 p) * (by exact val_main_v11 (F := Ideal) X1 : S8192.Idx → EReal) (ix1 p)) + (by exact X7 : S64.Idx → EReal) (ix1 q)) :
    StableHlo.after (hostOps3 (F := Ideal)) Wv (Proc.devRef .tc main_v75) = val_main_v123 (F := Ideal) X0 X1 X2 X3 X6 X7 := by
  after_results_simp
  rw [h1, h3, h29, hxw, ← ref_norm_sig (F := Ideal) X1]
  exact sig_term Wv X0 X1 X2 X3 X6 X7 h1 h3 h29 hxw hagg _ rfl

set_option maxHeartbeats 4000000 in
/-- The third stretch ends at the reference's embedding stage: x₈ · exp (first head) + second head. -/
theorem layer_z (Wv : Valuation τ sig (Elt Ideal)) (X0 : (⟨S8192x512, .f32⟩ : BufTy).Contents (Elt Ideal)) (X1 : (⟨S2x262144, .i32⟩ : BufTy).Contents (Elt Ideal)) (X2 : (⟨S512x256, .f32⟩ : BufTy).Contents (Elt Ideal)) (X3 : (⟨S256, .f32⟩ : BufTy).Contents (Elt Ideal)) (X4 : (⟨S256x64, .f32⟩ : BufTy).Contents (Elt Ideal)) (X5 : (⟨S64, .f32⟩ : BufTy).Contents (Elt Ideal)) (X6 : (⟨S256x64, .f32⟩ : BufTy).Contents (Elt Ideal)) (X7 : (⟨S64, .f32⟩ : BufTy).Contents (Elt Ideal)) (X8 : (⟨S8192x64, .f32⟩ : BufTy).Contents (Elt Ideal))
    (h1 : Wv (Proc.devRef .tc main_v1) = val_main_v1 (F := Ideal) X1) (h3 : Wv (Proc.devRef .tc main_v3) = val_main_v3 (F := Ideal) X1)
    (h29 : Wv (Proc.devRef .tc main_v29) = val_main_v35 (F := Ideal) X1)
    (hxw : Wv (Proc.devRef .tc main_v62_0) = val_main_v87 (F := Ideal) X0 X1 X2 X3 X6)
    (hagg : ∀ (p : Fin 8192) (q : Fin 64), (by exact Wv (Proc.devRef .tc main_v62_1) : S8192x64.Idx → EReal) (ix2 p q)
        = (by exact val_main_v87 (F := Ideal) X0 X1 X2 X3 X6 : S8192x64.Idx → EReal) (ix2 p q) * ((by exact val_main_v11 (F := Ideal) X1 : S8192.Idx → EReal) (ix1 p) * (by exact val_main_v11 (F := Ideal) X1 : S8192.Idx → EReal) (ix1 p)) + (by exact X7 : S64.Idx → EReal) (ix1 q))
    (h60 : Wv (Proc.devRef .tc main_v60) = val_main_v86 (F := Ideal) X0 X1 X2 X3 X4 X5) (h8 : Wv (Proc.devRef .tc main_arg8) = X8) :
    StableHlo.after (hostOps3 (F := Ideal)) Wv (Proc.devRef .tc main_v78) = val_main_v126 (F := Ideal) X0 X1 X2 X3 X4 X5 X6 X7 X8 := by
  after_results_simp
  rw [h1, h3, h29, hxw, h60, h8, ← ref_norm_sig (F := Ideal) X1]
  rw [sig_term Wv X0 X1 X2 X3 X6 X7 h1 h3 h29 hxw hagg _ rfl]
  unfold val_main_v126 val_main_v125 val_main_v124
  rfl

end Cert.Bridge

end
-- ==== Proof.RefDec.lean ====
/-
  The reference's decoder, read at an index, is the same whole-array function of the embedding z that the kernel's
  decoder region leaves in its output array.

  The reference computes z zᵀ as a general product of z with its transpose — entry (P, Q) is ∑ₖ z (P, k) · zᵀ (k, Q)
  = ∑ₖ z (P, k) · z (Q, k) — and then 1 / (1 + exp (−·)) by negation, exponential, addition of the constant one and
  division of the constant one; at the exact values the pattern of the constant is the extended real one, and the
  logistic function IS that expression.
-/
import proofs.«117362_j53163105190000_1_alg».proof.Proof.KIVal3
import proofs.«117362_j53163105190000_1_alg».proof.Proof.Gen.ReferenceIdeal.Read
import Idealize.ShloMosaic.Lib.IdealHost

noncomputable section

namespace Cert.Bridge

open Cert.ReferenceIdeal Cert.ReferenceIdeal.Read Idealize.ShloMosaic Idealize.ShloMosaic.ValueIdx

/-- The expression the reference spells, at the exact values, is the logistic function. -/
theorem logistic_spelt (s : EReal) :
    FloatOps.hostDivf (F := Ideal) (φ := .f32) (FloatOps.ofBits (F := Ideal) .f32 0x3F800000#32)
        (FloatOps.addf (F := Ideal) (φ := .f32) (FloatOps.ofBits (F := Ideal) .f32 0x3F800000#32)
          (FloatOps.hostUnary (F := Ideal) (φ := .f32) .exp (FloatOps.hostNegf (F := Ideal) (φ := .f32) s)))
      = Ideal.logistic s := by
  simp only [Ideal.hostDivf_def, Ideal.ofBits_def, Ideal.ofBits_one_f32, Ideal.addf_def, Ideal.hostUnary_exp_def,
    Ideal.hostNegf_def, Ideal.negf_def]
  rfl

/-- The reference's last stage is the whole-array function of its embedding stage. -/
theorem ref_dec (x0 : (⟨S8192x512, .f32⟩ : BufTy).Contents (Elt Ideal))
    (x1 : (⟨S2x262144, .i32⟩ : BufTy).Contents (Elt Ideal))
    (x2 : (⟨S512x256, .f32⟩ : BufTy).Contents (Elt Ideal))
    (x3 : (⟨S256, .f32⟩ : BufTy).Contents (Elt Ideal))
    (x4 : (⟨S256x64, .f32⟩ : BufTy).Contents (Elt Ideal))
    (x5 : (⟨S64, .f32⟩ : BufTy).Contents (Elt Ideal))
    (x6 : (⟨S256x64, .f32⟩ : BufTy).Contents (Elt Ideal))
    (x7 : (⟨S64, .f32⟩ : BufTy).Contents (Elt Ideal))
    (x8 : (⟨S8192x64, .f32⟩ : BufTy).Contents (Elt Ideal)) :
    val_main_v134 (F := Ideal) x0 x1 x2 x3 x4 x5 x6 x7 x8
      = Cert.KernelIdeal.Val.decG (val_main_v126 (F := Ideal) x0 x1 x2 x3 x4 x5 x6 x7 x8) := by
  funext i
  rw [val_main_v134_apply, val_main_v133_apply, val_main_cst_24_apply, val_main_v132_apply, val_main_v131_apply,
    val_main_cst_23_apply, val_main_v130_apply, val_main_v129_apply, val_main_v128_apply]
  simp only [val_main_v127_apply]
  generalize val_main_v126 (F := Ideal) x0 x1 x2 x3 x4 x5 x6 x7 x8 = z
  have hl : ∀ k : Fin 64, lidx_main_v128 i k = ix2 (n0 := 8192) (i 0) k := fun k => funext fun a => by
    match a with
    | ⟨0, _⟩ => rfl
    | ⟨1, _⟩ => rfl
  have hr : ∀ k : Fin 64, idx_main_v127 (ridx_main_v128 i k) = ix2 (n0 := 8192) (i 1) k := fun k => funext fun a => by
    match a with
    | ⟨0, _⟩ => rfl
    | ⟨1, _⟩ => rfl
  simp only [hl, hr]
  exact logistic_spelt _

end Cert.Bridge

end
-- ==== Proof.KIBridgeB.lean ====
/-
  The kernel program's buffers against the reference's stages, second part: layer by layer, each boundary value the
  next kernel call or host stretch reads is the reference's stage of the same meaning — the relu output, the two heads'
  product arrays and aggregates, the latent matrix z — and so the decoder's output array is the reference's result.
-/
import proofs.«117362_j53163105190000_1_alg».proof.Proof.KIBridgeA
import proofs.«117362_j53163105190000_1_alg».proof.Proof.KIPrelude
import proofs.«117362_j53163105190000_1_alg».proof.Proof.KILayers
import proofs.«117362_j53163105190000_1_alg».proof.Proof.RefDec

set_option maxRecDepth 16384

noncomputable section

namespace Cert.Bridge

open Cert.KernelIdeal Cert.KernelIdeal.Gen Cert.KernelIdeal.Frame Cert.KernelIdeal.Val
open Idealize.ShloMosaic Idealize.ShloMosaic.TcCoe Idealize.ShloMosaic.ValueIdx Idealize.SL.Sem
open Cert.ReferenceIdeal.Read (val_main_v1 val_main_v3 val_main_v11 val_main_v12 val_main_v35 val_main_v48 val_main_v49 val_main_v50
  val_main_v86 val_main_v87 val_main_v123 val_main_v126 val_main_v134)

variable (m : (ℓ : Loc nD τ sig) → Buf (Elt Ideal) ℓ) (c : Dev nD)

/-! ## What the first stretch computes, at the later boundaries -/

theorem src_at (Wv : Valuation τ sig (Elt Ideal)) (h : Wv (Proc.devRef .tc main_v1) = W1 m c (Proc.devRef .tc main_v1)) :
    Wv (Proc.devRef .tc main_v1) = val_main_v1 (F := Ideal) (m ((c : Thread nD τ).loc main_arg1)) := h.trans (pre_v1 m c)
theorem dst_at (Wv : Valuation τ sig (Elt Ideal)) (h : Wv (Proc.devRef .tc main_v3) = W1 m c (Proc.devRef .tc main_v3)) :
    Wv (Proc.devRef .tc main_v3) = val_main_v3 (F := Ideal) (m ((c : Thread nD τ).loc main_arg1)) := h.trans (pre_v3 m c)
theorem nrm_at (Wv : Valuation τ sig (Elt Ideal)) (h : Wv (Proc.devRef .tc main_v29) = W1 m c (Proc.devRef .tc main_v29)) :
    Wv (Proc.devRef .tc main_v29) = val_main_v35 (F := Ideal) (m ((c : Thread nD τ).loc main_arg1)) := h.trans (pre_v29 m c)

/-! ## Layer 1 -/

/-- The first kernel call's second output, entry by entry: the product scaled by the squared normalisation, plus the bias. -/
theorem agg1_pt (p : Fin 8192) (q : Fin 256) :
    (by exact W2 m c (Proc.devRef .tc main_v31_1) : S8192x256.Idx → EReal) (ix2 p q)
      = (by exact val_main_v12 (F := Ideal) (m ((c : Thread nD τ).loc main_arg0)) (m ((c : Thread nD τ).loc main_arg2)) : S8192x256.Idx → EReal) (ix2 p q)
          * ((by exact val_main_v11 (F := Ideal) (m ((c : Thread nD τ).loc main_arg1)) : S8192.Idx → EReal) (ix1 p) * (by exact val_main_v11 (F := Ideal) (m ((c : Thread nD τ).loc main_arg1)) : S8192.Idx → EReal) (ix1 p))
        + (by exact (m ((c : Thread nD τ).loc main_arg3)) : S256.Idx → EReal) (ix1 q) := by
  refine (congrFun (W2_arr m c 5) (ix2 p q)).trans ?_
  rw [final0_5 (Frame.V1 m) c p q, ref_dot1,
    show Frame.V1 m c main_arg0 = m ((c : Thread nD τ).loc main_arg0) from W1_arg m c main_arg0 (by decide),
    show Frame.V1 m c main_arg2 = m ((c : Thread nD τ).loc main_arg2) from W1_arg m c main_arg2 (by decide)]
  exact congrArg₂ (· + ·) (congrArg _ (pre_v13 m c p)) (pre_v30 m c q)

/-- After the first aggregation stretch: the reference's first layer before its relu. -/
theorem h_pre : W3 m c (Proc.devRef .tc main_v44) = val_main_v48 (F := Ideal) (m ((c : Thread nD τ).loc main_arg0)) (m ((c : Thread nD τ).loc main_arg1)) (m ((c : Thread nD τ).loc main_arg2)) (m ((c : Thread nD τ).loc main_arg3)) :=
  layer1 (W2 m c) _ _ _ _
    (src_at m c _ (W2_keep m c main_v1 (by decide) (by decide)))
    (dst_at m c _ (W2_keep m c main_v3 (by decide) (by decide)))
    (nrm_at m c _ (W2_keep m c main_v29 (by decide) (by decide)))
    (xw1_eq m c) (agg1_pt m c)

/-- After the relu: the hidden layer. -/
theorem h_eq : W4 m c (Proc.devRef .tc main_v45) = val_main_v49 (F := Ideal) (m ((c : Thread nD τ).loc main_arg0)) (m ((c : Thread nD τ).loc main_arg1)) (m ((c : Thread nD τ).loc main_arg2)) (m ((c : Thread nD τ).loc main_arg3)) :=
  relu1 (W3 m c) _ _ _ _ (h_pre m c)

/-! ## Arguments and the hidden layer at the later boundaries -/

theorem W4_arg (b : Ref sig .tc) (h0 : b ∉ hostOps0_W) (h1 : b ∉ hostOps1_W) (h11 : b ∉ hostOps1_1_W) (ho : b ≠ main_v31_0) (ho' : b ≠ main_v31_1) :
    W4 m c (Proc.devRef .tc b) = m ((c : Thread nD τ).loc b) :=
  (W4_of m c b h11).trans ((W3_of m c b h1).trans ((W2_keep m c b ho ho').trans (W1_arg m c b h0)))
theorem W5_arg (b : Ref sig .tc) (h0 : b ∉ hostOps0_W) (h1 : b ∉ hostOps1_W) (h11 : b ∉ hostOps1_1_W) (h12 : b ∉ hostOps1_2_W) (ho : b ≠ main_v31_0) (ho' : b ≠ main_v31_1) :
    W5 m c (Proc.devRef .tc b) = m ((c : Thread nD τ).loc b) :=
  (W5_1 m c b h1 h11 h12 ho ho').trans (W1_arg m c b h0)
theorem W6_arg (b : Ref sig .tc) (h0 : b ∉ hostOps0_W) (h1 : b ∉ hostOps1_W) (h11 : b ∉ hostOps1_1_W) (h12 : b ∉ hostOps1_2_W) (ho : b ≠ main_v31_0) (ho' : b ≠ main_v31_1)
    (hp : b ≠ main_v47_0) (hp' : b ≠ main_v47_1) : W6 m c (Proc.devRef .tc b) = m ((c : Thread nD τ).loc b) :=
  (W6_1 m c b h1 h11 h12 ho ho' hp hp').trans (W1_arg m c b h0)
theorem W7_arg (b : Ref sig .tc) (h0 : b ∉ hostOps0_W) (h1 : b ∉ hostOps1_W) (h11 : b ∉ hostOps1_1_W) (h12 : b ∉ hostOps1_2_W) (h2 : b ∉ hostOps2_W) (ho : b ≠ main_v31_0) (ho' : b ≠ main_v31_1)
    (hp : b ≠ main_v47_0) (hp' : b ≠ main_v47_1) : W7 m c (Proc.devRef .tc b) = m ((c : Thread nD τ).loc b) :=
  (W7_1 m c b h1 h11 h12 h2 ho ho' hp hp').trans (W1_arg m c b h0)
theorem W8_arg (b : Ref sig .tc) (h0 : b ∉ hostOps0_W) (h1 : b ∉ hostOps1_W) (h11 : b ∉ hostOps1_1_W) (h12 : b ∉ hostOps1_2_W) (h2 : b ∉ hostOps2_W) (ho : b ≠ main_v31_0) (ho' : b ≠ main_v31_1)
    (hp : b ≠ main_v47_0) (hp' : b ≠ main_v47_1) (hs : b ≠ main_v62_0) (hs' : b ≠ main_v62_1) : W8 m c (Proc.devRef .tc b) = m ((c : Thread nD τ).loc b) :=
  (W8_1 m c b h1 h11 h12 h2 ho ho' hp hp' hs hs').trans (W1_arg m c b h0)

/-- The hidden layer where the mean head's kernel call reads it. -/
theorem h_at5 : W5 m c (Proc.devRef .tc main_v45) = val_main_v49 (F := Ideal) (m ((c : Thread nD τ).loc main_arg0)) (m ((c : Thread nD τ).loc main_arg1)) (m ((c : Thread nD τ).loc main_arg2)) (m ((c : Thread nD τ).loc main_arg3)) :=
  (W5_of m c main_v45 (by decide)).trans (h_eq m c)
/-- The hidden layer where the other head's kernel call reads it. -/
theorem h_at7 : W7 m c (Proc.devRef .tc main_v45) = val_main_v49 (F := Ideal) (m ((c : Thread nD τ).loc main_arg0)) (m ((c : Thread nD τ).loc main_arg1)) (m ((c : Thread nD τ).loc main_arg2)) (m ((c : Thread nD τ).loc main_arg3)) :=
  (W7_of m c main_v45 (by decide)).trans ((W6_keep m c main_v45 (by decide) (by decide)).trans (h_at5 m c))

/-! ## The mean head -/

theorem xw_mu_eq : W6 m c (Proc.devRef .tc main_v47_0) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m c 4).trans ?_
  funext i
  obtain ⟨p, q, rfl⟩ : ∃ (p : Fin 8192) (q : Fin 64), i = ix2 p q := ⟨i 0, i 1, eq_ix2 i⟩
  rw [final1_4 (Frame.V5 m) c p q, ref_dot_mu,
    show Frame.V5 m c main_v45 = val_main_v49 (F := Ideal) (m ((c : Thread nD τ).loc main_arg0)) (m ((c : Thread nD τ).loc main_arg1)) (m ((c : Thread nD τ).loc main_arg2)) (m ((c : Thread nD τ).loc main_arg3)) from h_at5 m c,
    show Frame.V5 m c main_arg4 = m ((c : Thread nD τ).loc main_arg4) from W5_arg m c main_arg4 (by decide) (by decide) (by decide) (by decide) (by decide) (by decide)]

theorem agg_mu_pt (p : Fin 8192) (q : Fin 64) :
    (by exact W6 m c (Proc.devRef .tc main_v47_1) : S8192x64.Idx → EReal) (ix2 p q)
      = (by exact val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S8192x64.Idx → EReal) (ix2 p q) * ((by exact val_main_v11 (F := Ideal) (m ((c : Thread nD τ).loc main_arg1)) : S8192.Idx → EReal) (ix1 p) * (by exact val_main_v11 (F := Ideal) (m ((c : Thread nD τ).loc main_arg1)) : S8192.Idx → EReal) (ix1 p))
        + (by exact (m ((c : Thread nD τ).loc main_arg5)) : S64.Idx → EReal) (ix1 q) := by
  refine (congrFun (W6_arr m c 5) (ix2 p q)).trans ?_
  rw [final1_5 (Frame.V5 m) c p q, ref_dot_mu,
    show Frame.V5 m c main_v45 = val_main_v49 (F := Ideal) (m ((c : Thread nD τ).loc main_arg0)) (m ((c : Thread nD τ).loc main_arg1)) (m ((c : Thread nD τ).loc main_arg2)) (m ((c : Thread nD τ).loc main_arg3)) from h_at5 m c,
    show Frame.V5 m c main_arg4 = m ((c : Thread nD τ).loc main_arg4) from W5_arg m c main_arg4 (by decide) (by decide) (by decide) (by decide) (by decide) (by decide),
    show Frame.V5 m c main_v13 = W1 m c (Proc.devRef .tc main_v13) from W5_1 m c main_v13 (by decide) (by decide) (by decide) (by decide) (by decide)]
  refine congrArg₂ (· + ·) (congrArg _ (pre_v13 m c p)) ?_
  refine (pre_v46 (W4 m c) q).trans ?_
  rw [show W4 m c (Proc.devRef .tc main_arg5) = m ((c : Thread nD τ).loc main_arg5) from W4_arg m c main_arg5 (by decide) (by decide) (by decide) (by decide) (by decide)]

theorem mu_eq : W7 m c (Proc.devRef .tc main_v60) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  layer_mu (W6 m c) _ _ _ _ _ _
    (src_at m c _ (W6_1 m c main_v1 (by decide) (by decide) (by decide) (by decide) (by decide) (by decide) (by decide)))
    (dst_at m c _ (W6_1 m c main_v3 (by decide) (by decide) (by decide) (by decide) (by decide) (by decide) (by decide)))
    (nrm_at m c _ (W6_1 m c main_v29 (by decide) (by decide) (by decide) (by decide) (by decide) (by decide) (by decide)))
    (xw_mu_eq m c) (agg_mu_pt m c)

/-! ## The other head, and the latent matrix -/

theorem xw_sig_eq : W8 m c (Proc.devRef .tc main_v62_0) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (W8_arr m c 4).trans ?_
  funext i
  obtain ⟨p, q, rfl⟩ : ∃ (p : Fin 8192) (q : Fin 64), i = ix2 p q := ⟨i 0, i 1, eq_ix2 i⟩
  rw [final2_4 (Frame.V7 m) c p q, ref_dot_sig,
    show Frame.V7 m c main_v45 = val_main_v49 (F := Ideal) (m ((c : Thread nD τ).loc main_arg0)) (m ((c : Thread nD τ).loc main_arg1)) (m ((c : Thread nD τ).loc main_arg2)) (m ((c : Thread nD τ).loc main_arg3)) from h_at7 m c,
    show Frame.V7 m c main_arg6 = m ((c : Thread nD τ).loc main_arg6) from W7_arg m c main_arg6 (by decide) (by decide) (by decide) (by decide) (by decide) (by decide) (by decide) (by decide) (by decide)]

theorem agg_sig_pt (p : Fin 8192) (q : Fin 64) :
    (by exact W8 m c (Proc.devRef .tc main_v62_1) : S8192x64.Idx → EReal) (ix2 p q)
      = (by exact val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg6)) : S8192x64.Idx → EReal) (ix2 p q) * ((by exact val_main_v11 (F := Ideal) (m ((c : Thread nD τ).loc main_arg1)) : S8192.Idx → EReal) (ix1 p) * (by exact val_main_v11 (F := Ideal) (m ((c : Thread nD τ).loc main_arg1)) : S8192.Idx → EReal) (ix1 p))
        + (by exact (m ((c : Thread nD τ).loc main_arg7)) : S64.Idx → EReal) (ix1 q) := by
  refine (congrFun (W8_arr m c 5) (ix2 p q)).trans ?_
  rw [final2_5 (Frame.V7 m) c p q, ref_dot_sig,
    show Frame.V7 m c main_v45 = val_main_v49 (F := Ideal) (m ((c : Thread nD τ).loc main_arg0)) (m ((c : Thread nD τ).loc main_arg1)) (m ((c : Thread nD τ).loc main_arg2)) (m ((c : Thread nD τ).loc main_arg3)) from h_at7 m c,
    show Frame.V7 m c main_arg6 = m ((c : Thread nD τ).loc main_arg6) from W7_arg m c main_arg6 (by decide) (by decide) (by decide) (by decide) (by decide) (by decide) (by decide) (by decide) (by decide),
    show Frame.V7 m c main_v13 = W1 m c (Proc.devRef .tc main_v13) from W7_1 m c main_v13 (by decide) (by decide) (by decide) (by decide) (by decide) (by decide) (by decide) (by decide)]
  refine congrArg₂ (· + ·) (congrArg _ (pre_v13 m c p)) ?_
  refine (pre_v61 (W6 m c) q).trans ?_
  rw [show W6 m c (Proc.devRef .tc main_arg7) = m ((c : Thread nD τ).loc main_arg7) from W6_arg m c main_arg7 (by decide) (by decide) (by decide) (by decide) (by decide) (by decide) (by decide) (by decide)]

/-- The latent matrix the decoder reads is the reference's z. -/
theorem z_eq : W9 m c (Proc.devRef .tc main_v78) = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  layer_z (W8 m c) _ _ _ _ _ _ _ _ _
    (src_at m c _ (W8_1 m c main_v1 (by decide) (by decide) (by decide) (by decide) (by decide) (by decide) (by decide) (by decide) (by decide) (by decide)))
    (dst_at m c _ (W8_1 m c main_v3 (by decide) (by decide) (by decide) (by decide) (by decide) (by decide) (by decide) (by decide) (by decide) (by decide)))
    (nrm_at m c _ (W8_1 m c main_v29 (by decide) (by decide) (by decide) (by decide) (by decide) (by decide) (by decide) (by decide) (by decide) (by decide)))
    (xw_sig_eq m c) (agg_sig_pt m c)
    ((W8_keep m c main_v60 (by decide) (by decide)).trans (mu_eq m c))
    (W8_arg m c main_arg8 (by decide) (by decide) (by decide) (by decide) (by decide) (by decide) (by decide) (by decide) (by decide) (by decide) (by decide))

/-! ## The decoder -/

/-- THE BRIDGE: the array the kernel program ends with is the reference's result, as a function of the nine arguments. -/
theorem bridge : W10 m c (Proc.devRef .tc main_v79) = val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W10_out m c).trans ((arr3_2 (Frame.V9 m) c).trans ((congrArg decG (z_eq m c)).trans (ref_dec _ _ _ _ _ _ _ _ _).symm))

end Cert.Bridge

end
-- ==== Proof.lean ====
/-
  A two-layer graph-convolution encoder with two heads and an inner-product decoder,
      out = logistic (z zᵀ),  z = noise · exp (conv_μ h) + conv_σ h,  h = relu (conv₁ x),
      conv (u) = Â-aggregate of (u W) + (u W) · dinv² + bias,
  computed once by a program whose three dense layers and decoder are kernel calls on row blocks (the edge gathers and
  scatter-adds staying host operations), and once by a plain reference. The five claims:
  * the three programs run, fault nowhere and leave their arguments unchanged. For the two kernel programs this is the
    run of @main item by item (Proof/KRun.lean, Proof/KIRun.lean): each host stretch applies its operations, each kernel
    call leaves its input arrays alone and its output arrays at what its write-backs leave; the decoder reads ONE array
    through two windows, which hold it at the two halves of the full share. The reference's is its generated run.
  * nothing was rewritten in idealizing the kernel program, so that conjunct is trivial.
  * over the extended reals both programs end with the same array. Block by block each kernel call writes what the
    reference's whole-array operation computes: a row block of a matrix product is the rows of the product; the
    self-loop term is the product scaled by dinv² row by row plus the bias row; the decoder's block (i, j) is
    logistic of block i times block j transposed. The edge aggregation is the same gather / scatter-add of equal
    arrays on both sides, never opened. The two sides then differ only in the order of one sum,
    (a·w + b) + S = (S + a·w) + b, which holds in any commutative monoid: no finiteness of the inputs is used.
-/
import proofs.«117362_j53163105190000_1_alg».proof.Defs
import proofs.«117362_j53163105190000_1_alg».proof.Proof.Gen.Kernel
import proofs.«117362_j53163105190000_1_alg».proof.Proof.Gen.KernelIdeal
import proofs.«117362_j53163105190000_1_alg».proof.Proof.Gen.ReferenceIdeal
import proofs.«117362_j53163105190000_1_alg».proof.Proof.Gen.Pre_finite_inputs
import proofs.«117362_j53163105190000_1_alg».proof.Proof.Gen.ReferenceIdeal.Run
import proofs.«117362_j53163105190000_1_alg».proof.Proof.Gen.ReferenceIdeal.Read
import proofs.«117362_j53163105190000_1_alg».proof.Proof.KKeep
import proofs.«117362_j53163105190000_1_alg».proof.Proof.KIKeep
import proofs.«117362_j53163105190000_1_alg».proof.Proof.KIBridgeB

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Frame.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Frame.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs, from memories agreeing on the arguments, end with the decoder's array as the last boundary
    of the kernel program's run has it: the kernel program by its run, the reference by its generated run, whose result
    term is that array (the bridge). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Frame.W10 m c (Proc.devRef .tc Cert.KernelIdeal.main_v79),
    Cert.KernelIdeal.Frame.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v134_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  exact (Cert.Bridge.bridge m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
